-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x2048x1024 .f32) (main_arg1 : FVec F S1024x1024 .f32) (main_arg2 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x2048x1024 : Shape := ⟨3, ![4, 2048, 1024]⟩
abbrev S1024x1024 : Shape := ⟨2, ![1024, 1024]⟩
abbrev S8192x1024 : Shape := ⟨2, ![8192, 1024]⟩
abbrev S512x1024 : Shape := ⟨2, ![512, 1024]⟩
abbrev S1x512x1024 : Shape := ⟨3, ![1, 512, 1024]⟩
abbrev S1x1024x1024 : Shape := ⟨3, ![1, 1024, 1024]⟩
abbrev S1x512x1 : Shape := ⟨3, ![1, 512, 1]⟩
abbrev S1x512 : Shape := ⟨2, ![1, 512]⟩

abbrev nBuf : Space → Nat
  | .hbm => 13
  | .vmem => 21
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S8192x1024, .f32⟩
  | .hbm, ⟨4, _⟩ => ⟨S1024x1024, .bf16⟩
  | .hbm, ⟨5, _⟩ => ⟨S1024x1024, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S4x2048x1024, .bf16⟩
  | .hbm, ⟨10, _⟩ => ⟨S4x2048x1024, .bf16⟩
  | .hbm, ⟨11, _⟩ => ⟨S4x2048x1024, .bf16⟩
  | .hbm, ⟨12, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x512x1024, .f32⟩
  | .local _ .vmem, ⟨17, _⟩ => ⟨S1x512x1024, .f32⟩
  | .local _ .vmem, ⟨18, _⟩ => ⟨S1x512x1, .f32⟩
  | .local _ .vmem, ⟨19, _⟩ => ⟨S1x512x1, .f32⟩
  | .local _ .vmem, ⟨20, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![4, 4, 2], ![false, false, false]⟩

def k1_cond2 (i : grid1.Coords) : BitVec 1 :=
  let arg2 : BitVec 32 := BitVec.ofNat 32 (i 2).val
  let c1_i32 : BitVec 32 := 1#32
  let v42 : BitVec 1 := Scalar.cmpi .eq arg2 c1_i32
  let v43 : BitVec 32 := Scalar.extui v42
  let c0_i32_34 : BitVec 32 := 0#32
  let v44 : BitVec 1 := Scalar.cmpi .ne v43 c0_i32_34
  v44

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x1024_S8192x1024 : S4x2048x1024.ShapeCasts S8192x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1x512x1_S1x512x1_0_0_0 : ∀ a, (![0, 0, 0] : Fin 3 → Nat) a + S1x512x1.size a ≤ S1x512x1.size a
  h_S1x512x1 : 0 < S1x512x1.numel
  shapeCasts_S1x512x1_S1x512x1 : S1x512x1.ShapeCasts S1x512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S1x512x1024 : S1x512x1024.ShapeCasts S1x512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1x1024x1024 : S1x1024x1024.ShapeCasts S1x1024x1024
  reduces_S1x512x1024_S1x512 : S1x512x1024.Reduces [2] S1x512
  shapeCasts_S1x512_S1x512x1 : S1x512.ShapeCasts S1x512x1
  broadcasts_S1x512x1_S1x512x1024 : S1x512x1.Broadcasts S1x512x1024
  dot_S512x1024_S1024x1024_S512x1024_1_0_0_1_n_n_wf : DotDims.WF S512x1024 S1024x1024 S512x1024 [1] [0] [0] [1] [] []
  dot_S1x512x1024_S1x1024x1024_S1x512x1024_2_2_1_1_0_0_wf : DotDims.WF S1x512x1024 S1x1024x1024 S1x512x1024 [2] [2] [1] [1] [0] [0]
  dot_S1x512x1024_S1x1024x1024_S1x512x1024_2_1_1_2_0_0_wf : DotDims.WF S1x512x1024 S1x1024x1024 S1x512x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .bf16 = 32 ∨ (Rect.block (s := S4x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S4x2048x1024.size a
  hwx1_1 : ∀ i : grid1.Coords, EltTy.bits .bf16 = 32 ∨ (Rect.block (s := S4x2048x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x2048x1024.size a
  hwx1_2 : ∀ i : grid1.Coords, EltTy.bits .bf16 = 32 ∨ (Rect.block (s := S4x2048x1024) S1x1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .f32 = 32 ∨ (Rect.block (s := S4x2048x1024) S1x512x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1x512x1024_S1x1024x1024_S1x512x1024_2_2_1_1_0_0 : DotDims S1x512x1024 S1x1024x1024 S1x512x1024 where
  lhsContracting := [2]
  rhsContracting := [2]
  lhsNonContracting := [1]
  rhsNonContracting := [1]
  lhsBatch := [0]
  rhsBatch := [0]
  wf := dot_S1x512x1024_S1x1024x1024_S1x512x1024_2_2_1_1_0_0_wf
def dot_S1x512x1024_S1x1024x1024_S1x512x1024_2_1_1_2_0_0 : DotDims S1x512x1024 S1x1024x1024 S1x512x1024 where
  lhsContracting := [2]
  rhsContracting := [1]
  lhsNonContracting := [1]
  rhsNonContracting := [2]
  lhsBatch := [0]
  rhsBatch := [0]
  wf := dot_S1x512x1024_S1x1024x1024_S1x512x1024_2_1_1_2_0_0_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S4x2048x1024, .f32⟩
  | .hbm, ⟨4, _⟩ => ⟨S4x2048x1024, .f32⟩
  | .hbm, ⟨5, _⟩ => ⟨S4x2048x2048, .f32⟩
  | .hbm, ⟨6, _⟩ => ⟨S_, .f32⟩
  | .hbm, ⟨7, _⟩ => ⟨S_, .f32⟩
  | .hbm, ⟨8, _⟩ => ⟨S4x2048x2048, .f32⟩
  | .hbm, ⟨9, _⟩ => ⟨S4x2048x2048, .f32⟩
  | .hbm, ⟨10, _⟩ => ⟨S_, .f32⟩
  | .hbm, ⟨11, _⟩ => ⟨S4x2048, .f32⟩
  | .hbm, ⟨12, _⟩ => ⟨S_, .f32⟩
  | .hbm, ⟨13, _⟩ => ⟨S4x2048, .f32⟩
  | .hbm, ⟨14, _⟩ => ⟨S4x2048, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S_, .f32⟩
  | .hbm, ⟨20, _⟩ => ⟨S4x2048, .f32⟩
  | .hbm, ⟨21, _⟩ => ⟨S4x2048x1, .f32⟩
  | .hbm, ⟨22, _⟩ => ⟨S4x2048x2048, .f32⟩
  | .hbm, ⟨23, _⟩ => ⟨S4x2048x2048, .f32⟩
  | .hbm, ⟨24, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.K.Region0.lean ====
/-
  The kernel's first region (the projection kernel), on its grid of 16 points: the half
  of the frame argument that is about the kernel body.

  The pipeline has six windows. Windows 0, 1, 2 are inputs: a block of 512 rows of the [8192,1024] activations
  (fetched at every point) and the two whole [1024,1024] weight matrices (fetched once, at the first point, and
  left in their buffers from then on). Windows 3, 4, 5 are outputs, each a block of 512 rows of an [8192,1024]
  array written back at every point. The body loads the three inputs whole and stores, whole, the two products
  and the rounded activations; it has no conditional and keeps nothing from point to point, so what it leaves in
  each output buffer is a closed function of the three input blocks at the point.

  Everything is stated at a parameter V, the TensorCore's buffer contents when the region is entered, and at any
  float instance F.
-/
import proofs.«180799_j16922171146838_2_alg».proof.Proof.Gen.Kernel.Launch
import proofs.«180799_j16922171146838_2_alg».proof.Proof.Gen.Kernel.Skeleton
import proofs.«180799_j16922171146838_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (a whole weight matrix, fetched at the first point only): where it is not fetched its block
    index has not moved, so the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the other weight matrix), the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and each store is of a whole buffer -/

abbrev r0_0 : Rect S512x1024 := Rect.unit (s := S512x1024) ![0, 0] S512x1024.size inb_S512x1024_S512x1024_0_0
abbrev r0_1 : Rect S1024x1024 := Rect.unit (s := S1024x1024) ![0, 0] S1024x1024.size inb_S1024x1024_S1024x1024_0_0

/-! ## What the body leaves in each output window's buffer -/

/-- Window 3 after the body: the rounded product of the activation block with the first weight matrix. -/
def out0_3 (x0 : Vec F S512x1024 .f32) (x1 : Vec F S1024x1024 .bf16) : Vec F S512x1024 .bf16 :=
  View.canon [⟨r0_0, k0_pay2 (View.ld x0 r0_0) (View.ld x1 r0_1)⟩]

/-- Window 4 after the body: the rounded product of the activation block with the second weight matrix. -/
def out0_4 (x0 : Vec F S512x1024 .f32) (x2 : Vec F S1024x1024 .bf16) : Vec F S512x1024 .bf16 :=
  View.canon [⟨r0_0, k0_pay3 (View.ld x0 r0_0) (View.ld x2 r0_1)⟩]

/-- Window 5 after the body: the rounded activation block. -/
def out0_5 (x0 : Vec F S512x1024 .f32) : Vec F S512x1024 .bf16 :=
  View.canon [⟨r0_0, k0_pay1 (View.ld x0 r0_0)⟩]

/-- One whole-buffer store covers the buffer. -/
theorem cover0 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 1000000 in
/-- The kernel body on whole staging memrefs, the inputs' at read contents x0, x1, x2 and the outputs' at anything,
    runs to the continuation holding the inputs' as they were and each output's at out0_W of the inputs'. -/
theorem sound_kernel0 (c : Dev nD) (E : Set ℕ) (i : grid0.Coords) (arg1 : Memref sig .tc .vmem S512x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole)
    (x0 : Vec F S512x1024 .f32) (x1 : Vec F S1024x1024 .bf16) (x2 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2) ∗ owns (c : Thread nD τ) arg6 fullShare (out0_5 x0)) -∗ K ⟨⟩))
      ⊢ wp frame (wpE (defs₀ (F := F)) Variants.none c none) E (cc0__project_kernel i arg1 harg1 arg2 harg2 arg3 harg3 arg4 harg4 arg5 harg5 arg6 harg6) K := by
  simp only [cc0__project_kernel_eq_skeleton]; unfold cc0__project_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The pipeline's proof data -/

/-- The proof data of this pipeline on core c: the arrays as the region finds them; after the body at point t
    each input's buffer at its block and each output's at out0_W of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
    | ⟨5, _⟩ => out0_5 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]
theorem after0_5 (c : Dev nD) (t : Fin cfg0.N) : (dat0 V c).after 5 t = out0_5 (iblk0 V c 0 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation the pipeline's run theorem asks for, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.K.Region1Runs.lean ====
/-
  The second kernel's body (an online-softmax attention step over one key tile) run symbolically at the two kinds of grid
  point there are: a first key tile, where it resets its three kept buffers before the step, and a last key tile, where
  after the step it also stores the output block. Generic in the float instance.
-/
import proofs.«180799_j16922171146838_2_alg».proof.Proof.Gen.Kernel.Launch
import proofs.«180799_j16922171146838_2_alg».proof.Proof.Gen.Kernel.Skeleton
import proofs.«180799_j16922171146838_2_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One key tile's step on the running triple, as the body computes it

The body of the second kernel, at a grid point (batch, query tile, key tile), holds a query block x0 [1,512,1024], a key
block x1 and a value block x2 [1,1024,1024], and three buffers it keeps between points: the running row maximum m
[1,512,1], the running row sum l [1,512,1] and the running weighted sum a [1,512,1024]. From (m, l, a) it makes -/

/-- the new maximum: max m (row maximum of the tile's scaled logits), -/
def stepM (x0 : Vec F S1x512x1024 .bf16) (x1 : Vec F S1x1024x1024 .bf16) (m : Vec F S1x512x1 .f32) : Vec F S1x512x1 .f32 :=
  k1_pay3 (k1_pay10 x0 x1 m)
/-- the new sum: exp(m − new maximum) · l + the row sum of exp(logit − new maximum), -/
def stepL (x0 : Vec F S1x512x1024 .bf16) (x1 : Vec F S1x1024x1024 .bf16) (m l : Vec F S1x512x1 .f32) : Vec F S1x512x1 .f32 :=
  k1_pay1 (k1_pay13 x0 x1 m m l)
/-- the new weighted sum: exp(m − new maximum) · a + exp(logit − new maximum) times the value block, -/
def stepA (x0 : Vec F S1x512x1024 .bf16) (x1 x2 : Vec F S1x1024x1024 .bf16) (m : Vec F S1x512x1 .f32) (a : Vec F S1x512x1024 .f32) :
    Vec F S1x512x1024 .f32 :=
  k1_pay2 (k1_pay8 x2) (k1_pay11 x0 x1 m m) (k1_pay12 x0 x1 m) a
/-- and, at the last key tile, the output block: weighted sum over sum. -/
def outO (a : Vec F S1x512x1024 .f32) (l : Vec F S1x512x1 .f32) : Vec F S1x512x1024 .f32 := k1_pay4 a l

/-- The triple a first key tile starts from: −∞, 0, 0. -/
abbrev m0 : Vec F S1x512x1 .f32 := k1_pay5
abbrev l0 : Vec F S1x512x1 .f32 := k1_pay6
abbrev a0 : Vec F S1x512x1024 .f32 := k1_pay7

/-! ## The body's two conditionals, from the grid coordinates -/

/-- "This is the first key tile": the third grid coordinate is 0. -/
abbrev cond1_0 (i : grid1.Coords) : Prop :=
  Scalar.cmpi .ne (Scalar.extui (Scalar.cmpi .eq (BitVec.ofNat 32 (i 2).val) 0#32)) 0#32 = 1#1
/-- "This is the last key tile": the third grid coordinate is 1. -/
abbrev cond1_1 (i : grid1.Coords) : Prop := k1_cond2 i = 1#1

/-- They hold at the even, respectively the odd, points of the grid (the key tile is the fastest axis, of extent 2). -/
theorem hcond1_0 : ∀ t : Fin cfg1.N, cond1_0 (grid1.coords t) ↔ t.val % 2 = 0 :=
  (by decide +kernel : ∀ t : Fin grid1.N, cond1_0 (grid1.coords t) ↔ t.val % 2 = 0)
theorem hcond1_1 : ∀ t : Fin cfg1.N, cond1_1 (grid1.coords t) ↔ t.val % 2 = 1 :=
  (by decide +kernel : ∀ t : Fin grid1.N, cond1_1 (grid1.coords t) ↔ t.val % 2 = 1)

/-! ## Whole-buffer accesses -/

theorem hz3 : (![0, 0, 0] : Fin 3 → Nat) = fun _ => 0 := by funext a; fin_cases a <;> rfl

/-- A buffer whose LAST store covered it whole reads back as that store's value, whatever was stored before. -/
theorem read_writes_whole_last {sg : RefSig} {κ : Kind} {sp : Space} {S : Shape} {e : EltTy}
    (v : View sg κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The body's run at a first key tile and at a last key tile -/

set_option maxHeartbeats 4000000 in
/-- AT A FIRST KEY TILE (the first conditional taken, the second not): whatever the three kept buffers held, the body
    resets them to (−∞, 0, 0) and leaves them one step on; the output block's buffer is not touched. -/
theorem kernelRun1_A (c : Dev nD) (i : grid1.Coords)
    (arg3 : Memref sig .tc .vmem S1x512x1024 .bf16) (harg3 : arg3.IsWhole) (arg4 : Memref sig .tc .vmem S1x1024x1024 .bf16) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S1x512x1 .f32) (harg7 : arg7.IsWhole) (arg8 : Memref sig .tc .vmem S1x512x1 .f32) (harg8 : arg8.IsWhole)
    (arg9 : Memref sig .tc .vmem S1x512x1024 .f32) (harg9 : arg9.IsWhole)
    (hc0 : cond1_0 i) (hc1 : ¬cond1_1 i)
    (x0 : Vec F S1x512x1024 .bf16) (x1 : Vec F S1x1024x1024 .bf16) (x2 : Vec F S1x1024x1024 .bf16)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ (∃ d, owns (c : Thread nD τ) arg6 fullShare d)
            ∗ owns (c : Thread nD τ) arg7 fullShare (stepM x0 x1 m0)
            ∗ owns (c : Thread nD τ) arg8 fullShare (stepL x0 x1 m0 l0)
            ∗ owns (c : Thread nD τ) arg9 fullShare (stepA x0 x1 x2 m0 a0)) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton, k1_part1_eq_skeleton]; unfold cc1__flash_kernel_skel
  unfold owns
  iintro ⟨⟨%f0, %hf0, H0⟩, ⟨%f1, %hf1, H1⟩, ⟨%f2, %hf2, H2⟩, ⟨%d3, %f3, %hf3, H3⟩, ⟨%d4, %f4, -, H4⟩, ⟨%d5, %f5, -, H5⟩, ⟨%d6, %f6, -, H6⟩, Hk⟩
  obtain rfl := harg3.eq_unread hf0
  obtain rfl := harg4.eq_unread hf1
  obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists d3, f3; isplitr; · ipureintro; exact hf3
    iexact H3
  isplitl [H4]
  · iexists _; isplitr; swap; · iexact H4
    ipureintro
    refine (read_writes_whole_last _ _ hz3 _ _ _).trans ?_
    sl_unfold_run_names
    simp only [View.readAt_eq_ld, harg3.read_unread, harg4.read_unread, harg5.read_unread, harg7.read_unread, harg8.read_unread, harg9.read_unread,
      View.ld_unit_zero (S := S1x512x1024) hz3, View.ld_unit_zero (S := S1x1024x1024) hz3, View.ld_unit_zero (S := S1x512x1) hz3, View.readCov_unit_zero arg7.view hz3, View.readCov_unit_zero arg8.view hz3, View.readCov_unit_zero arg9.view hz3]
    rfl
  isplitl [H5]
  · iexists _; isplitr; swap; · iexact H5
    ipureintro
    refine (read_writes_whole_last _ _ hz3 _ _ _).trans ?_
    sl_unfold_run_names
    simp only [View.readAt_eq_ld, harg3.read_unread, harg4.read_unread, harg5.read_unread, harg7.read_unread, harg8.read_unread, harg9.read_unread,
      View.ld_unit_zero (S := S1x512x1024) hz3, View.ld_unit_zero (S := S1x1024x1024) hz3, View.ld_unit_zero (S := S1x512x1) hz3, View.readCov_unit_zero arg7.view hz3, View.readCov_unit_zero arg8.view hz3, View.readCov_unit_zero arg9.view hz3]
    rfl
  · iexists _; isplitr; swap; · iexact H6
    ipureintro
    refine (read_writes_whole_last _ _ hz3 _ _ _).trans ?_
    sl_unfold_run_names
    simp only [View.readAt_eq_ld, harg3.read_unread, harg4.read_unread, harg5.read_unread, harg7.read_unread, harg8.read_unread, harg9.read_unread,
      View.ld_unit_zero (S := S1x512x1024) hz3, View.ld_unit_zero (S := S1x1024x1024) hz3, View.ld_unit_zero (S := S1x512x1) hz3, View.readCov_unit_zero arg7.view hz3, View.readCov_unit_zero arg8.view hz3, View.readCov_unit_zero arg9.view hz3]
    rfl

set_option maxHeartbeats 4000000 in
/-- AT A LAST KEY TILE (the first conditional not taken, the second taken): from the kept buffers at (m, l, a) the body
    leaves them one step on and stores the output block, the new weighted sum over the new sum. -/
theorem kernelRun1_B (c : Dev nD) (i : grid1.Coords)
    (arg3 : Memref sig .tc .vmem S1x512x1024 .bf16) (harg3 : arg3.IsWhole) (arg4 : Memref sig .tc .vmem S1x1024x1024 .bf16) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S1x512x1 .f32) (harg7 : arg7.IsWhole) (arg8 : Memref sig .tc .vmem S1x512x1 .f32) (harg8 : arg8.IsWhole)
    (arg9 : Memref sig .tc .vmem S1x512x1024 .f32) (harg9 : arg9.IsWhole)
    (hc0 : ¬cond1_0 i) (hc1 : cond1_1 i)
    (x0 : Vec F S1x512x1024 .bf16) (x1 : Vec F S1x1024x1024 .bf16) (x2 : Vec F S1x1024x1024 .bf16)
    (m l : Vec F S1x512x1 .f32) (a : Vec F S1x512x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare m
        ∗ owns (c : Thread nD τ) arg8 fullShare l ∗ owns (c : Thread nD τ) arg9 fullShare a
        ∗ (iprop(owns (c : Thread nD τ) arg3 fullShare x0 ∗ owns (c : Thread nD τ) arg4 fullShare x1 ∗ owns (c : Thread nD τ) arg5 fullShare x2
            ∗ owns (c : Thread nD τ) arg6 fullShare (outO (stepA x0 x1 x2 m a) (stepL x0 x1 m l))
            ∗ owns (c : Thread nD τ) arg7 fullShare (stepM x0 x1 m)
            ∗ owns (c : Thread nD τ) arg8 fullShare (stepL x0 x1 m l)
            ∗ owns (c : Thread nD τ) arg9 fullShare (stepA x0 x1 x2 m a)) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton, k1_part1_eq_skeleton]; unfold cc1__flash_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, Hk⟩
  obtain rfl := harg3.eq_unread hf0
  obtain rfl := harg4.eq_unread hf1
  obtain rfl := harg5.eq_unread hf2
  obtain rfl := harg7.eq_unread hf4
  obtain rfl := harg8.eq_unread hf5
  obtain rfl := harg9.eq_unread hf6
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    refine (read_writes_whole_last _ _ hz3 _ _ _).trans ?_
    sl_unfold_run_names
    simp only [View.readAt_eq_ld, harg3.read_unread, harg4.read_unread, harg5.read_unread, harg7.read_unread, harg8.read_unread, harg9.read_unread,
      View.ld_unit_zero (S := S1x512x1024) hz3, View.ld_unit_zero (S := S1x1024x1024) hz3, View.ld_unit_zero (S := S1x512x1) hz3, View.readCov_unit_zero arg7.view hz3, View.readCov_unit_zero arg8.view hz3, View.readCov_unit_zero arg9.view hz3]
    rfl
  isplitl [H4]
  · iexists _; isplitr; swap; · iexact H4
    ipureintro
    refine (read_writes_whole_last _ _ hz3 _ _ _).trans ?_
    sl_unfold_run_names
    simp only [View.readAt_eq_ld, harg3.read_unread, harg4.read_unread, harg5.read_unread, harg7.read_unread, harg8.read_unread, harg9.read_unread,
      View.ld_unit_zero (S := S1x512x1024) hz3, View.ld_unit_zero (S := S1x1024x1024) hz3, View.ld_unit_zero (S := S1x512x1) hz3, View.readCov_unit_zero arg7.view hz3, View.readCov_unit_zero arg8.view hz3, View.readCov_unit_zero arg9.view hz3]
    rfl
  isplitl [H5]
  · iexists _; isplitr; swap; · iexact H5
    ipureintro
    refine (read_writes_whole_last _ _ hz3 _ _ _).trans ?_
    sl_unfold_run_names
    simp only [View.readAt_eq_ld, harg3.read_unread, harg4.read_unread, harg5.read_unread, harg7.read_unread, harg8.read_unread, harg9.read_unread,
      View.ld_unit_zero (S := S1x512x1024) hz3, View.ld_unit_zero (S := S1x1024x1024) hz3, View.ld_unit_zero (S := S1x512x1) hz3, View.readCov_unit_zero arg7.view hz3, View.readCov_unit_zero arg8.view hz3, View.readCov_unit_zero arg9.view hz3]
    rfl
  · iexists _; isplitr; swap; · iexact H6
    ipureintro
    refine (read_writes_whole_last _ _ hz3 _ _ _).trans ?_
    sl_unfold_run_names
    simp only [View.readAt_eq_ld, harg3.read_unread, harg4.read_unread, harg5.read_unread, harg7.read_unread, harg8.read_unread, harg9.read_unread,
      View.ld_unit_zero (S := S1x512x1024) hz3, View.ld_unit_zero (S := S1x1024x1024) hz3, View.ld_unit_zero (S := S1x512x1) hz3, View.readCov_unit_zero arg7.view hz3, View.readCov_unit_zero arg8.view hz3, View.readCov_unit_zero arg9.view hz3]
    rfl

end Cert.Kernel.Hand

end
-- ==== Proof.K.Region1.lean ====
/-
  The second kernel's proof data over its grid of 32 points (batch × query tile × key tile, the key tile fastest): what
  the three buffers it keeps between points hold after each point, the invariant that names them, what each window's
  staging buffer holds after the body, and the body obligation, at a parameter V — the buffers' contents when the
  region is entered. Generic in the float instance.
-/
import proofs.«180799_j16922171146838_2_alg».proof.Proof.Gen.Kernel.Launch
import proofs.«180799_j16922171146838_2_alg».proof.Proof.Gen.Kernel.Skeleton
import proofs.«180799_j16922171146838_2_alg».proof.Proof.Gen.Kernel.Points
import proofs.«180799_j16922171146838_2_alg».proof.Proof.K.Region1Runs
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the query block is
    fetched at the first key tile only and its index does not move at the second). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the kept buffers hold after each point -/

/-- The point before t (t itself at the first point). -/
def prevPt (t : Fin cfg1.N) : Fin cfg1.N := ⟨t.val - 1, Nat.lt_of_le_of_lt (Nat.sub_le _ _) t.isLt⟩

/-- After a FIRST key tile's point t: one step from (−∞, 0, 0) on the blocks of t. -/
def mE (c : Dev nD) (t : Fin cfg1.N) : Vec F S1x512x1 .f32 := stepM (iblk1 V c 0 t) (iblk1 V c 1 t) m0
def lE (c : Dev nD) (t : Fin cfg1.N) : Vec F S1x512x1 .f32 := stepL (iblk1 V c 0 t) (iblk1 V c 1 t) m0 l0
def aE (c : Dev nD) (t : Fin cfg1.N) : Vec F S1x512x1024 .f32 := stepA (iblk1 V c 0 t) (iblk1 V c 1 t) (iblk1 V c 2 t) m0 a0
/-- After a LAST key tile's point t: one step, on the blocks of t, from what the point before left. -/
def mO (c : Dev nD) (t : Fin cfg1.N) : Vec F S1x512x1 .f32 := stepM (iblk1 V c 0 t) (iblk1 V c 1 t) (mE V c (prevPt t))
def lO (c : Dev nD) (t : Fin cfg1.N) : Vec F S1x512x1 .f32 := stepL (iblk1 V c 0 t) (iblk1 V c 1 t) (mE V c (prevPt t)) (lE V c (prevPt t))
def aO (c : Dev nD) (t : Fin cfg1.N) : Vec F S1x512x1024 .f32 :=
  stepA (iblk1 V c 0 t) (iblk1 V c 1 t) (iblk1 V c 2 t) (mE V c (prevPt t)) (aE V c (prevPt t))
/-- After point t, of either kind (even points are first key tiles, odd points last ones). -/
def mAt (c : Dev nD) (t : Fin cfg1.N) : Vec F S1x512x1 .f32 := if t.val % 2 = 0 then mE V c t else mO V c t
def lAt (c : Dev nD) (t : Fin cfg1.N) : Vec F S1x512x1 .f32 := if t.val % 2 = 0 then lE V c t else lO V c t
def aAt (c : Dev nD) (t : Fin cfg1.N) : Vec F S1x512x1024 .f32 := if t.val % 2 = 0 then aE V c t else aO V c t
/-- The output block a last key tile's point stores. -/
def oAt (c : Dev nD) (t : Fin cfg1.N) : Vec F S1x512x1024 .f32 := outO (aAt V c t) (lAt V c t)

/-! ## The invariant between points -/

abbrev scM1_0 : Memref sig .tc .vmem S1x512x1 .f32 := Memref.whole cc1_scratch0
abbrev scM1_1 : Memref sig .tc .vmem S1x512x1 .f32 := Memref.whole cc1_scratch1
abbrev scM1_2 : Memref sig .tc .vmem S1x512x1024 .f32 := Memref.whole cc1_scratch2

/-- The first kernel's staging buffers, which this region never touches, each whole at some contents. -/
def otherStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The class invariant with the three kept buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The invariant before position n: before the first point the class's (the kept buffers at anything); afterwards the
    same with the kept buffers at what the point before left in them. -/
def Phi1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1_0 fullShare (mAt V c ⟨n, hn⟩) ∗ owns (c : Thread nD τ) scM1_1 fullShare (lAt V c ⟨n, hn⟩) ∗ owns (c : Thread nD τ) scM1_2 fullShare (aAt V c ⟨n, hn⟩)) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1_0 fullShare (mAt V c ⟨n, hn⟩) ∗ owns (c : Thread nD τ) scM1_1 fullShare (lAt V c ⟨n, hn⟩) ∗ owns (c : Thread nD τ) scM1_2 fullShare (aAt V c ⟨n, hn⟩)) ∗ (∃ r, prngReg c r)) := rfl
theorem Phi1_pos (c : Dev nD) (n : ℕ) (h : n ≤ cfg1.N) (hz : n ≠ 0) :
    Phi1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1_0 fullShare (mAt V c ⟨n - 1, by omega⟩) ∗ owns (c : Thread nD τ) scM1_1 fullShare (lAt V c ⟨n - 1, by omega⟩) ∗ owns (c : Thread nD τ) scM1_2 fullShare (aAt V c ⟨n - 1, by omega⟩)) ∗ (∃ r, prngReg c r)) := by
  cases n with
  | zero => exact absurd rfl hz
  | succ n => rfl

/-- Whatever the kept buffers are named at, the invariant gives them up at some contents (the class's form). -/
theorem Phi1_forget (c : Dev nD) (n : ℕ) (h : n ≤ cfg1.N) : Phi1 V c n h ⊢ (Pipeline.ΦA spec1 c : sProp 𝕄) := by
  by_cases hz : n = 0
  · rw [Phi1_zero V c n h hz]
  · rw [Phi1_pos V c n h hz, PhiA1_eq]
    iintro ⟨⟨S0, S1, S2, S3, S4, S5, S6, S7, S8, S9, H7, H8, H9⟩, Hp⟩
    isplitr [Hp]; swap; · iexact Hp
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [H7]; · iexists _; iexact H7
    isplitl [H8]; · iexists _; iexact H8
    iexists _; iexact H9

/-! ## The proof data -/

/-- The proof data of the second pipeline on core c: the arrays as the region finds them; after the body at point t each
    input's buffer at its block and the output's at the block a last key tile stores (at a first key tile the output is
    idle and nothing is said of it); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => oAt V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = oAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

theorem Phi1_castSucc (c : Dev nD) (t : Fin cfg1.N) :
    (dat1 V c).Φ t.castSucc = Phi1 V c t.val (Nat.le_of_lt t.isLt) := by
  dsimp only [dat1]; simp only [Fin.coe_castSucc]

/-! ## Where the output window is idle and where it is written back -/

theorem idle1_3 : ∀ t : Fin cfg1.N, cfg1.idle 3 (grid1.coords t) = true ↔ t.val % 2 = 0 :=
  (by decide +kernel : ∀ t : Fin grid1.N, idle1 3 (grid1.coords t) = true ↔ t.val % 2 = 0)
theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl

/-! ## The output window's buffer is handed to the body as the pipeline found it -/

theorem fetch1_3 : ∀ t : Fin cfg1.N, (cfg1.win 3).fetch t = false :=
  (by decide +kernel : ∀ t : Fin grid1.N, win1_3.fetch t = false)

/-- The output's staging buffer reaches the body holding whatever an unfilled buffer holds: nothing is fetched into an
    output, a written-back buffer is handed on unnamed, and a first key tile leaves it as found. -/
theorem before1_3 (c : Dev nD) : ∀ (n : ℕ) (h : n < cfg1.N) (d), (dat1 V c).before 3 ⟨n, h⟩ d = d := by
  intro n
  induction n using Nat.strong_induction_on with
  | _ n ih =>
    intro h d
    by_cases hz : n = 0
    · unfold Dat.before
      rw [fetch1_3 ⟨n, h⟩, if_neg Bool.false_ne_true, if_pos hz]
    · rw [Dat.before_of_pos _ 3 ⟨n, h⟩ hz (fetch1_3 _)]
      by_cases hfl : (cfg1.win 3).flush ⟨n - 1, Nat.lt_of_le_of_lt (Nat.sub_le _ _) h⟩ = true
      · rw [if_pos hfl]
      · rw [if_neg hfl]
        have hodd : ¬ (n - 1) % 2 = 1 := fun h' => hfl ((flush1_3 ⟨n - 1, Nat.lt_of_le_of_lt (Nat.sub_le _ _) h⟩).mpr h')
        have hidle : cfg1.idle 3 (cfg1.grid.coords ⟨n - 1, Nat.lt_of_le_of_lt (Nat.sub_le _ _) h⟩) = true :=
          (idle1_3 ⟨n - 1, Nat.lt_of_le_of_lt (Nat.sub_le _ _) h⟩).mpr (show (n - 1) % 2 = 0 by omega)
        unfold Dat.left
        rw [hidle]
        exact ih (n - 1) (by omega) _ d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 2000000 in
/-- The body at any point. At a first key tile (even point) the invariant gives the kept buffers up at whatever they
    hold, the body resets them and leaves them one step on, and the output's buffer goes back as it came. At a last key
    tile (odd point) the invariant names the kept buffers at what the point before (a first key tile) left, and the body
    leaves them one more step on and the output block in the output's buffer. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = Phi1 V c (t.val + 1) t.isLt from rfl, Phi1_succ, Phi1_castSucc V c t,
    show (dat1 V c).leavesExact 0 t = owns (c : Thread nD τ) (st1_0 t) fullShare ((dat1 V c).after 0 t) from by
      unfold Dat.leavesExact; rw [live1_0 t],
    show (dat1 V c).leavesExact 1 t = owns (c : Thread nD τ) (st1_1 t) fullShare ((dat1 V c).after 1 t) from by
      unfold Dat.leavesExact; rw [live1_1 t],
    show (dat1 V c).leavesExact 2 t = owns (c : Thread nD τ) (st1_2 t) fullShare ((dat1 V c).after 2 t) from by
      unfold Dat.leavesExact; rw [live1_2 t],
    after1_0, after1_1, after1_2]
  by_cases h0 : t.val % 2 = 0
  · -- a first key tile
    have hi : cfg1.idle 3 (grid1.coords t) = true := (idle1_3 t).mpr h0
    have hf : (cfg1.win 3).flush t = false := by
      cases h : (cfg1.win 3).flush t
      · rfl
      · exact absurd ((flush1_3 t).mp h) (by omega)
    rw [Dat.leavesExact_idle _ 3 t hi hf]
    have em : mAt V c ⟨t.val, t.isLt⟩ = stepM (iblk1 V c 0 t) (iblk1 V c 1 t) m0 := by unfold mAt; rw [if_pos h0]; rfl
    have el : lAt V c ⟨t.val, t.isLt⟩ = stepL (iblk1 V c 0 t) (iblk1 V c 1 t) m0 l0 := by unfold lAt; rw [if_pos h0]; rfl
    have ea : aAt V c ⟨t.val, t.isLt⟩ = stepA (iblk1 V c 0 t) (iblk1 V c 1 t) (iblk1 V c 2 t) m0 a0 := by unfold aAt; rw [if_pos h0]; rfl
    rw [em, el, ea]
    refine (sep_mono (Phi1_forget V c _ _) .rfl).trans ?_
    rw [PhiA1_eq]
    iintro ⟨⟨⟨S0, S1, S2, S3, S4, S5, S6, S7, S8, S9, H7, H8, H9⟩, Hp⟩, Ho, ⟨%d0, H0⟩, ⟨%d1, H1⟩, ⟨%d2, H2⟩, ⟨%d3, H3⟩⟩
    iapply (kernelRun1_A c (grid1.coords t) _ _ _ _ _ _ _ _ _ _ _ _ _ _ ((hcond1_0 t).mpr h0)
      (fun h => by have := (hcond1_1 t).mp h; omega) (iblk1 V c 0 t) (iblk1 V c 1 t) (iblk1 V c 2 t) Set.univ _)
    isplitl [H0]; · iexact H0
    isplitl [H1]; · iexact H1
    isplitl [H2]; · iexact H2
    isplitl [H3]; · iexists _; iexact H3
    isplitl [H7]; · iexact H7
    isplitl [H8]; · iexact H8
    isplitl [H9]; · iexact H9
    iintro ⟨H0, H1, H2, ⟨%d3', H3⟩, H7, H8, H9⟩
    isplitl [S0 S1 S2 S3 S4 S5 S6 S7 S8 S9 H7 H8 H9 Hp]
    · isplitr [Hp]; swap; · iexact Hp
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [H7]; · iexact H7
      isplitl [H8]; · iexact H8
      iexact H9
    isplitl [Ho]; · iexact Ho
    isplitl [H0]; · iexact H0
    isplitl [H1]; · iexact H1
    isplitl [H2]; · iexact H2
    iexists d3'
    rw [before1_3 V c t.val t.isLt d3']
    iexact H3
  · -- a last key tile
    have h1 : t.val % 2 = 1 := by omega
    have hne : t.val ≠ 0 := by omega
    have hi : cfg1.idle 3 (grid1.coords t) = false := by
      cases h : cfg1.idle 3 (grid1.coords t)
      · rfl
      · exact absurd ((idle1_3 t).mp h) h0
    rw [show (dat1 V c).leavesExact 3 t = owns (c : Thread nD τ) (st1_3 t) fullShare ((dat1 V c).after 3 t) from by
      unfold Dat.leavesExact; rw [hi], after1_3, Phi1_pos V c _ _ hne]
    have pm : mAt V c ⟨t.val - 1, by omega⟩ = mE V c (prevPt t) := by
      unfold mAt; rw [if_pos (show (t.val - 1) % 2 = 0 by omega)]; rfl
    have pl : lAt V c ⟨t.val - 1, by omega⟩ = lE V c (prevPt t) := by
      unfold lAt; rw [if_pos (show (t.val - 1) % 2 = 0 by omega)]; rfl
    have pa : aAt V c ⟨t.val - 1, by omega⟩ = aE V c (prevPt t) := by
      unfold aAt; rw [if_pos (show (t.val - 1) % 2 = 0 by omega)]; rfl
    have em : mAt V c ⟨t.val, t.isLt⟩ = stepM (iblk1 V c 0 t) (iblk1 V c 1 t) (mE V c (prevPt t)) := by unfold mAt; rw [if_neg h0]; rfl
    have el : lAt V c ⟨t.val, t.isLt⟩ = stepL (iblk1 V c 0 t) (iblk1 V c 1 t) (mE V c (prevPt t)) (lE V c (prevPt t)) := by unfold lAt; rw [if_neg h0]; rfl
    have ea : aAt V c ⟨t.val, t.isLt⟩ = stepA (iblk1 V c 0 t) (iblk1 V c 1 t) (iblk1 V c 2 t) (mE V c (prevPt t)) (aE V c (prevPt t)) := by unfold aAt; rw [if_neg h0]; rfl
    have eo : oAt V c t = outO (stepA (iblk1 V c 0 t) (iblk1 V c 1 t) (iblk1 V c 2 t) (mE V c (prevPt t)) (aE V c (prevPt t)))
        (stepL (iblk1 V c 0 t) (iblk1 V c 1 t) (mE V c (prevPt t)) (lE V c (prevPt t))) := by
      unfold oAt; rw [show aAt V c t = aAt V c ⟨t.val, t.isLt⟩ from rfl, show lAt V c t = lAt V c ⟨t.val, t.isLt⟩ from rfl, ea, el]
    rw [pm, pl, pa, em, el, ea, eo]
    iintro ⟨⟨⟨S0, S1, S2, S3, S4, S5, S6, S7, S8, S9, H7, H8, H9⟩, Hp⟩, Ho, ⟨%d0, H0⟩, ⟨%d1, H1⟩, ⟨%d2, H2⟩, ⟨%d3, H3⟩⟩
    iapply (kernelRun1_B c (grid1.coords t) _ _ _ _ _ _ _ _ _ _ _ _ _ _ (fun h => h0 ((hcond1_0 t).mp h))
      ((hcond1_1 t).mpr h1) (iblk1 V c 0 t) (iblk1 V c 1 t) (iblk1 V c 2 t) (mE V c (prevPt t)) (lE V c (prevPt t)) (aE V c (prevPt t)) Set.univ _)
    isplitl [H0]; · iexact H0
    isplitl [H1]; · iexact H1
    isplitl [H2]; · iexact H2
    isplitl [H3]; · iexists _; iexact H3
    isplitl [H7]; · iexact H7
    isplitl [H8]; · iexact H8
    isplitl [H9]; · iexact H9
    iintro ⟨H0, H1, H2, H3, H7, H8, H9⟩
    isplitl [S0 S1 S2 S3 S4 S5 S6 S7 S8 S9 H7 H8 H9 Hp]
    · isplitr [Hp]; swap; · iexact Hp
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [H7]; · iexact H7
      isplitl [H8]; · iexact H8
      iexact H9
    isplitl [Ho]; · iexact Ho
    isplitl [H0]; · iexact H0
    isplitl [H1]; · iexact H1
    isplitl [H2]; · iexact H2
    iexact H3

/-- The body obligation the pipeline's run theorem asks for, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Frame.lean ====
/-
  The kernel's program from launch to return: two stretches of host operations (a reshape and two conversions; three
  reshapes) around two kernel regions. The buffers' contents at each boundary are a fold from the launch memory — a host
  stretch applies its operations, a region leaves its windows' arrays at what its write-backs make of them —; every
  weakly fair execution terminates with every unscoped buffer at the last boundary's contents. Generic in the float
  instance.
-/
import proofs.«180799_j16922171146838_2_alg».proof.Proof.Gen.Kernel.Launch
import proofs.«180799_j16922171146838_2_alg».proof.Proof.Gen.Kernel.Skeleton
import proofs.«180799_j16922171146838_2_alg».proof.Proof.Gen.Kernel.Points
import proofs.«180799_j16922171146838_2_alg».proof.Proof.K.Region0
import proofs.«180799_j16922171146838_2_alg».proof.Proof.K.Region1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch, -/
abbrev Wt0 : Dev nD → Valuation τ sig (Elt F) := fun c b => (s₀ m ρ).mem ((c : Dev nD), b)
/-- after the first host stretch (the first region's entry), -/
abbrev Wt1 : Dev nD → Valuation τ sig (Elt F) := fun c => StableHlo.after hostOps0 (Wt0 m ρ c)
abbrev Vt1 : (c : Dev nD) → (b : Ref sig .tc) → Buf (Elt F) ((c : Thread nD τ).loc b) := fun c b => Wt1 m ρ c b
/-- at the first region's exit: its arrays at what the pipeline leaves, every other buffer as entered, -/
def Wt2 (c : Dev nD) : Valuation τ sig (Elt F) :=
  Pipeline.withArrays spec0 c (Wt1 m ρ c) fun w => (dat0 (Vt1 m ρ) c).arrAt w cfg0.N
theorem Wt2_arr (c : Dev nD) (w : Fin cfg0.W) :
    Wt2 m ρ c (Proc.devRef .tc (Pipeline.arrRef spec0 w)) = (dat0 (Vt1 m ρ) c).arrAt w cfg0.N := by
  unfold Wt2; exact Pipeline.withArrays_arr spec0 launch0.win.arr_inj c _ _ w
theorem Wt2_of_ne (c : Dev nD) (b : Ref sig .tc) (hb : ∀ w, Pipeline.arrRef spec0 w ≠ b) :
    Wt2 m ρ c (Proc.devRef .tc b) = Wt1 m ρ c (Proc.devRef .tc b) := by
  unfold Wt2; exact Pipeline.withArrays_of_ne spec0 c _ _ b hb
abbrev Vt2 : (c : Dev nD) → (b : Ref sig .tc) → Buf (Elt F) ((c : Thread nD τ).loc b) := fun c b => Wt2 m ρ c b
theorem hF0 (c : Dev nD) (w : Fin cfg0.W) : (dat0 (Vt1 m ρ) c).arrAt w cfg0.N = Vt2 m ρ c (Pipeline.arrRef spec0 w) :=
  (Wt2_arr m ρ c w).symm
theorem hrest0 (c : Dev nD) : ∀ b, b ∉ Finset.univ.image (Pipeline.arrRef spec0) → Vt2 m ρ c b = Vt1 m ρ c b :=
  fun b hb => Wt2_of_ne m ρ c b fun w e => hb (Finset.mem_image.mpr ⟨w, Finset.mem_univ _, e⟩)

/-- after the second host stretch (the second region's entry), -/
abbrev Wt3 : Dev nD → Valuation τ sig (Elt F) := fun c => StableHlo.after hostOps1 (Wt2 m ρ c)
abbrev Vt3 : (c : Dev nD) → (b : Ref sig .tc) → Buf (Elt F) ((c : Thread nD τ).loc b) := fun c b => Wt3 m ρ c b
/-- and at the second region's exit. -/
def Wt4 (c : Dev nD) : Valuation τ sig (Elt F) :=
  Pipeline.withArrays spec1 c (Wt3 m ρ c) fun w => (dat1 (Vt3 m ρ) c).arrAt w cfg1.N
theorem Wt4_arr (c : Dev nD) (w : Fin cfg1.W) :
    Wt4 m ρ c (Proc.devRef .tc (Pipeline.arrRef spec1 w)) = (dat1 (Vt3 m ρ) c).arrAt w cfg1.N := by
  unfold Wt4; exact Pipeline.withArrays_arr spec1 launch1.win.arr_inj c _ _ w
theorem Wt4_of_ne (c : Dev nD) (b : Ref sig .tc) (hb : ∀ w, Pipeline.arrRef spec1 w ≠ b) :
    Wt4 m ρ c (Proc.devRef .tc b) = Wt3 m ρ c (Proc.devRef .tc b) := by
  unfold Wt4; exact Pipeline.withArrays_of_ne spec1 c _ _ b hb
abbrev Vt4 : (c : Dev nD) → (b : Ref sig .tc) → Buf (Elt F) ((c : Thread nD τ).loc b) := fun c b => Wt4 m ρ c b
theorem hF1 (c : Dev nD) (w : Fin cfg1.W) : (dat1 (Vt3 m ρ) c).arrAt w cfg1.N = Vt4 m ρ c (Pipeline.arrRef spec1 w) :=
  (Wt4_arr m ρ c w).symm
theorem hrest1 (c : Dev nD) : ∀ b, b ∉ Finset.univ.image (Pipeline.arrRef spec1) → Vt4 m ρ c b = Vt3 m ρ c b :=
  fun b hb => Wt4_of_ne m ρ c b fun w e => hb (Finset.mem_image.mpr ⟨w, Finset.mem_univ _, e⟩)

/-! ### The arguments end as launched: no host operation writes one and no region has one as a window's array -/

theorem Wt4_main_arg0 (c : Dev nD) : Wt4 m ρ c (Proc.devRef .tc main_arg0) = m ((c : Thread nD τ).loc main_arg0) :=
  calc Wt4 m ρ c (Proc.devRef .tc main_arg0)
    _ = Wt3 m ρ c (Proc.devRef .tc main_arg0) := Wt4_of_ne m ρ c main_arg0 (by decide)
    _ = Wt2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt1 m ρ c (Proc.devRef .tc main_arg0) := Wt2_of_ne m ρ c main_arg0 (by decide)
    _ = Wt0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem Wt4_main_arg1 (c : Dev nD) : Wt4 m ρ c (Proc.devRef .tc main_arg1) = m ((c : Thread nD τ).loc main_arg1) :=
  calc Wt4 m ρ c (Proc.devRef .tc main_arg1)
    _ = Wt3 m ρ c (Proc.devRef .tc main_arg1) := Wt4_of_ne m ρ c main_arg1 (by decide)
    _ = Wt2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt1 m ρ c (Proc.devRef .tc main_arg1) := Wt2_of_ne m ρ c main_arg1 (by decide)
    _ = Wt0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem Wt4_main_arg2 (c : Dev nD) : Wt4 m ρ c (Proc.devRef .tc main_arg2) = m ((c : Thread nD τ).loc main_arg2) :=
  calc Wt4 m ρ c (Proc.devRef .tc main_arg2)
    _ = Wt3 m ρ c (Proc.devRef .tc main_arg2) := Wt4_of_ne m ρ c main_arg2 (by decide)
    _ = Wt2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt1 m ρ c (Proc.devRef .tc main_arg2) := Wt2_of_ne m ρ c main_arg2 (by decide)
    _ = Wt0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vt1 m ρ) c
  | ⟨1, _⟩ => fun c => dat1 (Vt3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev Rst (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wt4 m ρ c) ∗ ∃ r, prngReg c r)

/-! ## The regions as segments -/

set_option backward.isDefEq.respectTransparency.types false in
/-- The first region: its arrays split out of the unscoped buffers and put back at the exit contents; the generator
    register into the class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt1 m ρ) c).loose
  hwaits := Pipeline.hwaits_of_owed_zero _ _ _ _ L lv 0 fun _ _ => rfl
  pre c := iprop(StableHlo.held (c : Thread nD τ) (Pipeline.ucRefs τ sig) (Wt1 m ρ c) ∗ Rst c)
  post c := iprop(StableHlo.held (c : Thread nD τ) (Pipeline.ucRefs τ sig) (Wt2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (Vt1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vt1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vt1 m ρ c) (Vt2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: as the first, but its invariant names the three buffers it keeps between points; it starts as the
    class's (the kept buffers at anything) and at the end gives them up at whatever they then hold. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt3 m ρ) c).loose
  hwaits := Pipeline.hwaits_of_owed_zero _ _ _ _ L lv 1 fun _ _ => rfl
  pre c := iprop(StableHlo.held (c : Thread nD τ) (Pipeline.ucRefs τ sig) (Wt3 m ρ c) ∗ Rst c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vt3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vt3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine ((Entails.of_eq (show (pdats m ρ 1 c).Φ (Fin.last _) = Phi1 (Vt3 m ρ) c cfg1.N (Nat.le_refl _) from rfl)).trans
      (Phi1_forget (Vt3 m ρ) c cfg1.N (Nat.le_refl _))).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vt3 m ρ c) (Vt4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (Wt0 m ρ)),
    .region (reg0 m ρ),
    .host (hseg hostOps1 hostOps1_sub hostOps1_fresh (Wt2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wt4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wt0 m ρ c) ∗ Rst c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wt0 m ρ c)
        from Pipeline.unscopedBufs_held c (Wt0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wt4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wt4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (Wt4_main_arg0 m ρ c),
     (h c _ (mem_uc main_arg1 (by decide))).trans (Wt4_main_arg1 m ρ c),
     (h c _ (mem_uc main_arg2 (by decide))).trans (Wt4_main_arg2 m ρ c)⟩) (run_all m ρ)

end Cert.Kernel.Hand

end
-- ==== Proof.KI.Region0.lean ====
/-
  The kernel's first region (the projection kernel), on its grid of 16 points: the half
  of the frame argument that is about the kernel body.

  The pipeline has six windows. Windows 0, 1, 2 are inputs: a block of 512 rows of the [8192,1024] activations
  (fetched at every point) and the two whole [1024,1024] weight matrices (fetched once, at the first point, and
  left in their buffers from then on). Windows 3, 4, 5 are outputs, each a block of 512 rows of an [8192,1024]
  array written back at every point. The body loads the three inputs whole and stores, whole, the two products
  and the rounded activations; it has no conditional and keeps nothing from point to point, so what it leaves in
  each output buffer is a closed function of the three input blocks at the point.

  Everything is stated at a parameter V, the TensorCore's buffer contents when the region is entered, and at any
  float instance F.
-/
import proofs.«180799_j16922171146838_2_alg».proof.Proof.Gen.KernelIdeal.Launch
import proofs.«180799_j16922171146838_2_alg».proof.Proof.Gen.KernelIdeal.Skeleton
import proofs.«180799_j16922171146838_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (a whole weight matrix, fetched at the first point only): where it is not fetched its block
    index has not moved, so the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the other weight matrix), the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and each store is of a whole buffer -/

abbrev r0_0 : Rect S512x1024 := Rect.unit (s := S512x1024) ![0, 0] S512x1024.size inb_S512x1024_S512x1024_0_0
abbrev r0_1 : Rect S1024x1024 := Rect.unit (s := S1024x1024) ![0, 0] S1024x1024.size inb_S1024x1024_S1024x1024_0_0

/-! ## What the body leaves in each output window's buffer -/

/-- Window 3 after the body: the rounded product of the activation block with the first weight matrix. -/
def out0_3 (x0 : Vec F S512x1024 .f32) (x1 : Vec F S1024x1024 .bf16) : Vec F S512x1024 .bf16 :=
  View.canon [⟨r0_0, k0_pay2 (View.ld x0 r0_0) (View.ld x1 r0_1)⟩]

/-- Window 4 after the body: the rounded product of the activation block with the second weight matrix. -/
def out0_4 (x0 : Vec F S512x1024 .f32) (x2 : Vec F S1024x1024 .bf16) : Vec F S512x1024 .bf16 :=
  View.canon [⟨r0_0, k0_pay3 (View.ld x0 r0_0) (View.ld x2 r0_1)⟩]

/-- Window 5 after the body: the rounded activation block. -/
def out0_5 (x0 : Vec F S512x1024 .f32) : Vec F S512x1024 .bf16 :=
  View.canon [⟨r0_0, k0_pay1 (View.ld x0 r0_0)⟩]

/-- One whole-buffer store covers the buffer. -/
theorem cover0 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 1000000 in
/-- The kernel body on whole staging memrefs, the inputs' at read contents x0, x1, x2 and the outputs' at anything,
    runs to the continuation holding the inputs' as they were and each output's at out0_W of the inputs'. -/
theorem sound_kernel0 (c : Dev nD) (E : Set ℕ) (i : grid0.Coords) (arg1 : Memref sig .tc .vmem S512x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole)
    (x0 : Vec F S512x1024 .f32) (x1 : Vec F S1024x1024 .bf16) (x2 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2) ∗ owns (c : Thread nD τ) arg6 fullShare (out0_5 x0)) -∗ K ⟨⟩))
      ⊢ wp frame (wpE (defs₀ (F := F)) Variants.none c none) E (cc0__project_kernel i arg1 harg1 arg2 harg2 arg3 harg3 arg4 harg4 arg5 harg5 arg6 harg6) K := by
  simp only [cc0__project_kernel_eq_skeleton]; unfold cc0__project_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The pipeline's proof data -/

/-- The proof data of this pipeline on core c: the arrays as the region finds them; after the body at point t
    each input's buffer at its block and each output's at out0_W of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
    | ⟨5, _⟩ => out0_5 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]
theorem after0_5 (c : Dev nD) (t : Fin cfg0.N) : (dat0 V c).after 5 t = out0_5 (iblk0 V c 0 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation the pipeline's run theorem asks for, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KI.Region1Runs.lean ====
/-
  The second kernel's body (an online-softmax attention step over one key tile) run symbolically at the two kinds of grid
  point there are: a first key tile, where it resets its three kept buffers before the step, and a last key tile, where
  after the step it also stores the output block. Generic in the float instance.
-/
import proofs.«180799_j16922171146838_2_alg».proof.Proof.Gen.KernelIdeal.Launch
import proofs.«180799_j16922171146838_2_alg».proof.Proof.Gen.KernelIdeal.Skeleton
import proofs.«180799_j16922171146838_2_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One key tile's step on the running triple, as the body computes it

The body of the second kernel, at a grid point (batch, query tile, key tile), holds a query block x0 [1,512,1024], a key
block x1 and a value block x2 [1,1024,1024], and three buffers it keeps between points: the running row maximum m
[1,512,1], the running row sum l [1,512,1] and the running weighted sum a [1,512,1024]. From (m, l, a) it makes -/

/-- the new maximum: max m (row maximum of the tile's scaled logits), -/
def stepM (x0 : Vec F S1x512x1024 .bf16) (x1 : Vec F S1x1024x1024 .bf16) (m : Vec F S1x512x1 .f32) : Vec F S1x512x1 .f32 :=
  k1_pay3 (k1_pay10 x0 x1 m)
/-- the new sum: exp(m − new maximum) · l + the row sum of exp(logit − new maximum), -/
def stepL (x0 : Vec F S1x512x1024 .bf16) (x1 : Vec F S1x1024x1024 .bf16) (m l : Vec F S1x512x1 .f32) : Vec F S1x512x1 .f32 :=
  k1_pay1 (k1_pay13 x0 x1 m m l)
/-- the new weighted sum: exp(m − new maximum) · a + exp(logit − new maximum) times the value block, -/
def stepA (x0 : Vec F S1x512x1024 .bf16) (x1 x2 : Vec F S1x1024x1024 .bf16) (m : Vec F S1x512x1 .f32) (a : Vec F S1x512x1024 .f32) :
    Vec F S1x512x1024 .f32 :=
  k1_pay2 (k1_pay8 x2) (k1_pay11 x0 x1 m m) (k1_pay12 x0 x1 m) a
/-- and, at the last key tile, the output block: weighted sum over sum. -/
def outO (a : Vec F S1x512x1024 .f32) (l : Vec F S1x512x1 .f32) : Vec F S1x512x1024 .f32 := k1_pay4 a l

/-- The triple a first key tile starts from: −∞, 0, 0. -/
abbrev m0 : Vec F S1x512x1 .f32 := k1_pay5
abbrev l0 : Vec F S1x512x1 .f32 := k1_pay6
abbrev a0 : Vec F S1x512x1024 .f32 := k1_pay7

/-! ## The body's two conditionals, from the grid coordinates -/

/-- "This is the first key tile": the third grid coordinate is 0. -/
abbrev cond1_0 (i : grid1.Coords) : Prop :=
  Scalar.cmpi .ne (Scalar.extui (Scalar.cmpi .eq (BitVec.ofNat 32 (i 2).val) 0#32)) 0#32 = 1#1
/-- "This is the last key tile": the third grid coordinate is 1. -/
abbrev cond1_1 (i : grid1.Coords) : Prop := k1_cond2 i = 1#1

/-- They hold at the even, respectively the odd, points of the grid (the key tile is the fastest axis, of extent 2). -/
theorem hcond1_0 : ∀ t : Fin cfg1.N, cond1_0 (grid1.coords t) ↔ t.val % 2 = 0 :=
  (by decide +kernel : ∀ t : Fin grid1.N, cond1_0 (grid1.coords t) ↔ t.val % 2 = 0)
theorem hcond1_1 : ∀ t : Fin cfg1.N, cond1_1 (grid1.coords t) ↔ t.val % 2 = 1 :=
  (by decide +kernel : ∀ t : Fin grid1.N, cond1_1 (grid1.coords t) ↔ t.val % 2 = 1)

/-! ## Whole-buffer accesses -/

theorem hz3 : (![0, 0, 0] : Fin 3 → Nat) = fun _ => 0 := by funext a; fin_cases a <;> rfl

/-- A buffer whose LAST store covered it whole reads back as that store's value, whatever was stored before. -/
theorem read_writes_whole_last {sg : RefSig} {κ : Kind} {sp : Space} {S : Shape} {e : EltTy}
    (v : View sg κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The body's run at a first key tile and at a last key tile -/

set_option maxHeartbeats 4000000 in
/-- AT A FIRST KEY TILE (the first conditional taken, the second not): whatever the three kept buffers held, the body
    resets them to (−∞, 0, 0) and leaves them one step on; the output block's buffer is not touched. -/
theorem kernelRun1_A (c : Dev nD) (i : grid1.Coords)
    (arg3 : Memref sig .tc .vmem S1x512x1024 .bf16) (harg3 : arg3.IsWhole) (arg4 : Memref sig .tc .vmem S1x1024x1024 .bf16) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S1x512x1 .f32) (harg7 : arg7.IsWhole) (arg8 : Memref sig .tc .vmem S1x512x1 .f32) (harg8 : arg8.IsWhole)
    (arg9 : Memref sig .tc .vmem S1x512x1024 .f32) (harg9 : arg9.IsWhole)
    (hc0 : cond1_0 i) (hc1 : ¬cond1_1 i)
    (x0 : Vec F S1x512x1024 .bf16) (x1 : Vec F S1x1024x1024 .bf16) (x2 : Vec F S1x1024x1024 .bf16)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ (∃ d, owns (c : Thread nD τ) arg6 fullShare d)
            ∗ owns (c : Thread nD τ) arg7 fullShare (stepM x0 x1 m0)
            ∗ owns (c : Thread nD τ) arg8 fullShare (stepL x0 x1 m0 l0)
            ∗ owns (c : Thread nD τ) arg9 fullShare (stepA x0 x1 x2 m0 a0)) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton, k1_part1_eq_skeleton]; unfold cc1__flash_kernel_skel
  unfold owns
  iintro ⟨⟨%f0, %hf0, H0⟩, ⟨%f1, %hf1, H1⟩, ⟨%f2, %hf2, H2⟩, ⟨%d3, %f3, %hf3, H3⟩, ⟨%d4, %f4, -, H4⟩, ⟨%d5, %f5, -, H5⟩, ⟨%d6, %f6, -, H6⟩, Hk⟩
  obtain rfl := harg3.eq_unread hf0
  obtain rfl := harg4.eq_unread hf1
  obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists d3, f3; isplitr; · ipureintro; exact hf3
    iexact H3
  isplitl [H4]
  · iexists _; isplitr; swap; · iexact H4
    ipureintro
    refine (read_writes_whole_last _ _ hz3 _ _ _).trans ?_
    sl_unfold_run_names
    simp only [View.readAt_eq_ld, harg3.read_unread, harg4.read_unread, harg5.read_unread, harg7.read_unread, harg8.read_unread, harg9.read_unread,
      View.ld_unit_zero (S := S1x512x1024) hz3, View.ld_unit_zero (S := S1x1024x1024) hz3, View.ld_unit_zero (S := S1x512x1) hz3, View.readCov_unit_zero arg7.view hz3, View.readCov_unit_zero arg8.view hz3, View.readCov_unit_zero arg9.view hz3]
    rfl
  isplitl [H5]
  · iexists _; isplitr; swap; · iexact H5
    ipureintro
    refine (read_writes_whole_last _ _ hz3 _ _ _).trans ?_
    sl_unfold_run_names
    simp only [View.readAt_eq_ld, harg3.read_unread, harg4.read_unread, harg5.read_unread, harg7.read_unread, harg8.read_unread, harg9.read_unread,
      View.ld_unit_zero (S := S1x512x1024) hz3, View.ld_unit_zero (S := S1x1024x1024) hz3, View.ld_unit_zero (S := S1x512x1) hz3, View.readCov_unit_zero arg7.view hz3, View.readCov_unit_zero arg8.view hz3, View.readCov_unit_zero arg9.view hz3]
    rfl
  · iexists _; isplitr; swap; · iexact H6
    ipureintro
    refine (read_writes_whole_last _ _ hz3 _ _ _).trans ?_
    sl_unfold_run_names
    simp only [View.readAt_eq_ld, harg3.read_unread, harg4.read_unread, harg5.read_unread, harg7.read_unread, harg8.read_unread, harg9.read_unread,
      View.ld_unit_zero (S := S1x512x1024) hz3, View.ld_unit_zero (S := S1x1024x1024) hz3, View.ld_unit_zero (S := S1x512x1) hz3, View.readCov_unit_zero arg7.view hz3, View.readCov_unit_zero arg8.view hz3, View.readCov_unit_zero arg9.view hz3]
    rfl

set_option maxHeartbeats 4000000 in
/-- AT A LAST KEY TILE (the first conditional not taken, the second taken): from the kept buffers at (m, l, a) the body
    leaves them one step on and stores the output block, the new weighted sum over the new sum. -/
theorem kernelRun1_B (c : Dev nD) (i : grid1.Coords)
    (arg3 : Memref sig .tc .vmem S1x512x1024 .bf16) (harg3 : arg3.IsWhole) (arg4 : Memref sig .tc .vmem S1x1024x1024 .bf16) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S1x512x1 .f32) (harg7 : arg7.IsWhole) (arg8 : Memref sig .tc .vmem S1x512x1 .f32) (harg8 : arg8.IsWhole)
    (arg9 : Memref sig .tc .vmem S1x512x1024 .f32) (harg9 : arg9.IsWhole)
    (hc0 : ¬cond1_0 i) (hc1 : cond1_1 i)
    (x0 : Vec F S1x512x1024 .bf16) (x1 : Vec F S1x1024x1024 .bf16) (x2 : Vec F S1x1024x1024 .bf16)
    (m l : Vec F S1x512x1 .f32) (a : Vec F S1x512x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare m
        ∗ owns (c : Thread nD τ) arg8 fullShare l ∗ owns (c : Thread nD τ) arg9 fullShare a
        ∗ (iprop(owns (c : Thread nD τ) arg3 fullShare x0 ∗ owns (c : Thread nD τ) arg4 fullShare x1 ∗ owns (c : Thread nD τ) arg5 fullShare x2
            ∗ owns (c : Thread nD τ) arg6 fullShare (outO (stepA x0 x1 x2 m a) (stepL x0 x1 m l))
            ∗ owns (c : Thread nD τ) arg7 fullShare (stepM x0 x1 m)
            ∗ owns (c : Thread nD τ) arg8 fullShare (stepL x0 x1 m l)
            ∗ owns (c : Thread nD τ) arg9 fullShare (stepA x0 x1 x2 m a)) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton, k1_part1_eq_skeleton]; unfold cc1__flash_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, Hk⟩
  obtain rfl := harg3.eq_unread hf0
  obtain rfl := harg4.eq_unread hf1
  obtain rfl := harg5.eq_unread hf2
  obtain rfl := harg7.eq_unread hf4
  obtain rfl := harg8.eq_unread hf5
  obtain rfl := harg9.eq_unread hf6
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    refine (read_writes_whole_last _ _ hz3 _ _ _).trans ?_
    sl_unfold_run_names
    simp only [View.readAt_eq_ld, harg3.read_unread, harg4.read_unread, harg5.read_unread, harg7.read_unread, harg8.read_unread, harg9.read_unread,
      View.ld_unit_zero (S := S1x512x1024) hz3, View.ld_unit_zero (S := S1x1024x1024) hz3, View.ld_unit_zero (S := S1x512x1) hz3, View.readCov_unit_zero arg7.view hz3, View.readCov_unit_zero arg8.view hz3, View.readCov_unit_zero arg9.view hz3]
    rfl
  isplitl [H4]
  · iexists _; isplitr; swap; · iexact H4
    ipureintro
    refine (read_writes_whole_last _ _ hz3 _ _ _).trans ?_
    sl_unfold_run_names
    simp only [View.readAt_eq_ld, harg3.read_unread, harg4.read_unread, harg5.read_unread, harg7.read_unread, harg8.read_unread, harg9.read_unread,
      View.ld_unit_zero (S := S1x512x1024) hz3, View.ld_unit_zero (S := S1x1024x1024) hz3, View.ld_unit_zero (S := S1x512x1) hz3, View.readCov_unit_zero arg7.view hz3, View.readCov_unit_zero arg8.view hz3, View.readCov_unit_zero arg9.view hz3]
    rfl
  isplitl [H5]
  · iexists _; isplitr; swap; · iexact H5
    ipureintro
    refine (read_writes_whole_last _ _ hz3 _ _ _).trans ?_
    sl_unfold_run_names
    simp only [View.readAt_eq_ld, harg3.read_unread, harg4.read_unread, harg5.read_unread, harg7.read_unread, harg8.read_unread, harg9.read_unread,
      View.ld_unit_zero (S := S1x512x1024) hz3, View.ld_unit_zero (S := S1x1024x1024) hz3, View.ld_unit_zero (S := S1x512x1) hz3, View.readCov_unit_zero arg7.view hz3, View.readCov_unit_zero arg8.view hz3, View.readCov_unit_zero arg9.view hz3]
    rfl
  · iexists _; isplitr; swap; · iexact H6
    ipureintro
    refine (read_writes_whole_last _ _ hz3 _ _ _).trans ?_
    sl_unfold_run_names
    simp only [View.readAt_eq_ld, harg3.read_unread, harg4.read_unread, harg5.read_unread, harg7.read_unread, harg8.read_unread, harg9.read_unread,
      View.ld_unit_zero (S := S1x512x1024) hz3, View.ld_unit_zero (S := S1x1024x1024) hz3, View.ld_unit_zero (S := S1x512x1) hz3, View.readCov_unit_zero arg7.view hz3, View.readCov_unit_zero arg8.view hz3, View.readCov_unit_zero arg9.view hz3]
    rfl

end Cert.KernelIdeal.Hand

end
-- ==== Proof.KI.Region1.lean ====
/-
  The second kernel's proof data over its grid of 32 points (batch × query tile × key tile, the key tile fastest): what
  the three buffers it keeps between points hold after each point, the invariant that names them, what each window's
  staging buffer holds after the body, and the body obligation, at a parameter V — the buffers' contents when the
  region is entered. Generic in the float instance.
-/
import proofs.«180799_j16922171146838_2_alg».proof.Proof.Gen.KernelIdeal.Launch
import proofs.«180799_j16922171146838_2_alg».proof.Proof.Gen.KernelIdeal.Skeleton
import proofs.«180799_j16922171146838_2_alg».proof.Proof.Gen.KernelIdeal.Points
import proofs.«180799_j16922171146838_2_alg».proof.Proof.KI.Region1Runs
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the query block is
    fetched at the first key tile only and its index does not move at the second). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the kept buffers hold after each point -/

/-- The point before t (t itself at the first point). -/
def prevPt (t : Fin cfg1.N) : Fin cfg1.N := ⟨t.val - 1, Nat.lt_of_le_of_lt (Nat.sub_le _ _) t.isLt⟩

/-- After a FIRST key tile's point t: one step from (−∞, 0, 0) on the blocks of t. -/
def mE (c : Dev nD) (t : Fin cfg1.N) : Vec F S1x512x1 .f32 := stepM (iblk1 V c 0 t) (iblk1 V c 1 t) m0
def lE (c : Dev nD) (t : Fin cfg1.N) : Vec F S1x512x1 .f32 := stepL (iblk1 V c 0 t) (iblk1 V c 1 t) m0 l0
def aE (c : Dev nD) (t : Fin cfg1.N) : Vec F S1x512x1024 .f32 := stepA (iblk1 V c 0 t) (iblk1 V c 1 t) (iblk1 V c 2 t) m0 a0
/-- After a LAST key tile's point t: one step, on the blocks of t, from what the point before left. -/
def mO (c : Dev nD) (t : Fin cfg1.N) : Vec F S1x512x1 .f32 := stepM (iblk1 V c 0 t) (iblk1 V c 1 t) (mE V c (prevPt t))
def lO (c : Dev nD) (t : Fin cfg1.N) : Vec F S1x512x1 .f32 := stepL (iblk1 V c 0 t) (iblk1 V c 1 t) (mE V c (prevPt t)) (lE V c (prevPt t))
def aO (c : Dev nD) (t : Fin cfg1.N) : Vec F S1x512x1024 .f32 :=
  stepA (iblk1 V c 0 t) (iblk1 V c 1 t) (iblk1 V c 2 t) (mE V c (prevPt t)) (aE V c (prevPt t))
/-- After point t, of either kind (even points are first key tiles, odd points last ones). -/
def mAt (c : Dev nD) (t : Fin cfg1.N) : Vec F S1x512x1 .f32 := if t.val % 2 = 0 then mE V c t else mO V c t
def lAt (c : Dev nD) (t : Fin cfg1.N) : Vec F S1x512x1 .f32 := if t.val % 2 = 0 then lE V c t else lO V c t
def aAt (c : Dev nD) (t : Fin cfg1.N) : Vec F S1x512x1024 .f32 := if t.val % 2 = 0 then aE V c t else aO V c t
/-- The output block a last key tile's point stores. -/
def oAt (c : Dev nD) (t : Fin cfg1.N) : Vec F S1x512x1024 .f32 := outO (aAt V c t) (lAt V c t)

/-! ## The invariant between points -/

abbrev scM1_0 : Memref sig .tc .vmem S1x512x1 .f32 := Memref.whole cc1_scratch0
abbrev scM1_1 : Memref sig .tc .vmem S1x512x1 .f32 := Memref.whole cc1_scratch1
abbrev scM1_2 : Memref sig .tc .vmem S1x512x1024 .f32 := Memref.whole cc1_scratch2

/-- The first kernel's staging buffers, which this region never touches, each whole at some contents. -/
def otherStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The class invariant with the three kept buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The invariant before position n: before the first point the class's (the kept buffers at anything); afterwards the
    same with the kept buffers at what the point before left in them. -/
def Phi1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1_0 fullShare (mAt V c ⟨n, hn⟩) ∗ owns (c : Thread nD τ) scM1_1 fullShare (lAt V c ⟨n, hn⟩) ∗ owns (c : Thread nD τ) scM1_2 fullShare (aAt V c ⟨n, hn⟩)) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1_0 fullShare (mAt V c ⟨n, hn⟩) ∗ owns (c : Thread nD τ) scM1_1 fullShare (lAt V c ⟨n, hn⟩) ∗ owns (c : Thread nD τ) scM1_2 fullShare (aAt V c ⟨n, hn⟩)) ∗ (∃ r, prngReg c r)) := rfl
theorem Phi1_pos (c : Dev nD) (n : ℕ) (h : n ≤ cfg1.N) (hz : n ≠ 0) :
    Phi1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1_0 fullShare (mAt V c ⟨n - 1, by omega⟩) ∗ owns (c : Thread nD τ) scM1_1 fullShare (lAt V c ⟨n - 1, by omega⟩) ∗ owns (c : Thread nD τ) scM1_2 fullShare (aAt V c ⟨n - 1, by omega⟩)) ∗ (∃ r, prngReg c r)) := by
  cases n with
  | zero => exact absurd rfl hz
  | succ n => rfl

/-- Whatever the kept buffers are named at, the invariant gives them up at some contents (the class's form). -/
theorem Phi1_forget (c : Dev nD) (n : ℕ) (h : n ≤ cfg1.N) : Phi1 V c n h ⊢ (Pipeline.ΦA spec1 c : sProp 𝕄) := by
  by_cases hz : n = 0
  · rw [Phi1_zero V c n h hz]
  · rw [Phi1_pos V c n h hz, PhiA1_eq]
    iintro ⟨⟨S0, S1, S2, S3, S4, S5, S6, S7, S8, S9, H7, H8, H9⟩, Hp⟩
    isplitr [Hp]; swap; · iexact Hp
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [H7]; · iexists _; iexact H7
    isplitl [H8]; · iexists _; iexact H8
    iexists _; iexact H9

/-! ## The proof data -/

/-- The proof data of the second pipeline on core c: the arrays as the region finds them; after the body at point t each
    input's buffer at its block and the output's at the block a last key tile stores (at a first key tile the output is
    idle and nothing is said of it); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => oAt V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = oAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

theorem Phi1_castSucc (c : Dev nD) (t : Fin cfg1.N) :
    (dat1 V c).Φ t.castSucc = Phi1 V c t.val (Nat.le_of_lt t.isLt) := by
  dsimp only [dat1]; simp only [Fin.coe_castSucc]

/-! ## Where the output window is idle and where it is written back -/

theorem idle1_3 : ∀ t : Fin cfg1.N, cfg1.idle 3 (grid1.coords t) = true ↔ t.val % 2 = 0 :=
  (by decide +kernel : ∀ t : Fin grid1.N, idle1 3 (grid1.coords t) = true ↔ t.val % 2 = 0)
theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl

/-! ## The output window's buffer is handed to the body as the pipeline found it -/

theorem fetch1_3 : ∀ t : Fin cfg1.N, (cfg1.win 3).fetch t = false :=
  (by decide +kernel : ∀ t : Fin grid1.N, win1_3.fetch t = false)

/-- The output's staging buffer reaches the body holding whatever an unfilled buffer holds: nothing is fetched into an
    output, a written-back buffer is handed on unnamed, and a first key tile leaves it as found. -/
theorem before1_3 (c : Dev nD) : ∀ (n : ℕ) (h : n < cfg1.N) (d), (dat1 V c).before 3 ⟨n, h⟩ d = d := by
  intro n
  induction n using Nat.strong_induction_on with
  | _ n ih =>
    intro h d
    by_cases hz : n = 0
    · unfold Dat.before
      rw [fetch1_3 ⟨n, h⟩, if_neg Bool.false_ne_true, if_pos hz]
    · rw [Dat.before_of_pos _ 3 ⟨n, h⟩ hz (fetch1_3 _)]
      by_cases hfl : (cfg1.win 3).flush ⟨n - 1, Nat.lt_of_le_of_lt (Nat.sub_le _ _) h⟩ = true
      · rw [if_pos hfl]
      · rw [if_neg hfl]
        have hodd : ¬ (n - 1) % 2 = 1 := fun h' => hfl ((flush1_3 ⟨n - 1, Nat.lt_of_le_of_lt (Nat.sub_le _ _) h⟩).mpr h')
        have hidle : cfg1.idle 3 (cfg1.grid.coords ⟨n - 1, Nat.lt_of_le_of_lt (Nat.sub_le _ _) h⟩) = true :=
          (idle1_3 ⟨n - 1, Nat.lt_of_le_of_lt (Nat.sub_le _ _) h⟩).mpr (show (n - 1) % 2 = 0 by omega)
        unfold Dat.left
        rw [hidle]
        exact ih (n - 1) (by omega) _ d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 2000000 in
/-- The body at any point. At a first key tile (even point) the invariant gives the kept buffers up at whatever they
    hold, the body resets them and leaves them one step on, and the output's buffer goes back as it came. At a last key
    tile (odd point) the invariant names the kept buffers at what the point before (a first key tile) left, and the body
    leaves them one more step on and the output block in the output's buffer. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = Phi1 V c (t.val + 1) t.isLt from rfl, Phi1_succ, Phi1_castSucc V c t,
    show (dat1 V c).leavesExact 0 t = owns (c : Thread nD τ) (st1_0 t) fullShare ((dat1 V c).after 0 t) from by
      unfold Dat.leavesExact; rw [live1_0 t],
    show (dat1 V c).leavesExact 1 t = owns (c : Thread nD τ) (st1_1 t) fullShare ((dat1 V c).after 1 t) from by
      unfold Dat.leavesExact; rw [live1_1 t],
    show (dat1 V c).leavesExact 2 t = owns (c : Thread nD τ) (st1_2 t) fullShare ((dat1 V c).after 2 t) from by
      unfold Dat.leavesExact; rw [live1_2 t],
    after1_0, after1_1, after1_2]
  by_cases h0 : t.val % 2 = 0
  · -- a first key tile
    have hi : cfg1.idle 3 (grid1.coords t) = true := (idle1_3 t).mpr h0
    have hf : (cfg1.win 3).flush t = false := by
      cases h : (cfg1.win 3).flush t
      · rfl
      · exact absurd ((flush1_3 t).mp h) (by omega)
    rw [Dat.leavesExact_idle _ 3 t hi hf]
    have em : mAt V c ⟨t.val, t.isLt⟩ = stepM (iblk1 V c 0 t) (iblk1 V c 1 t) m0 := by unfold mAt; rw [if_pos h0]; rfl
    have el : lAt V c ⟨t.val, t.isLt⟩ = stepL (iblk1 V c 0 t) (iblk1 V c 1 t) m0 l0 := by unfold lAt; rw [if_pos h0]; rfl
    have ea : aAt V c ⟨t.val, t.isLt⟩ = stepA (iblk1 V c 0 t) (iblk1 V c 1 t) (iblk1 V c 2 t) m0 a0 := by unfold aAt; rw [if_pos h0]; rfl
    rw [em, el, ea]
    refine (sep_mono (Phi1_forget V c _ _) .rfl).trans ?_
    rw [PhiA1_eq]
    iintro ⟨⟨⟨S0, S1, S2, S3, S4, S5, S6, S7, S8, S9, H7, H8, H9⟩, Hp⟩, Ho, ⟨%d0, H0⟩, ⟨%d1, H1⟩, ⟨%d2, H2⟩, ⟨%d3, H3⟩⟩
    iapply (kernelRun1_A c (grid1.coords t) _ _ _ _ _ _ _ _ _ _ _ _ _ _ ((hcond1_0 t).mpr h0)
      (fun h => by have := (hcond1_1 t).mp h; omega) (iblk1 V c 0 t) (iblk1 V c 1 t) (iblk1 V c 2 t) Set.univ _)
    isplitl [H0]; · iexact H0
    isplitl [H1]; · iexact H1
    isplitl [H2]; · iexact H2
    isplitl [H3]; · iexists _; iexact H3
    isplitl [H7]; · iexact H7
    isplitl [H8]; · iexact H8
    isplitl [H9]; · iexact H9
    iintro ⟨H0, H1, H2, ⟨%d3', H3⟩, H7, H8, H9⟩
    isplitl [S0 S1 S2 S3 S4 S5 S6 S7 S8 S9 H7 H8 H9 Hp]
    · isplitr [Hp]; swap; · iexact Hp
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [H7]; · iexact H7
      isplitl [H8]; · iexact H8
      iexact H9
    isplitl [Ho]; · iexact Ho
    isplitl [H0]; · iexact H0
    isplitl [H1]; · iexact H1
    isplitl [H2]; · iexact H2
    iexists d3'
    rw [before1_3 V c t.val t.isLt d3']
    iexact H3
  · -- a last key tile
    have h1 : t.val % 2 = 1 := by omega
    have hne : t.val ≠ 0 := by omega
    have hi : cfg1.idle 3 (grid1.coords t) = false := by
      cases h : cfg1.idle 3 (grid1.coords t)
      · rfl
      · exact absurd ((idle1_3 t).mp h) h0
    rw [show (dat1 V c).leavesExact 3 t = owns (c : Thread nD τ) (st1_3 t) fullShare ((dat1 V c).after 3 t) from by
      unfold Dat.leavesExact; rw [hi], after1_3, Phi1_pos V c _ _ hne]
    have pm : mAt V c ⟨t.val - 1, by omega⟩ = mE V c (prevPt t) := by
      unfold mAt; rw [if_pos (show (t.val - 1) % 2 = 0 by omega)]; rfl
    have pl : lAt V c ⟨t.val - 1, by omega⟩ = lE V c (prevPt t) := by
      unfold lAt; rw [if_pos (show (t.val - 1) % 2 = 0 by omega)]; rfl
    have pa : aAt V c ⟨t.val - 1, by omega⟩ = aE V c (prevPt t) := by
      unfold aAt; rw [if_pos (show (t.val - 1) % 2 = 0 by omega)]; rfl
    have em : mAt V c ⟨t.val, t.isLt⟩ = stepM (iblk1 V c 0 t) (iblk1 V c 1 t) (mE V c (prevPt t)) := by unfold mAt; rw [if_neg h0]; rfl
    have el : lAt V c ⟨t.val, t.isLt⟩ = stepL (iblk1 V c 0 t) (iblk1 V c 1 t) (mE V c (prevPt t)) (lE V c (prevPt t)) := by unfold lAt; rw [if_neg h0]; rfl
    have ea : aAt V c ⟨t.val, t.isLt⟩ = stepA (iblk1 V c 0 t) (iblk1 V c 1 t) (iblk1 V c 2 t) (mE V c (prevPt t)) (aE V c (prevPt t)) := by unfold aAt; rw [if_neg h0]; rfl
    have eo : oAt V c t = outO (stepA (iblk1 V c 0 t) (iblk1 V c 1 t) (iblk1 V c 2 t) (mE V c (prevPt t)) (aE V c (prevPt t)))
        (stepL (iblk1 V c 0 t) (iblk1 V c 1 t) (mE V c (prevPt t)) (lE V c (prevPt t))) := by
      unfold oAt; rw [show aAt V c t = aAt V c ⟨t.val, t.isLt⟩ from rfl, show lAt V c t = lAt V c ⟨t.val, t.isLt⟩ from rfl, ea, el]
    rw [pm, pl, pa, em, el, ea, eo]
    iintro ⟨⟨⟨S0, S1, S2, S3, S4, S5, S6, S7, S8, S9, H7, H8, H9⟩, Hp⟩, Ho, ⟨%d0, H0⟩, ⟨%d1, H1⟩, ⟨%d2, H2⟩, ⟨%d3, H3⟩⟩
    iapply (kernelRun1_B c (grid1.coords t) _ _ _ _ _ _ _ _ _ _ _ _ _ _ (fun h => h0 ((hcond1_0 t).mp h))
      ((hcond1_1 t).mpr h1) (iblk1 V c 0 t) (iblk1 V c 1 t) (iblk1 V c 2 t) (mE V c (prevPt t)) (lE V c (prevPt t)) (aE V c (prevPt t)) Set.univ _)
    isplitl [H0]; · iexact H0
    isplitl [H1]; · iexact H1
    isplitl [H2]; · iexact H2
    isplitl [H3]; · iexists _; iexact H3
    isplitl [H7]; · iexact H7
    isplitl [H8]; · iexact H8
    isplitl [H9]; · iexact H9
    iintro ⟨H0, H1, H2, H3, H7, H8, H9⟩
    isplitl [S0 S1 S2 S3 S4 S5 S6 S7 S8 S9 H7 H8 H9 Hp]
    · isplitr [Hp]; swap; · iexact Hp
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [H7]; · iexact H7
      isplitl [H8]; · iexact H8
      iexact H9
    isplitl [Ho]; · iexact Ho
    isplitl [H0]; · iexact H0
    isplitl [H1]; · iexact H1
    isplitl [H2]; · iexact H2
    iexact H3

/-- The body obligation the pipeline's run theorem asks for, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Frame.lean ====
/-
  The kernel's program from launch to return: two stretches of host operations (a reshape and two conversions; three
  reshapes) around two kernel regions. The buffers' contents at each boundary are a fold from the launch memory — a host
  stretch applies its operations, a region leaves its windows' arrays at what its write-backs make of them —; every
  weakly fair execution terminates with every unscoped buffer at the last boundary's contents. Generic in the float
  instance.
-/
import proofs.«180799_j16922171146838_2_alg».proof.Proof.Gen.KernelIdeal.Launch
import proofs.«180799_j16922171146838_2_alg».proof.Proof.Gen.KernelIdeal.Skeleton
import proofs.«180799_j16922171146838_2_alg».proof.Proof.Gen.KernelIdeal.Points
import proofs.«180799_j16922171146838_2_alg».proof.Proof.KI.Region0
import proofs.«180799_j16922171146838_2_alg».proof.Proof.KI.Region1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch, -/
abbrev Wt0 : Dev nD → Valuation τ sig (Elt F) := fun c b => (s₀ m ρ).mem ((c : Dev nD), b)
/-- after the first host stretch (the first region's entry), -/
abbrev Wt1 : Dev nD → Valuation τ sig (Elt F) := fun c => StableHlo.after hostOps0 (Wt0 m ρ c)
abbrev Vt1 : (c : Dev nD) → (b : Ref sig .tc) → Buf (Elt F) ((c : Thread nD τ).loc b) := fun c b => Wt1 m ρ c b
/-- at the first region's exit: its arrays at what the pipeline leaves, every other buffer as entered, -/
def Wt2 (c : Dev nD) : Valuation τ sig (Elt F) :=
  Pipeline.withArrays spec0 c (Wt1 m ρ c) fun w => (dat0 (Vt1 m ρ) c).arrAt w cfg0.N
theorem Wt2_arr (c : Dev nD) (w : Fin cfg0.W) :
    Wt2 m ρ c (Proc.devRef .tc (Pipeline.arrRef spec0 w)) = (dat0 (Vt1 m ρ) c).arrAt w cfg0.N := by
  unfold Wt2; exact Pipeline.withArrays_arr spec0 launch0.win.arr_inj c _ _ w
theorem Wt2_of_ne (c : Dev nD) (b : Ref sig .tc) (hb : ∀ w, Pipeline.arrRef spec0 w ≠ b) :
    Wt2 m ρ c (Proc.devRef .tc b) = Wt1 m ρ c (Proc.devRef .tc b) := by
  unfold Wt2; exact Pipeline.withArrays_of_ne spec0 c _ _ b hb
abbrev Vt2 : (c : Dev nD) → (b : Ref sig .tc) → Buf (Elt F) ((c : Thread nD τ).loc b) := fun c b => Wt2 m ρ c b
theorem hF0 (c : Dev nD) (w : Fin cfg0.W) : (dat0 (Vt1 m ρ) c).arrAt w cfg0.N = Vt2 m ρ c (Pipeline.arrRef spec0 w) :=
  (Wt2_arr m ρ c w).symm
theorem hrest0 (c : Dev nD) : ∀ b, b ∉ Finset.univ.image (Pipeline.arrRef spec0) → Vt2 m ρ c b = Vt1 m ρ c b :=
  fun b hb => Wt2_of_ne m ρ c b fun w e => hb (Finset.mem_image.mpr ⟨w, Finset.mem_univ _, e⟩)

/-- after the second host stretch (the second region's entry), -/
abbrev Wt3 : Dev nD → Valuation τ sig (Elt F) := fun c => StableHlo.after hostOps1 (Wt2 m ρ c)
abbrev Vt3 : (c : Dev nD) → (b : Ref sig .tc) → Buf (Elt F) ((c : Thread nD τ).loc b) := fun c b => Wt3 m ρ c b
/-- and at the second region's exit. -/
def Wt4 (c : Dev nD) : Valuation τ sig (Elt F) :=
  Pipeline.withArrays spec1 c (Wt3 m ρ c) fun w => (dat1 (Vt3 m ρ) c).arrAt w cfg1.N
theorem Wt4_arr (c : Dev nD) (w : Fin cfg1.W) :
    Wt4 m ρ c (Proc.devRef .tc (Pipeline.arrRef spec1 w)) = (dat1 (Vt3 m ρ) c).arrAt w cfg1.N := by
  unfold Wt4; exact Pipeline.withArrays_arr spec1 launch1.win.arr_inj c _ _ w
theorem Wt4_of_ne (c : Dev nD) (b : Ref sig .tc) (hb : ∀ w, Pipeline.arrRef spec1 w ≠ b) :
    Wt4 m ρ c (Proc.devRef .tc b) = Wt3 m ρ c (Proc.devRef .tc b) := by
  unfold Wt4; exact Pipeline.withArrays_of_ne spec1 c _ _ b hb
abbrev Vt4 : (c : Dev nD) → (b : Ref sig .tc) → Buf (Elt F) ((c : Thread nD τ).loc b) := fun c b => Wt4 m ρ c b
theorem hF1 (c : Dev nD) (w : Fin cfg1.W) : (dat1 (Vt3 m ρ) c).arrAt w cfg1.N = Vt4 m ρ c (Pipeline.arrRef spec1 w) :=
  (Wt4_arr m ρ c w).symm
theorem hrest1 (c : Dev nD) : ∀ b, b ∉ Finset.univ.image (Pipeline.arrRef spec1) → Vt4 m ρ c b = Vt3 m ρ c b :=
  fun b hb => Wt4_of_ne m ρ c b fun w e => hb (Finset.mem_image.mpr ⟨w, Finset.mem_univ _, e⟩)

/-! ### The arguments end as launched: no host operation writes one and no region has one as a window's array -/

theorem Wt4_main_arg0 (c : Dev nD) : Wt4 m ρ c (Proc.devRef .tc main_arg0) = m ((c : Thread nD τ).loc main_arg0) :=
  calc Wt4 m ρ c (Proc.devRef .tc main_arg0)
    _ = Wt3 m ρ c (Proc.devRef .tc main_arg0) := Wt4_of_ne m ρ c main_arg0 (by decide)
    _ = Wt2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt1 m ρ c (Proc.devRef .tc main_arg0) := Wt2_of_ne m ρ c main_arg0 (by decide)
    _ = Wt0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem Wt4_main_arg1 (c : Dev nD) : Wt4 m ρ c (Proc.devRef .tc main_arg1) = m ((c : Thread nD τ).loc main_arg1) :=
  calc Wt4 m ρ c (Proc.devRef .tc main_arg1)
    _ = Wt3 m ρ c (Proc.devRef .tc main_arg1) := Wt4_of_ne m ρ c main_arg1 (by decide)
    _ = Wt2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt1 m ρ c (Proc.devRef .tc main_arg1) := Wt2_of_ne m ρ c main_arg1 (by decide)
    _ = Wt0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem Wt4_main_arg2 (c : Dev nD) : Wt4 m ρ c (Proc.devRef .tc main_arg2) = m ((c : Thread nD τ).loc main_arg2) :=
  calc Wt4 m ρ c (Proc.devRef .tc main_arg2)
    _ = Wt3 m ρ c (Proc.devRef .tc main_arg2) := Wt4_of_ne m ρ c main_arg2 (by decide)
    _ = Wt2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt1 m ρ c (Proc.devRef .tc main_arg2) := Wt2_of_ne m ρ c main_arg2 (by decide)
    _ = Wt0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vt1 m ρ) c
  | ⟨1, _⟩ => fun c => dat1 (Vt3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev Rst (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wt4 m ρ c) ∗ ∃ r, prngReg c r)

/-! ## The regions as segments -/

set_option backward.isDefEq.respectTransparency.types false in
/-- The first region: its arrays split out of the unscoped buffers and put back at the exit contents; the generator
    register into the class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt1 m ρ) c).loose
  hwaits := Pipeline.hwaits_of_owed_zero _ _ _ _ L lv 0 fun _ _ => rfl
  pre c := iprop(StableHlo.held (c : Thread nD τ) (Pipeline.ucRefs τ sig) (Wt1 m ρ c) ∗ Rst c)
  post c := iprop(StableHlo.held (c : Thread nD τ) (Pipeline.ucRefs τ sig) (Wt2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (Vt1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vt1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vt1 m ρ c) (Vt2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: as the first, but its invariant names the three buffers it keeps between points; it starts as the
    class's (the kept buffers at anything) and at the end gives them up at whatever they then hold. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt3 m ρ) c).loose
  hwaits := Pipeline.hwaits_of_owed_zero _ _ _ _ L lv 1 fun _ _ => rfl
  pre c := iprop(StableHlo.held (c : Thread nD τ) (Pipeline.ucRefs τ sig) (Wt3 m ρ c) ∗ Rst c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vt3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vt3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine ((Entails.of_eq (show (pdats m ρ 1 c).Φ (Fin.last _) = Phi1 (Vt3 m ρ) c cfg1.N (Nat.le_refl _) from rfl)).trans
      (Phi1_forget (Vt3 m ρ) c cfg1.N (Nat.le_refl _))).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vt3 m ρ c) (Vt4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (Wt0 m ρ)),
    .region (reg0 m ρ),
    .host (hseg hostOps1 hostOps1_sub hostOps1_fresh (Wt2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wt4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wt0 m ρ c) ∗ Rst c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wt0 m ρ c)
        from Pipeline.unscopedBufs_held c (Wt0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wt4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wt4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (Wt4_main_arg0 m ρ c),
     (h c _ (mem_uc main_arg1 (by decide))).trans (Wt4_main_arg1 m ρ c),
     (h c _ (mem_uc main_arg2 (by decide))).trans (Wt4_main_arg2 m ρ c)⟩) (run_all m ρ)

end Cert.KernelIdeal.Hand

end
-- ==== Proof.KI.Region1Value.lean ====
/-
  The second kernel's data movement: which rows of the query, key and value arrays a grid point's blocks are, and
  which block of the output array an (odd) point writes back — so that the output array after the region is, index by
  index, what the odd point of its (batch, query tile) stored. Generic in the float instance.
-/
import proofs.«180799_j16922171146838_2_alg».proof.Proof.Gen.KernelIdeal.Launch
import proofs.«180799_j16922171146838_2_alg».proof.Proof.Gen.KernelIdeal.Skeleton
import proofs.«180799_j16922171146838_2_alg».proof.Proof.Gen.KernelIdeal.Points
import proofs.«180799_j16922171146838_2_alg».proof.Proof.KI.Region1
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-! ## The grid: point (b, i, k) is number 8·b + 2·i + k -/

theorem N1_eq : cfg1.N = 32 := N_1

/-- The windows' block indices at point t: batch t / 8 for all four; query tile (t / 2) % 4 for the queries and the
    output; key tile t % 2 for the keys and the values. -/
theorem idx1 : ∀ t : Fin cfg1.N,
    win1_0.index t (0 : Fin 3) = t.val / 8 ∧ win1_0.index t (1 : Fin 3) = t.val / 2 % 4 ∧ win1_0.index t (2 : Fin 3) = 0
    ∧ win1_1.index t (0 : Fin 3) = t.val / 8 ∧ win1_1.index t (1 : Fin 3) = t.val % 2 ∧ win1_1.index t (2 : Fin 3) = 0
    ∧ win1_2.index t (0 : Fin 3) = t.val / 8 ∧ win1_2.index t (1 : Fin 3) = t.val % 2 ∧ win1_2.index t (2 : Fin 3) = 0
    ∧ win1_3.index t (0 : Fin 3) = t.val / 8 ∧ win1_3.index t (1 : Fin 3) = t.val / 2 % 4 ∧ win1_3.index t (2 : Fin 3) = 0 :=
  (by decide +kernel : ∀ t : Fin grid1.N,
    win1_0.index t (0 : Fin 3) = t.val / 8 ∧ win1_0.index t (1 : Fin 3) = t.val / 2 % 4 ∧ win1_0.index t (2 : Fin 3) = 0
    ∧ win1_1.index t (0 : Fin 3) = t.val / 8 ∧ win1_1.index t (1 : Fin 3) = t.val % 2 ∧ win1_1.index t (2 : Fin 3) = 0
    ∧ win1_2.index t (0 : Fin 3) = t.val / 8 ∧ win1_2.index t (1 : Fin 3) = t.val % 2 ∧ win1_2.index t (2 : Fin 3) = 0
    ∧ win1_3.index t (0 : Fin 3) = t.val / 8 ∧ win1_3.index t (1 : Fin 3) = t.val / 2 % 4 ∧ win1_3.index t (2 : Fin 3) = 0)

/-- The point of batch b, query tile i, key tile k. -/
def pt (b : Fin 4) (i : Fin 4) (k : Fin 2) : Fin cfg1.N :=
  ⟨b.val * 8 + i.val * 2 + k.val, by rw [N1_eq]; have := b.isLt; have := i.isLt; have := k.isLt; omega⟩

theorem pt_val (b : Fin 4) (i : Fin 4) (k : Fin 2) : (pt b i k).val = b.val * 8 + i.val * 2 + k.val := rfl

theorem prevPt_pt (b : Fin 4) (i : Fin 4) : prevPt (pt b i 1) = pt b i 0 := by
  apply Fin.ext; show b.val * 8 + i.val * 2 + 1 - 1 = b.val * 8 + i.val * 2 + 0; omega

/-! ## The blocks of a point, as rows of the arrays -/

theorem iblk1_0_apply (c : Dev nD) (b : Fin 4) (i : Fin 4) (k : Fin 2) (p : Fin 512) (e : Fin 1024) :
    iblk1 V c 0 (pt b i k) (ix3 (0 : Fin 1) p e)
      = V c main_v4 (ix3 b (⟨i.val * 512 + p.val, by have := i.isLt; have := p.isLt; omega⟩ : Fin 2048) e) := by
  show V c main_v4 (((cfg1.win 0).blk (pt b i k)).view.emb (ix3 (0 : Fin 1) p e)) = V c main_v4 _
  refine congrArg (V c main_v4) ?_
  obtain ⟨e0, e1, e2, -⟩ := idx1 (pt b i k)
  rw [pt_val] at e0 e1
  have := b.isLt; have := i.isLt; have := k.isLt
  funext a; apply Fin.ext
  match a with
  | ⟨0, _⟩ => show win1_0.index (pt b i k) (0 : Fin 3) * 1 + 1 * 0 = b.val; omega
  | ⟨1, _⟩ => show win1_0.index (pt b i k) (1 : Fin 3) * 512 + 1 * p.val = i.val * 512 + p.val; omega
  | ⟨2, _⟩ => show win1_0.index (pt b i k) (2 : Fin 3) * 1024 + 1 * e.val = e.val; omega

theorem iblk1_1_apply (c : Dev nD) (b : Fin 4) (i : Fin 4) (k : Fin 2) (r : Fin 1024) (e : Fin 1024) :
    iblk1 V c 1 (pt b i k) (ix3 (0 : Fin 1) r e)
      = V c main_v5 (ix3 b (⟨k.val * 1024 + r.val, by have := k.isLt; have := r.isLt; omega⟩ : Fin 2048) e) := by
  show V c main_v5 (((cfg1.win 1).blk (pt b i k)).view.emb (ix3 (0 : Fin 1) r e)) = V c main_v5 _
  refine congrArg (V c main_v5) ?_
  obtain ⟨-, -, -, e0, e1, e2, -⟩ := idx1 (pt b i k)
  rw [pt_val] at e0 e1
  have := b.isLt; have := i.isLt; have := k.isLt
  funext a; apply Fin.ext
  match a with
  | ⟨0, _⟩ => show win1_1.index (pt b i k) (0 : Fin 3) * 1 + 1 * 0 = b.val; omega
  | ⟨1, _⟩ => show win1_1.index (pt b i k) (1 : Fin 3) * 1024 + 1 * r.val = k.val * 1024 + r.val; omega
  | ⟨2, _⟩ => show win1_1.index (pt b i k) (2 : Fin 3) * 1024 + 1 * e.val = e.val; omega

theorem iblk1_2_apply (c : Dev nD) (b : Fin 4) (i : Fin 4) (k : Fin 2) (r : Fin 1024) (e : Fin 1024) :
    iblk1 V c 2 (pt b i k) (ix3 (0 : Fin 1) r e)
      = V c main_v6 (ix3 b (⟨k.val * 1024 + r.val, by have := k.isLt; have := r.isLt; omega⟩ : Fin 2048) e) := by
  show V c main_v6 (((cfg1.win 2).blk (pt b i k)).view.emb (ix3 (0 : Fin 1) r e)) = V c main_v6 _
  refine congrArg (V c main_v6) ?_
  obtain ⟨-, -, -, -, -, -, e0, e1, e2, -⟩ := idx1 (pt b i k)
  rw [pt_val] at e0 e1
  have := b.isLt; have := i.isLt; have := k.isLt
  funext a; apply Fin.ext
  match a with
  | ⟨0, _⟩ => show win1_2.index (pt b i k) (0 : Fin 3) * 1 + 1 * 0 = b.val; omega
  | ⟨1, _⟩ => show win1_2.index (pt b i k) (1 : Fin 3) * 1024 + 1 * r.val = k.val * 1024 + r.val; omega
  | ⟨2, _⟩ => show win1_2.index (pt b i k) (2 : Fin 3) * 1024 + 1 * e.val = e.val; omega

/-! ## The output array after the region -/

/-- Entry (b, s, d) of the output array is entry (s % 512, d) of the block the last key tile's point of (b, s / 512)
    stores. -/
def GoutAt (c : Dev nD) (b : Fin 4) (s : Fin 2048) (d : Fin 1024) : Elt F .f32 :=
  oAt V c (pt b (⟨s.val / 512, by have := s.isLt; omega⟩ : Fin 4) 1)
    (ix3 (0 : Fin 1) (⟨s.val % 512, Nat.mod_lt _ (by norm_num)⟩ : Fin 512) d)
def Gout (c : Dev nD) : S4x2048x1024.Idx → Elt F .f32 := fun j => GoutAt V c (j 0) (j 1) (j 2)

theorem Gout_ix3 (c : Dev nD) (b : Fin 4) (s : Fin 2048) (d : Fin 1024) : Gout V c (ix3 b s d) = GoutAt V c b s d := rfl

theorem GoutAt_eq (c : Dev nD) (t : Fin cfg1.N) (hodd : t.val % 2 = 1) (p : Fin 512) (e : Fin 1024) (b : Fin 4) (s : Fin 2048) (d : Fin 1024)
    (h0 : b.val = t.val / 8) (h1 : s.val = t.val / 2 % 4 * 512 + p.val) (h2 : d.val = e.val) :
    GoutAt V c b s d = oAt V c t (ix3 (0 : Fin 1) p e) := by
  obtain rfl : d = e := Fin.ext h2
  have hp : p.val < 512 := p.isLt
  have ht : t.val < 32 := lt_of_lt_of_eq t.isLt N1_eq
  have ept : pt b (⟨s.val / 512, by have := s.isLt; omega⟩ : Fin 4) 1 = t := by
    apply Fin.ext; show b.val * 8 + s.val / 512 * 2 + 1 = t.val; omega
  have ep : (⟨s.val % 512, Nat.mod_lt _ (by norm_num)⟩ : Fin 512) = p := Fin.ext (by show s.val % 512 = p.val; omega)
  unfold GoutAt
  rw [ept, ep]

/-- What an odd point writes back is its block of `Gout`. -/
theorem flushed1_3_eq (c : Dev nD) (t : Fin cfg1.N) (hf : (cfg1.win 3).flush t = true) :
    (dat1 V c).flushed 3 t = ((cfg1.win 3).blk t).view.read (Elt F) (Gout V c) := by
  have hodd : t.val % 2 = 1 := (flush1_3 t).mp hf
  show (cfg1.win 3).cut (grid1.coords t) ((dat1 V c).after 3 t) = _
  rw [after1_3]
  obtain ⟨-, -, -, -, -, -, -, -, -, e0, e1, e2⟩ := idx1 t
  funext y
  obtain ⟨y0, p, e, rfl⟩ : ∃ (y0 : Fin 1) (p : Fin 512) (e : Fin 1024), y = ix3 y0 p e := ⟨y 0, y 1, y 2, eq_ix3 y⟩
  obtain rfl : y0 = 0 := Fin.ext (by have := y0.isLt; omega)
  show oAt V c t (ix3 (0 : Fin 1) p e) = Gout V c (((cfg1.win 3).blk t).view.emb (ix3 (0 : Fin 1) p e))
  show oAt V c t (ix3 (0 : Fin 1) p e) = GoutAt V c ((((cfg1.win 3).blk t).view.emb (ix3 (0 : Fin 1) p e)) 0) ((((cfg1.win 3).blk t).view.emb (ix3 (0 : Fin 1) p e)) 1) ((((cfg1.win 3).blk t).view.emb (ix3 (0 : Fin 1) p e)) 2)
  refine (GoutAt_eq V c t hodd p e _ _ _ ?_ ?_ ?_).symm
  · show win1_3.index t (0 : Fin 3) * 1 + 1 * 0 = t.val / 8; omega
  · show win1_3.index t (1 : Fin 3) * 512 + 1 * p.val = t.val / 2 % 4 * 512 + p.val; omega
  · show win1_3.index t (2 : Fin 3) * 1024 + 1 * e.val = e.val; omega

theorem mem_blk1_3 (t : Fin cfg1.N) (j : S4x2048x1024.Idx) :
    j ∈ ((cfg1.win 3).blk t).view.set ↔ ∀ a : Fin 3, win1_3.index t a * S1x512x1024.size a ≤ (j a).val ∧ (j a).val < win1_3.index t a * S1x512x1024.size a + S1x512x1024.size a := by
  show j ∈ ((View.whole main_v7).slice (win1_3.rect t)).set ↔ _
  rw [View.set_slice_whole, Rect.mem_set_unit]
  exact Iff.rfl

/-- Every entry of the output array is in the block of the odd point of its (batch, query tile). -/
theorem cover1_3 (j : S4x2048x1024.Idx) : ∃ t : Fin cfg1.N, (cfg1.win 3).flush t = true ∧ j ∈ ((cfg1.win 3).blk t).view.set := by
  obtain ⟨b, s, d, rfl⟩ : ∃ (b : Fin 4) (s : Fin 2048) (d : Fin 1024), j = ix3 b s d := ⟨j 0, j 1, j 2, eq_ix3 j⟩
  have hb : b.val < 4 := b.isLt
  have hs : s.val < 2048 := s.isLt
  have hd : d.val < 1024 := d.isLt
  obtain ⟨-, -, -, -, -, -, -, -, -, e0, e1, e2⟩ := idx1 (pt b (⟨s.val / 512, by omega⟩ : Fin 4) 1)
  rw [pt_val] at e0 e1
  refine ⟨pt b (⟨s.val / 512, by omega⟩ : Fin 4) 1, (flush1_3 _).mpr (by rw [pt_val]; show (b.val * 8 + s.val / 512 * 2 + 1) % 2 = 1; omega), ?_⟩
  rw [mem_blk1_3]
  intro a
  match a with
  | ⟨0, _⟩ =>
    show win1_3.index (pt b (⟨s.val / 512, by omega⟩ : Fin 4) 1) (0 : Fin 3) * 1 ≤ b.val ∧ b.val < win1_3.index (pt b (⟨s.val / 512, by omega⟩ : Fin 4) 1) (0 : Fin 3) * 1 + 1
    rw [e0]; show (b.val * 8 + s.val / 512 * 2 + 1) / 8 * 1 ≤ b.val ∧ b.val < (b.val * 8 + s.val / 512 * 2 + 1) / 8 * 1 + 1; omega
  | ⟨1, _⟩ =>
    show win1_3.index (pt b (⟨s.val / 512, by omega⟩ : Fin 4) 1) (1 : Fin 3) * 512 ≤ s.val ∧ s.val < win1_3.index (pt b (⟨s.val / 512, by omega⟩ : Fin 4) 1) (1 : Fin 3) * 512 + 512
    rw [e1]; show (b.val * 8 + s.val / 512 * 2 + 1) / 2 % 4 * 512 ≤ s.val ∧ s.val < (b.val * 8 + s.val / 512 * 2 + 1) / 2 % 4 * 512 + 512; omega
  | ⟨2, _⟩ =>
    show win1_3.index (pt b (⟨s.val / 512, by omega⟩ : Fin 4) 1) (2 : Fin 3) * 1024 ≤ d.val ∧ d.val < win1_3.index (pt b (⟨s.val / 512, by omega⟩ : Fin 4) 1) (2 : Fin 3) * 1024 + 1024
    rw [e2]; omega

/-- THE OUTPUT ARRAY after the region. -/
theorem arr1_3 (c : Dev nD) : (dat1 V c).arrAt 3 cfg1.N = Gout V c :=
  (dat1 V c).arrAt_eq_of_cover 3 (Gout V c) (fun t hf => flushed1_3_eq V c t hf) (cover1_3)

end Cert.KernelIdeal.Hand

end
-- ==== Proof.LibDepthAxis.lean ====
/-
  Rank-3 arrays [a, b, e] read along their LAST axis, by coordinates. An array with a unit middle axis copied along
  it ([a,1,e] → [a,b,e]) reads at (p, q, k) its entry (p, 0, k); one with a unit leading axis copied along it
  ([1,b,e] → [a,b,e]) reads its entry (0, q, k). The index (p, q) of the reduced array with the coordinate k put back
  on axis 2 is (p, q, k); so, over the extended reals, the vector unit's maximum over axis 2 and the host's
  one-operand reduce with a maximum body over axis 2 are, at (p, q), the fold of `max` from the initial value over
  k : Fin e of the entry (p, q, k). Generic in a, b and e.
-/
import Idealize.ShloMosaic.Lib.Pipeline.Value
import Idealize.ShloMosaic.Lib.ValueIdx
import Idealize.ShloMosaic.PureOps.Ideal.Laws
import Idealize.ShloMosaic.PureOps.Reduce

noncomputable section

namespace Cert.LibDepthAxis

open Idealize.ShloMosaic Idealize.ShloMosaic.ValueIdx

variable {a b e : ℕ}

/-! ## Copies along a unit axis -/

section Copies
variable {α : Type}

/-- `[a,1,e] → [a,b,e]`: at (p, q, k) the operand's entry (p, 0, k). -/
theorem broadcastTo_a1e_abe_apply (v : (⟨3, ![a, 1, e]⟩ : Shape).Idx → α)
    (h : (⟨3, ![a, 1, e]⟩ : Shape).Broadcasts ⟨3, ![a, b, e]⟩) (p : Fin a) (q : Fin b) (k : Fin e) :
    broadcastTo ⟨3, ![a, b, e]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if e = 1 then 0 else k.val
    split
    · have := k.isLt; omega
    · rfl

/-- `[1,b,e] → [a,b,e]`: at (p, q, k) the operand's entry (0, q, k). -/
theorem broadcastTo_1be_abe_apply (v : (⟨3, ![1, b, e]⟩ : Shape).Idx → α)
    (h : (⟨3, ![1, b, e]⟩ : Shape).Broadcasts ⟨3, ![a, b, e]⟩) (p : Fin a) (q : Fin b) (k : Fin e) :
    broadcastTo ⟨3, ![a, b, e]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if e = 1 then 0 else k.val
    split
    · have := k.isLt; omega
    · rfl

end Copies

/-! ## The maximum over the last axis -/

/-- The reduced index (p, q) with the coordinate k put back on axis 2 is (p, q, k). -/
theorem lift_last (h : Shape.Reduces ⟨3, ![a, b, e]⟩ [2] ⟨2, ![a, b]⟩) (p : Fin a) (q : Fin b) (k : Fin e) :
    h.lift (ix2 p q) k = ix3 p q k := by
  funext d
  apply Fin.ext
  match d with
  | ⟨0, _⟩ => rfl
  | ⟨1, _⟩ => rfl
  | ⟨2, _⟩ => rfl

/-- The vector unit's maximum over axis 2, at (p, q): the fold of `max` from the accumulator's value over the
    entries (p, q, k). -/
theorem multiReduction_max_last {φ : FTy} (x : FVec Ideal ⟨3, ![a, b, e]⟩ φ) (acc : BitVec φ.bits)
    (h : Shape.Reduces ⟨3, ![a, b, e]⟩ [2] ⟨2, ![a, b]⟩) (hφ : FKind.Formats φ)
    (hacc : acc = FKind.maximumf.neutral φ hφ) (p : Fin a) (q : Fin b) :
    multiReduction .maximumf [2] ⟨2, ![a, b]⟩ x acc h hφ hacc (ix2 p q)
      = (Finset.univ : Finset (Fin e)).fold max (Ideal.ofBits φ acc) fun k => x (ix3 p q k) := by
  refine (Ideal.multiReduction_maximumf_single x acc h hφ hacc (ix2 p q)).trans ?_
  refine congrArg (Finset.fold max _ · Finset.univ) (funext fun k => ?_)
  exact congrArg x (lift_last h p q k)

/-- The host's reduce with a maximum body over axis 2, at (p, q): the fold of `max` from the initial value over the
    entries (p, q, k). -/
theorem hostReduce_max_last {φ : FTy} {u : Shape} (x : FVec Ideal ⟨3, ![a, b, e]⟩ φ) (init : u.Idx → EReal)
    (h' : Shape.ReducesTo ⟨3, ![a, b, e]⟩ [2] ⟨2, ![a, b]⟩) (h : Shape.Reduces ⟨3, ![a, b, e]⟩ [2] ⟨2, ![a, b]⟩)
    (hu : 0 < u.numel) (p : Fin a) (q : Fin b) :
    Host.reduce (FloatOps.maximumf (F := Ideal) (φ := φ)) x init h' hu (ix2 p q)
      = (Finset.univ : Finset (Fin e)).fold max (init (Shape.Idx.first hu)) fun k => x (ix3 p q k) := by
  refine (Host.reduce_eq_fold_single (FloatOps.maximumf (F := Ideal) (φ := φ)) x init h' h hu (ix2 p q)).trans ?_
  refine congrArg (Finset.fold max _ · Finset.univ) (funext fun k => ?_)
  exact congrArg x (lift_last h p q k)

end Cert.LibDepthAxis

end
-- ==== Proof.KI.StepValue.lean ====
/-
  One key tile's step of the running softmax triple, read at an index over the extended reals.

  The step takes a query block x0 [1,512,1024], a key block x1 and a value block x2 [1,1024,1024] and the running
  triple: the row maximum m [1,512,1], the row sum l [1,512,1], the weighted sum a [1,512,1024].  The tile's scaled
  logit of query row p against key row r is sc p r = (Σ_e x0(0,p,e)·x1(0,r,e))·c, with c the scale as the float word the
  step spells.  Read at an index over the extended reals, where a change of format and a cast to the same shape are the
  identity, a matrix product into the zero accumulator is the plain sum over the contracted axis, and a copy along a
  unit axis reads the unit entry:
    new maximum   M(p)   = max (m p) (fold of max from −∞ over r of sc p r),
    new sum       l'(p)  = exp(m p − M p)·l p + Σ_r exp(sc p r − M p),
    new weighted  a'(p,d) = exp(m p − M p)·a(p,d) + Σ_r exp(sc p r − M p)·x2(0,r,d),
  and the output block is a(p,d) / l(p).  The triple starts at (−∞, 0, 0), as float words.
-/
import proofs.«180799_j16922171146838_2_alg».proof.Proof.KI.Region1Runs
import proofs.«180799_j16922171146838_2_alg».proof.Proof.LibDepthAxis
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

/-! ## Layout operations and reductions over the last axis, at coordinates -/

section Layout
variable {α : Type} {a b e : ℕ}

/-- `[a,b] → [a,b,1]`: at (i, j, 0) the operand's entry (i, j). -/
theorem shapeCast_ab_ab1_apply (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- `[a,b,1] → [a,b,e]`: at (p, q, k) the operand's entry (p, q, 0). -/
theorem broadcastTo_ab1_abe_apply (v : (⟨3, ![a, b, 1]⟩ : Shape).Idx → α)
    (h : (⟨3, ![a, b, 1]⟩ : Shape).Broadcasts ⟨3, ![a, b, e]⟩) (p : Fin a) (q : Fin b) (k : Fin e) :
    broadcastTo ⟨3, ![a, b, e]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- The vector unit's sum over axis 2, at (p, q): the sum over k of the entries (p, q, k). -/
theorem multiReduction_add_last {φ : FTy} (x : FVec Ideal ⟨3, ![a, b, e]⟩ φ) (acc : BitVec φ.bits)
    (h : Shape.Reduces ⟨3, ![a, b, e]⟩ [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ k : Fin e, x (ix3 p q k) := by
  refine (Ideal.multiReduction_add_single x acc h hφ hacc (ix2 p q)).trans ?_
  exact Finset.sum_congr rfl fun k _ => congrArg x (Cert.LibDepthAxis.lift_last h p q k)

end Layout

/-! ## The two matrix products at an index -/

section Products

theorem qk_lhs_0 (i : S1x512x1024.Idx) (q : dot_S1x512x1024_S1x1024x1024_S1x512x1024_2_2_1_1_0_0.contr.Idx) :
    (dot_S1x512x1024_S1x1024x1024_S1x512x1024_2_2_1_1_0_0.lhsIdx i q 0).val = (i 0).val := by
  unfold DotDims.lhsIdx
  rw [dif_pos (show (0 : Fin S1x512x1024.rank) ∈ dot_S1x512x1024_S1x1024x1024_S1x512x1024_2_2_1_1_0_0.lhsBatch by decide)]
  rfl
theorem qk_lhs_1 (i : S1x512x1024.Idx) (q : dot_S1x512x1024_S1x1024x1024_S1x512x1024_2_2_1_1_0_0.contr.Idx) :
    (dot_S1x512x1024_S1x1024x1024_S1x512x1024_2_2_1_1_0_0.lhsIdx i q 1).val = (i 1).val := by
  unfold DotDims.lhsIdx
  rw [dif_neg (show ¬(1 : Fin S1x512x1024.rank) ∈ dot_S1x512x1024_S1x1024x1024_S1x512x1024_2_2_1_1_0_0.lhsBatch by decide), dif_pos (show (1 : Fin S1x512x1024.rank) ∈ dot_S1x512x1024_S1x1024x1024_S1x512x1024_2_2_1_1_0_0.lhsNonContracting by decide)]
  rfl
theorem qk_lhs_2 (i : S1x512x1024.Idx) (q : dot_S1x512x1024_S1x1024x1024_S1x512x1024_2_2_1_1_0_0.contr.Idx) :
    (dot_S1x512x1024_S1x1024x1024_S1x512x1024_2_2_1_1_0_0.lhsIdx i q 2).val = (q ⟨0, by decide⟩).val :=
  dot_S1x512x1024_S1x1024x1024_S1x512x1024_2_2_1_1_0_0.lhsIdx_val_of_single rfl i q
theorem qk_rhs_0 (i : S1x512x1024.Idx) (q : dot_S1x512x1024_S1x1024x1024_S1x512x1024_2_2_1_1_0_0.contr.Idx) :
    (dot_S1x512x1024_S1x1024x1024_S1x512x1024_2_2_1_1_0_0.rhsIdx i q 0).val = (i 0).val := by
  unfold DotDims.rhsIdx
  rw [dif_pos (show (0 : Fin S1x1024x1024.rank) ∈ dot_S1x512x1024_S1x1024x1024_S1x512x1024_2_2_1_1_0_0.rhsBatch by decide)]
  rfl
theorem qk_rhs_1 (i : S1x512x1024.Idx) (q : dot_S1x512x1024_S1x1024x1024_S1x512x1024_2_2_1_1_0_0.contr.Idx) :
    (dot_S1x512x1024_S1x1024x1024_S1x512x1024_2_2_1_1_0_0.rhsIdx i q 1).val = (i 2).val := by
  unfold DotDims.rhsIdx
  rw [dif_neg (show ¬(1 : Fin S1x1024x1024.rank) ∈ dot_S1x512x1024_S1x1024x1024_S1x512x1024_2_2_1_1_0_0.rhsBatch by decide), dif_pos (show (1 : Fin S1x1024x1024.rank) ∈ dot_S1x512x1024_S1x1024x1024_S1x512x1024_2_2_1_1_0_0.rhsNonContracting by decide)]
  rfl
theorem qk_rhs_2 (i : S1x512x1024.Idx) (q : dot_S1x512x1024_S1x1024x1024_S1x512x1024_2_2_1_1_0_0.contr.Idx) :
    (dot_S1x512x1024_S1x1024x1024_S1x512x1024_2_2_1_1_0_0.rhsIdx i q 2).val = (q ⟨0, by decide⟩).val :=
  dot_S1x512x1024_S1x1024x1024_S1x512x1024_2_2_1_1_0_0.rhsIdx_val_of_single rfl i q

/-- Queries against keys, contracted over the last axis of both: at (0, p, r) the sum over e of lhs(0,p,e)·rhs(0,r,e). -/
theorem matmul_qk_apply {φ₁ φ₂ : FTy} (lhs : FVec Ideal S1x512x1024 φ₁) (rhs : FVec Ideal S1x1024x1024 φ₂)
    (p : Fin 512) (r : Fin 1024) :
    matmul dot_S1x512x1024_S1x1024x1024_S1x512x1024_2_2_1_1_0_0 none lhs rhs (constant (F := Ideal) S1x512x1024 .f32 0x00000000#32) (ix3 (0 : Fin 1) p r)
      = ∑ e : Fin 1024, lhs (ix3 (0 : Fin 1) p e) * rhs (ix3 (0 : Fin 1) r e) := by
  show FloatOps.matmul dot_S1x512x1024_S1x1024x1024_S1x512x1024_2_2_1_1_0_0 none lhs rhs (constant (F := Ideal) S1x512x1024 .f32 0x00000000#32) (ix3 (0 : Fin 1) p r) = _
  rw [Ideal.matmul_constant_zero_apply, ← Equiv.sum_comp (contrEquiv1 dot_S1x512x1024_S1x1024x1024_S1x512x1024_2_2_1_1_0_0 1024 rfl rfl).symm]
  refine Finset.sum_congr rfl fun k _ => ?_
  have hk := contrEquiv1_symm_val dot_S1x512x1024_S1x1024x1024_S1x512x1024_2_2_1_1_0_0 1024 rfl rfl k
  have el : dot_S1x512x1024_S1x1024x1024_S1x512x1024_2_2_1_1_0_0.lhsIdx (ix3 (0 : Fin 1) p r) ((contrEquiv1 dot_S1x512x1024_S1x1024x1024_S1x512x1024_2_2_1_1_0_0 1024 rfl rfl).symm k) = ix3 (0 : Fin 1) p k := funext fun a => Fin.ext (by
    match a with
    | ⟨0, _⟩ => exact qk_lhs_0 _ _
    | ⟨1, _⟩ => exact qk_lhs_1 _ _
    | ⟨2, _⟩ => exact (qk_lhs_2 _ _).trans hk)
  have er : dot_S1x512x1024_S1x1024x1024_S1x512x1024_2_2_1_1_0_0.rhsIdx (ix3 (0 : Fin 1) p r) ((contrEquiv1 dot_S1x512x1024_S1x1024x1024_S1x512x1024_2_2_1_1_0_0 1024 rfl rfl).symm k) = ix3 (0 : Fin 1) r k := funext fun a => Fin.ext (by
    match a with
    | ⟨0, _⟩ => exact qk_rhs_0 _ _
    | ⟨1, _⟩ => exact qk_rhs_1 _ _
    | ⟨2, _⟩ => exact (qk_rhs_2 _ _).trans hk)
  rw [el, er]

theorem pv_lhs_0 (i : S1x512x1024.Idx) (q : dot_S1x512x1024_S1x1024x1024_S1x512x1024_2_1_1_2_0_0.contr.Idx) :
    (dot_S1x512x1024_S1x1024x1024_S1x512x1024_2_1_1_2_0_0.lhsIdx i q 0).val = (i 0).val := by
  unfold DotDims.lhsIdx
  rw [dif_pos (show (0 : Fin S1x512x1024.rank) ∈ dot_S1x512x1024_S1x1024x1024_S1x512x1024_2_1_1_2_0_0.lhsBatch by decide)]
  rfl
theorem pv_lhs_1 (i : S1x512x1024.Idx) (q : dot_S1x512x1024_S1x1024x1024_S1x512x1024_2_1_1_2_0_0.contr.Idx) :
    (dot_S1x512x1024_S1x1024x1024_S1x512x1024_2_1_1_2_0_0.lhsIdx i q 1).val = (i 1).val := by
  unfold DotDims.lhsIdx
  rw [dif_neg (show ¬(1 : Fin S1x512x1024.rank) ∈ dot_S1x512x1024_S1x1024x1024_S1x512x1024_2_1_1_2_0_0.lhsBatch by decide), dif_pos (show (1 : Fin S1x512x1024.rank) ∈ dot_S1x512x1024_S1x1024x1024_S1x512x1024_2_1_1_2_0_0.lhsNonContracting by decide)]
  rfl
theorem pv_lhs_2 (i : S1x512x1024.Idx) (q : dot_S1x512x1024_S1x1024x1024_S1x512x1024_2_1_1_2_0_0.contr.Idx) :
    (dot_S1x512x1024_S1x1024x1024_S1x512x1024_2_1_1_2_0_0.lhsIdx i q 2).val = (q ⟨0, by decide⟩).val :=
  dot_S1x512x1024_S1x1024x1024_S1x512x1024_2_1_1_2_0_0.lhsIdx_val_of_single rfl i q
theorem pv_rhs_0 (i : S1x512x1024.Idx) (q : dot_S1x512x1024_S1x1024x1024_S1x512x1024_2_1_1_2_0_0.contr.Idx) :
    (dot_S1x512x1024_S1x1024x1024_S1x512x1024_2_1_1_2_0_0.rhsIdx i q 0).val = (i 0).val := by
  unfold DotDims.rhsIdx
  rw [dif_pos (show (0 : Fin S1x1024x1024.rank) ∈ dot_S1x512x1024_S1x1024x1024_S1x512x1024_2_1_1_2_0_0.rhsBatch by decide)]
  rfl
theorem pv_rhs_1 (i : S1x512x1024.Idx) (q : dot_S1x512x1024_S1x1024x1024_S1x512x1024_2_1_1_2_0_0.contr.Idx) :
    (dot_S1x512x1024_S1x1024x1024_S1x512x1024_2_1_1_2_0_0.rhsIdx i q 1).val = (q ⟨0, by decide⟩).val :=
  dot_S1x512x1024_S1x1024x1024_S1x512x1024_2_1_1_2_0_0.rhsIdx_val_of_single rfl i q
theorem pv_rhs_2 (i : S1x512x1024.Idx) (q : dot_S1x512x1024_S1x1024x1024_S1x512x1024_2_1_1_2_0_0.contr.Idx) :
    (dot_S1x512x1024_S1x1024x1024_S1x512x1024_2_1_1_2_0_0.rhsIdx i q 2).val = (i 2).val := by
  unfold DotDims.rhsIdx
  rw [dif_neg (show ¬(2 : Fin S1x1024x1024.rank) ∈ dot_S1x512x1024_S1x1024x1024_S1x512x1024_2_1_1_2_0_0.rhsBatch by decide), dif_pos (show (2 : Fin S1x1024x1024.rank) ∈ dot_S1x512x1024_S1x1024x1024_S1x512x1024_2_1_1_2_0_0.rhsNonContracting by decide)]
  rfl

/-- Weights against values, the weights' last axis against the values' middle one: at (0, p, d) the sum over r of
    lhs(0,p,r)·rhs(0,r,d). -/
theorem matmul_pv_apply {φ₁ φ₂ : FTy} (lhs : FVec Ideal S1x512x1024 φ₁) (rhs : FVec Ideal S1x1024x1024 φ₂)
    (p : Fin 512) (d : Fin 1024) :
    matmul dot_S1x512x1024_S1x1024x1024_S1x512x1024_2_1_1_2_0_0 none lhs rhs (constant (F := Ideal) S1x512x1024 .f32 0x00000000#32) (ix3 (0 : Fin 1) p d)
      = ∑ r : Fin 1024, lhs (ix3 (0 : Fin 1) p r) * rhs (ix3 (0 : Fin 1) r d) := by
  show FloatOps.matmul dot_S1x512x1024_S1x1024x1024_S1x512x1024_2_1_1_2_0_0 none lhs rhs (constant (F := Ideal) S1x512x1024 .f32 0x00000000#32) (ix3 (0 : Fin 1) p d) = _
  rw [Ideal.matmul_constant_zero_apply, ← Equiv.sum_comp (contrEquiv1 dot_S1x512x1024_S1x1024x1024_S1x512x1024_2_1_1_2_0_0 1024 rfl rfl).symm]
  refine Finset.sum_congr rfl fun k _ => ?_
  have hk := contrEquiv1_symm_val dot_S1x512x1024_S1x1024x1024_S1x512x1024_2_1_1_2_0_0 1024 rfl rfl k
  have el : dot_S1x512x1024_S1x1024x1024_S1x512x1024_2_1_1_2_0_0.lhsIdx (ix3 (0 : Fin 1) p d) ((contrEquiv1 dot_S1x512x1024_S1x1024x1024_S1x512x1024_2_1_1_2_0_0 1024 rfl rfl).symm k) = ix3 (0 : Fin 1) p k := funext fun a => Fin.ext (by
    match a with
    | ⟨0, _⟩ => exact pv_lhs_0 _ _
    | ⟨1, _⟩ => exact pv_lhs_1 _ _
    | ⟨2, _⟩ => exact (pv_lhs_2 _ _).trans hk)
  have er : dot_S1x512x1024_S1x1024x1024_S1x512x1024_2_1_1_2_0_0.rhsIdx (ix3 (0 : Fin 1) p d) ((contrEquiv1 dot_S1x512x1024_S1x1024x1024_S1x512x1024_2_1_1_2_0_0 1024 rfl rfl).symm k) = ix3 (0 : Fin 1) k d := funext fun a => Fin.ext (by
    match a with
    | ⟨0, _⟩ => exact pv_rhs_0 _ _
    | ⟨1, _⟩ => exact (pv_rhs_1 _ _).trans hk
    | ⟨2, _⟩ => exact pv_rhs_2 _ _)
  rw [el, er]

end Products

/-! ## The step at an index -/

section Step
variable (x0 : Vec Ideal S1x512x1024 .bf16) (x1 x2 : Vec Ideal S1x1024x1024 .bf16)
  (m l : Vec Ideal S1x512x1 .f32) (a : Vec Ideal S1x512x1024 .f32)

/-- The tile's scaled logit of query row p against key row r. -/
def sc (x0 : Vec Ideal S1x512x1024 .bf16) (x1 : Vec Ideal S1x1024x1024 .bf16) (p : Fin 512) (r : Fin 1024) : EReal :=
  (∑ e : Fin 1024, x0 (ix3 (0 : Fin 1) p e) * x1 (ix3 (0 : Fin 1) r e)) * Ideal.ofBits .f32 0x3E000000#32

/-- The scaled logits. -/
theorem pay9_apply (p : Fin 512) (r : Fin 1024) :
    k1_pay9 (F := Ideal) x0 x1 (ix3 (0 : Fin 1) p r) = sc x0 x1 p r := by
  unfold k1_pay9
  rw [shapeCast_self, shapeCast_self]
  exact congrArg (· * Ideal.ofBits .f32 0x3E000000#32) (matmul_qk_apply x0 x1 p r)

/-- The new maximum. -/
theorem pay10_apply (p : Fin 512) :
    k1_pay10 (F := Ideal) x0 x1 m (ix3 (0 : Fin 1) p (0 : Fin 1))
      = max (m (ix3 (0 : Fin 1) p (0 : Fin 1)))
          ((Finset.univ : Finset (Fin 1024)).fold max (Ideal.ofBits .f32 0xFF800000#32) fun r => sc x0 x1 p r) := by
  unfold k1_pay10
  dsimp only
  refine congrArg (max (m (ix3 (0 : Fin 1) p (0 : Fin 1)))) ?_
  refine (shapeCast_ab_ab1_apply _ _ (0 : Fin 1) p (0 : Fin 1)).trans ?_
  refine (Cert.LibDepthAxis.multiReduction_max_last _ _ _ _ _ (0 : Fin 1) p).trans ?_
  exact congrArg (Finset.fold max _ · Finset.univ) (funext fun r => pay9_apply x0 x1 p r)

/-- The stored new maximum is the new maximum. -/
theorem stepM_eq : stepM (F := Ideal) x0 x1 m = k1_pay10 (F := Ideal) x0 x1 m := by
  unfold stepM k1_pay3
  rw [shapeCast_self]

theorem stepM_apply (p : Fin 512) :
    stepM (F := Ideal) x0 x1 m (ix3 (0 : Fin 1) p (0 : Fin 1))
      = max (m (ix3 (0 : Fin 1) p (0 : Fin 1)))
          ((Finset.univ : Finset (Fin 1024)).fold max (Ideal.ofBits .f32 0xFF800000#32) fun r => sc x0 x1 p r) := by
  rw [stepM_eq]
  exact pay10_apply x0 x1 m p

/-- The rescaling factor exp(old maximum − new maximum). -/
theorem pay11_apply (m' : Vec Ideal S1x512x1 .f32) (j : S1x512x1.Idx) :
    k1_pay11 (F := Ideal) x0 x1 m m' j = Ideal.exp (m' j - k1_pay10 (F := Ideal) x0 x1 m j) := rfl

/-- The tile's weights exp(logit − new maximum). -/
theorem pay12_apply (p : Fin 512) (r : Fin 1024) :
    k1_pay12 (F := Ideal) x0 x1 m (ix3 (0 : Fin 1) p r)
      = Ideal.exp (sc x0 x1 p r - k1_pay10 (F := Ideal) x0 x1 m (ix3 (0 : Fin 1) p (0 : Fin 1))) := by
  unfold k1_pay12
  show Ideal.exp (k1_pay9 (F := Ideal) x0 x1 (ix3 (0 : Fin 1) p r)
    - broadcastTo S1x512x1024 (k1_pay10 (F := Ideal) x0 x1 m) _ (ix3 (0 : Fin 1) p r)) = _
  rw [pay9_apply, broadcastTo_ab1_abe_apply]

/-- The new sum. -/
theorem pay13_apply (p : Fin 512) :
    k1_pay13 (F := Ideal) x0 x1 m m l (ix3 (0 : Fin 1) p (0 : Fin 1))
      = Ideal.exp (m (ix3 (0 : Fin 1) p (0 : Fin 1)) - k1_pay10 (F := Ideal) x0 x1 m (ix3 (0 : Fin 1) p (0 : Fin 1)))
          * l (ix3 (0 : Fin 1) p (0 : Fin 1))
        + ∑ r : Fin 1024, Ideal.exp (sc x0 x1 p r - k1_pay10 (F := Ideal) x0 x1 m (ix3 (0 : Fin 1) p (0 : Fin 1))) := by
  unfold k1_pay13
  dsimp only
  refine congrArg₂ (· + ·) rfl ?_
  refine (shapeCast_ab_ab1_apply _ _ (0 : Fin 1) p (0 : Fin 1)).trans ?_
  refine (multiReduction_add_last _ _ _ _ _ (0 : Fin 1) p).trans ?_
  exact Finset.sum_congr rfl fun r _ => pay12_apply x0 x1 m p r

theorem stepL_apply (p : Fin 512) :
    stepL (F := Ideal) x0 x1 m l (ix3 (0 : Fin 1) p (0 : Fin 1))
      = Ideal.exp (m (ix3 (0 : Fin 1) p (0 : Fin 1)) - stepM (F := Ideal) x0 x1 m (ix3 (0 : Fin 1) p (0 : Fin 1)))
          * l (ix3 (0 : Fin 1) p (0 : Fin 1))
        + ∑ r : Fin 1024, Ideal.exp (sc x0 x1 p r - stepM (F := Ideal) x0 x1 m (ix3 (0 : Fin 1) p (0 : Fin 1))) := by
  rw [stepM_eq]
  unfold stepL k1_pay1
  rw [shapeCast_self]
  exact pay13_apply x0 x1 m l p

theorem stepA_apply (p : Fin 512) (d : Fin 1024) :
    stepA (F := Ideal) x0 x1 x2 m a (ix3 (0 : Fin 1) p d)
      = Ideal.exp (m (ix3 (0 : Fin 1) p (0 : Fin 1)) - stepM (F := Ideal) x0 x1 m (ix3 (0 : Fin 1) p (0 : Fin 1)))
          * a (ix3 (0 : Fin 1) p d)
        + ∑ r : Fin 1024, Ideal.exp (sc x0 x1 p r - stepM (F := Ideal) x0 x1 m (ix3 (0 : Fin 1) p (0 : Fin 1)))
            * x2 (ix3 (0 : Fin 1) r d) := by
  rw [stepM_eq]
  unfold stepA k1_pay2 k1_pay8
  rw [shapeCast_self, shapeCast_self]
  refine congrArg₂ (· + ·) ?_ ?_
  · exact congrArg (· * a (ix3 (0 : Fin 1) p d))
      ((broadcastTo_ab1_abe_apply _ _ (0 : Fin 1) p d).trans (pay11_apply x0 x1 m m _))
  · refine (matmul_pv_apply (φ₁ := .bf16) (φ₂ := .bf16) _ _ p d).trans ?_
    exact Finset.sum_congr rfl fun r _ => congrArg (· * x2 (ix3 (0 : Fin 1) r d)) (pay12_apply x0 x1 m p r)

theorem m0_apply (j : S1x512x1.Idx) : (m0 (F := Ideal)) j = Ideal.ofBits .f32 0xFF800000#32 := by
  show k1_pay5 (F := Ideal) j = _
  unfold k1_pay5
  rw [shapeCast_self]
  rfl

theorem l0_apply (j : S1x512x1.Idx) : (l0 (F := Ideal)) j = Ideal.ofBits .f32 0x00000000#32 := by
  show k1_pay6 (F := Ideal) j = _
  unfold k1_pay6
  rw [shapeCast_self]
  rfl

theorem a0_apply (j : S1x512x1024.Idx) : (a0 (F := Ideal)) j = Ideal.ofBits .f32 0x00000000#32 := by
  show k1_pay7 (F := Ideal) j = _
  unfold k1_pay7
  rw [shapeCast_self]
  rfl

end Step

/-- The output block: the weighted sum over the sum, the sum copied along the row. -/
theorem outO_apply (a : Vec Ideal S1x512x1024 .f32) (l : Vec Ideal S1x512x1 .f32) (p : Fin 512) (d : Fin 1024) :
    outO (F := Ideal) a l (ix3 (0 : Fin 1) p d)
      = Ideal.div (a (ix3 (0 : Fin 1) p d)) (l (ix3 (0 : Fin 1) p (0 : Fin 1))) := by
  unfold outO k1_pay4
  exact congrArg (Ideal.div (a (ix3 (0 : Fin 1) p d))) (broadcastTo_ab1_abe_apply _ _ (0 : Fin 1) p d)

end Cert.KernelIdeal.Hand

end
-- ==== Proof.LibPlainDot.lean ====
/-
  A matrix product with the plain dimension numbers — an [M, K] operand against a [K, N] operand, contracting the
  left operand's second axis with the right operand's first, no batch axis — read at one entry of the result.
  Over the extended reals both the matrix unit's product into a zero accumulator and the host's `dot_general` are,
  at row `p` and column `q`, the sum over `k : Fin K` of `lhs (p, k) * rhs (k, q)`: the contraction index, a
  one-coordinate index of the contracted shape, is re-indexed by its coordinate. Generic in `M`, `K`, `N`.
-/
import Idealize.ShloMosaic.PureOps.Ideal.Laws
import Idealize.ShloMosaic.Lib.ValueIdx

noncomputable section

namespace LibPlainDot

open Idealize.ShloMosaic Idealize.ShloMosaic.ValueIdx

variable {M K N : Nat}

/-- The contraction index whose one coordinate is `k`. -/
abbrev kIdx (k : Fin K) : (DotDims.plain M K N).contr.Idx :=
  (contrEquiv1 (DotDims.plain M K N) K rfl rfl).symm k

/-- The left operand is read at row `p`, column `k`. -/
theorem lhsIdx_plain (p : Fin M) (q : Fin N) (k : Fin K) :
    (DotDims.plain M K N).lhsIdx (ix2 p q) (kIdx k) = ix2 p k := by
  funext a
  apply Fin.ext
  match a with
  | ⟨0, _⟩ => rfl
  | ⟨1, _⟩ =>
    exact ((DotDims.plain M K N).lhsIdx_val_of_single (cl := (1 : Fin 2)) rfl (ix2 p q) (kIdx k)).trans
      (contrEquiv1_symm_val (DotDims.plain M K N) K rfl rfl k)

/-- The right operand is read at row `k`, column `q`. -/
theorem rhsIdx_plain (p : Fin M) (q : Fin N) (k : Fin K) :
    (DotDims.plain M K N).rhsIdx (ix2 p q) (kIdx k) = ix2 k q := by
  funext a
  apply Fin.ext
  match a with
  | ⟨0, _⟩ =>
    exact ((DotDims.plain M K N).rhsIdx_val_of_single (cr := (0 : Fin 2)) rfl (ix2 p q) (kIdx k)).trans
      (contrEquiv1_symm_val (DotDims.plain M K N) K rfl rfl k)
  | ⟨1, _⟩ => rfl

/-- The sum over the contracted shape is the sum over `k : Fin K` of the row entry times the column entry. -/
theorem sum_plain (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_plain p q k, rhsIdx_plain p q k]

/-- The matrix unit's product into the zero accumulator, at row `p` and column `q`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (sum_plain lhs rhs p q)

/-- The host's `dot_general`, at row `p` and column `q`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (sum_plain lhs rhs p q)

end LibPlainDot

end
-- ==== Proof.KI.Region0Value.lean ====
/-
  The kernel's first region (the projection kernel), read at the extended reals: what its three output
  arrays hold once its sixteen grid points have written their blocks back, entry by entry.

  Point t stages rows 512 t … 512 t + 511 of the [8192,1024] activations and both whole [1024,1024] weight
  matrices, and writes back rows 512 t … 512 t + 511 of three [8192,1024] arrays: the activations times the first
  weight matrix, the activations times the second, and the activations themselves. Over the extended reals a
  change of float format is the identity and the matrix unit's product into a zero accumulator is the plain sum
  over the contracted axis, so each block written is a block of ONE function of the arrays the region was entered
  with: (r, e) ↦ Σ_d x(r, d) · w(d, e) for the two products, (r, d) ↦ x(r, d) for the copy. Row r lies in the block
  of point r / 512, so the sixteen blocks cover each array and the array ends at that function.
-/
import proofs.«180799_j16922171146838_2_alg».proof.Proof.KI.Region0
import proofs.«180799_j16922171146838_2_alg».proof.Proof.LibPlainDot
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## The body's arithmetic at an entry -/

/-- Rounding the activations to the narrower format changes nothing over the extended reals. -/
theorem pay1_eq (x0 : Vec Ideal S512x1024 .f32) : (k0_pay1 x0 : S512x1024.Idx → EReal) = x0 := by
  unfold k0_pay1
  rw [shapeCast_self]
  rfl

/-- The first product at row p, column e of the block: the sum over the contracted axis. -/
theorem pay2_apply (x0 : Vec Ideal S512x1024 .f32) (x1 : Vec Ideal S1024x1024 .bf16) (p : Fin 512) (e : Fin 1024) :
    (k0_pay2 x0 x1 : S512x1024.Idx → EReal) (ix2 p e)
      = ∑ d : Fin 1024, (x0 : S512x1024.Idx → EReal) (ix2 p d) * (x1 : S1024x1024.Idx → EReal) (ix2 d e) := by
  unfold k0_pay2
  rw [shapeCast_self, pay1_eq]
  exact LibPlainDot.matmul_zero_apply (M := 512) (K := 1024) (N := 1024) (φ₁ := .bf16) (φ₂ := .bf16) none x0 x1 p e

/-- The second product, the same. -/
theorem pay3_apply (x0 : Vec Ideal S512x1024 .f32) (x2 : Vec Ideal S1024x1024 .bf16) (p : Fin 512) (e : Fin 1024) :
    (k0_pay3 x0 x2 : S512x1024.Idx → EReal) (ix2 p e)
      = ∑ d : Fin 1024, (x0 : S512x1024.Idx → EReal) (ix2 p d) * (x2 : S1024x1024.Idx → EReal) (ix2 d e) := by
  unfold k0_pay3
  rw [shapeCast_self, pay1_eq]
  exact LibPlainDot.matmul_zero_apply (M := 512) (K := 1024) (N := 1024) (φ₁ := .bf16) (φ₂ := .bf16) none x0 x2 p e

/-! ## The functions the arrays end at -/

/-- The product of an [8192,1024] array with a [1024,1024] one, entry by entry. -/
def rowsTimes (A : S8192x1024.Idx → EReal) (W : S1024x1024.Idx → EReal) : S8192x1024.Idx → EReal :=
  fun i => ∑ d : Fin 1024, A (ix2 (i 0 : Fin 8192) d) * W (ix2 d (i 1 : Fin 1024))

theorem rowsTimes_apply (A : S8192x1024.Idx → EReal) (W : S1024x1024.Idx → EReal) (r : Fin 8192) (e : Fin 1024) :
    rowsTimes A W (ix2 r e) = ∑ d : Fin 1024, A (ix2 r d) * W (ix2 d e) := rfl

/-- A block of 512 rows of the product, from the 512 rows of the left factor that start at row 512 k: the entry
    (p, e) of the block's product is the entry (512 k + p, e) of the whole product. -/
theorem pay2_block (A : S8192x1024.Idx → EReal) (W : S1024x1024.Idx → EReal)
    (x0 : Vec Ideal S512x1024 .f32) (x1 : Vec Ideal S1024x1024 .bf16) (k : Nat)
    (h0 : ∀ (p : Fin 512) (d : Fin 1024) (i : S8192x1024.Idx), (i 0).val = k * 512 + p.val → (i 1).val = d.val →
      (x0 : S512x1024.Idx → EReal) (ix2 p d) = A i)
    (h1 : ∀ (d : Fin 1024) (e : Fin 1024), (x1 : S1024x1024.Idx → EReal) (ix2 d e) = W (ix2 d e))
    (y : S512x1024.Idx) (i : S8192x1024.Idx) (hi0 : (i 0).val = k * 512 + (y 0).val) (hi1 : (i 1).val = (y 1).val) :
    (k0_pay2 x0 x1 : S512x1024.Idx → EReal) y = rowsTimes A W i := by
  obtain ⟨p, e, rfl⟩ : ∃ (p : Fin 512) (e : Fin 1024), y = ix2 p e := ⟨y 0, y 1, eq_ix2 y⟩
  have he : (i 1 : Fin 1024) = e := Fin.ext hi1
  refine (pay2_apply x0 x1 p e).trans ?_
  unfold rowsTimes
  rw [he]
  exact Finset.sum_congr rfl fun d _ => by rw [h0 p d (ix2 (i 0 : Fin 8192) d) hi0 rfl, h1 d e]

theorem pay3_block (A : S8192x1024.Idx → EReal) (W : S1024x1024.Idx → EReal)
    (x0 : Vec Ideal S512x1024 .f32) (x2 : Vec Ideal S1024x1024 .bf16) (k : Nat)
    (h0 : ∀ (p : Fin 512) (d : Fin 1024) (i : S8192x1024.Idx), (i 0).val = k * 512 + p.val → (i 1).val = d.val →
      (x0 : S512x1024.Idx → EReal) (ix2 p d) = A i)
    (h2 : ∀ (d : Fin 1024) (e : Fin 1024), (x2 : S1024x1024.Idx → EReal) (ix2 d e) = W (ix2 d e))
    (y : S512x1024.Idx) (i : S8192x1024.Idx) (hi0 : (i 0).val = k * 512 + (y 0).val) (hi1 : (i 1).val = (y 1).val) :
    (k0_pay3 x0 x2 : S512x1024.Idx → EReal) y = rowsTimes A W i := by
  obtain ⟨p, e, rfl⟩ : ∃ (p : Fin 512) (e : Fin 1024), y = ix2 p e := ⟨y 0, y 1, eq_ix2 y⟩
  have he : (i 1 : Fin 1024) = e := Fin.ext hi1
  refine (pay3_apply x0 x2 p e).trans ?_
  unfold rowsTimes
  rw [he]
  exact Finset.sum_congr rfl fun d _ => by rw [h0 p d (ix2 (i 0 : Fin 8192) d) hi0 rfl, h2 d e]

/-- The copied block: the entry (p, d) of the block is the entry (512 k + p, d) of the array. -/
theorem pay1_block (A : S8192x1024.Idx → EReal) (x0 : Vec Ideal S512x1024 .f32) (k : Nat)
    (h0 : ∀ (p : Fin 512) (d : Fin 1024) (i : S8192x1024.Idx), (i 0).val = k * 512 + p.val → (i 1).val = d.val →
      (x0 : S512x1024.Idx → EReal) (ix2 p d) = A i)
    (y : S512x1024.Idx) (i : S8192x1024.Idx) (hi0 : (i 0).val = k * 512 + (y 0).val) (hi1 : (i 1).val = (y 1).val) :
    (k0_pay1 x0 : S512x1024.Idx → EReal) y = A i := by
  obtain ⟨p, d, rfl⟩ : ∃ (p : Fin 512) (d : Fin 1024), y = ix2 p d := ⟨y 0, y 1, eq_ix2 y⟩
  rw [pay1_eq]
  exact h0 p d i hi0 hi1

/-! ## The pipeline's index maps and the input blocks -/

section Arrays
variable (V : (c : Dev nD) → (b : Ref sig .tc) → Buf (Elt Ideal) ((c : Thread nD τ).loc b))

theorem hz : (![0, 0] : Fin 2 → Nat) = fun _ => 0 := funext fun a => by fin_cases a <;> rfl

/-- The windows' block indices at each of the sixteen points: the activations' window and the three outputs' are
    at block row t, everything else at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The activations' block at point t is rows 512 t … of the array. -/
theorem read0 (c : Dev nD) (t : Fin cfg0.N) (p : Fin 512) (d : Fin 1024) (i : S8192x1024.Idx)
    (hi0 : (i 0).val = t.val * 512 + p.val) (hi1 : (i 1).val = d.val) :
    (iblk0 V c 0 t : S512x1024.Idx → EReal) (ix2 p d) = (V c main_v0 : S8192x1024.Idx → EReal) i := by
  show (V c main_v0 : S8192x1024.Idx → EReal) (((cfg0.win 0).blk t).view.emb (ix2 p d)) = _
  refine congrArg (V c main_v0 : S8192x1024.Idx → EReal) ?_
  obtain ⟨e0, e1, -⟩ := idx_facts t
  funext a; apply Fin.ext
  match a with
  | ⟨0, _⟩ => show win0_0.index t (0 : Fin 2) * 512 + 1 * p.val = (i 0).val; omega
  | ⟨1, _⟩ => show win0_0.index t (1 : Fin 2) * 1024 + 1 * d.val = (i 1).val; omega

/-- The first weight matrix's block at any point is the whole matrix. -/
theorem read1 (c : Dev nD) (t : Fin cfg0.N) (d : Fin 1024) (e : Fin 1024) :
    (iblk0 V c 1 t : S1024x1024.Idx → EReal) (ix2 d e) = (V c main_v1 : S1024x1024.Idx → EReal) (ix2 d e) := by
  show (V c main_v1 : S1024x1024.Idx → EReal) (((cfg0.win 1).blk t).view.emb (ix2 d e)) = _
  refine congrArg (V c main_v1 : S1024x1024.Idx → EReal) ?_
  obtain ⟨-, -, e2, e3, -⟩ := idx_facts t
  funext a; apply Fin.ext
  match a with
  | ⟨0, _⟩ => show win0_1.index t (0 : Fin 2) * 1024 + 1 * d.val = d.val; omega
  | ⟨1, _⟩ => show win0_1.index t (1 : Fin 2) * 1024 + 1 * e.val = e.val; omega

/-- The second weight matrix's block at any point is the whole matrix. -/
theorem read2 (c : Dev nD) (t : Fin cfg0.N) (d : Fin 1024) (e : Fin 1024) :
    (iblk0 V c 2 t : S1024x1024.Idx → EReal) (ix2 d e) = (V c main_v2 : S1024x1024.Idx → EReal) (ix2 d e) := by
  show (V c main_v2 : S1024x1024.Idx → EReal) (((cfg0.win 2).blk t).view.emb (ix2 d e)) = _
  refine congrArg (V c main_v2 : S1024x1024.Idx → EReal) ?_
  obtain ⟨-, -, -, -, e4, e5, -⟩ := idx_facts t
  funext a; apply Fin.ext
  match a with
  | ⟨0, _⟩ => show win0_2.index t (0 : Fin 2) * 1024 + 1 * d.val = d.val; omega
  | ⟨1, _⟩ => show win0_2.index t (1 : Fin 2) * 1024 + 1 * e.val = e.val; omega

/-! ## Output window 3: the activations times the first weight matrix -/

/-- What point t writes back is block t of the product. -/
theorem flushed3_eq (c : Dev nD) (t : Fin cfg0.N) :
    (dat0 V c).flushed 3 t = ((cfg0.win 3).blk t).view.read (Elt Ideal)
      (rowsTimes (V c main_v0 : S8192x1024.Idx → EReal) (V c main_v1 : S1024x1024.Idx → EReal)) := by
  show (cfg0.win 3).cut (grid0.coords t) ((dat0 V c).after 3 t) = _
  rw [after0_3]
  unfold out0_3
  rw [View.canon_unit_zero hz]
  simp only [View.ld_unit_zero (S := S512x1024) hz, View.ld_unit_zero (S := S1024x1024) hz]
  obtain ⟨-, -, -, -, -, -, e6, e7, -⟩ := idx_facts t
  funext j
  show (k0_pay2 (iblk0 V c 0 t) (iblk0 V c 1 t) : S512x1024.Idx → EReal) j
    = rowsTimes (V c main_v0 : S8192x1024.Idx → EReal) (V c main_v1 : S1024x1024.Idx → EReal) (((cfg0.win 3).blk t).view.emb j)
  refine pay2_block (V c main_v0 : S8192x1024.Idx → EReal) (V c main_v1 : S1024x1024.Idx → EReal) (iblk0 V c 0 t) (iblk0 V c 1 t) t.val
    (fun p d i h0 h1 => read0 V c t p d i h0 h1) (fun d e => read1 V c t d e) j (((cfg0.win 3).blk t).view.emb j) ?_ ?_
  · show win0_3.index t (0 : Fin 2) * 512 + 1 * (j 0).val = t.val * 512 + (j 0).val; omega
  · show win0_3.index t (1 : Fin 2) * 1024 + 1 * (j 1).val = (j 1).val; omega

/-- An index of the array is in point t's block iff each coordinate is in the block's range on its axis. -/
theorem mem_blk3 (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v3_0).slice (win0_3.rect t)).set ↔ _
  rw [View.set_slice_whole, Rect.mem_set_unit]
  exact Iff.rfl

/-- Row r is in the block of point r / 512. -/
theorem cover3 (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨-, -, -, -, -, -, e6, e7, -⟩ := idx_facts t
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The array after the region: the product. -/
theorem final3 (c : Dev nD) : (dat0 V c).arrAt 3 cfg0.N
    = rowsTimes (V c main_v0 : S8192x1024.Idx → EReal) (V c main_v1 : S1024x1024.Idx → EReal) :=
  (dat0 V c).arrAt_eq_of_cover 3 (rowsTimes (V c main_v0 : S8192x1024.Idx → EReal) (V c main_v1 : S1024x1024.Idx → EReal))
    (fun t _ => flushed3_eq V c t) cover3

theorem arr0_3 (c : Dev nD) (r : Fin 8192) (e : Fin 1024) :
    ((dat0 (F := Ideal) V c).arrAt 3 cfg0.N : S8192x1024.Idx → EReal) (ix2 r e)
      = ∑ d : Fin 1024, HMul.hMul (α := EReal) (β := EReal) (γ := EReal)
          ((V c main_v0 : S8192x1024.Idx → EReal) (ix2 r d)) ((V c main_v1 : S1024x1024.Idx → EReal) (ix2 d e)) :=
  (congrFun (final3 V c) (ix2 r e)).trans (rowsTimes_apply _ _ r e)

/-- The same with the two entry arrays named: whatever functions into the extended reals they are known to be. -/
theorem arr0_3_of (c : Dev nD) (A : S8192x1024.Idx → EReal) (W : S1024x1024.Idx → EReal)
    (hA : (V c main_v0 : S8192x1024.Idx → EReal) = A) (hW : (V c main_v1 : S1024x1024.Idx → EReal) = W)
    (r : Fin 8192) (e : Fin 1024) :
    ((dat0 (F := Ideal) V c).arrAt 3 cfg0.N : S8192x1024.Idx → EReal) (ix2 r e) = ∑ d : Fin 1024, A (ix2 r d) * W (ix2 d e) := by
  subst hA hW
  exact arr0_3 V c r e

/-! ## Output window 4: the activations times the second weight matrix -/

theorem flushed4_eq (c : Dev nD) (t : Fin cfg0.N) :
    (dat0 V c).flushed 4 t = ((cfg0.win 4).blk t).view.read (Elt Ideal)
      (rowsTimes (V c main_v0 : S8192x1024.Idx → EReal) (V c main_v2 : S1024x1024.Idx → EReal)) := by
  show (cfg0.win 4).cut (grid0.coords t) ((dat0 V c).after 4 t) = _
  rw [after0_4]
  unfold out0_4
  rw [View.canon_unit_zero hz]
  simp only [View.ld_unit_zero (S := S512x1024) hz, View.ld_unit_zero (S := S1024x1024) hz]
  obtain ⟨-, -, -, -, -, -, -, -, e8, e9, -⟩ := idx_facts t
  funext j
  show (k0_pay3 (iblk0 V c 0 t) (iblk0 V c 2 t) : S512x1024.Idx → EReal) j
    = rowsTimes (V c main_v0 : S8192x1024.Idx → EReal) (V c main_v2 : S1024x1024.Idx → EReal) (((cfg0.win 4).blk t).view.emb j)
  refine pay3_block (V c main_v0 : S8192x1024.Idx → EReal) (V c main_v2 : S1024x1024.Idx → EReal) (iblk0 V c 0 t) (iblk0 V c 2 t) t.val
    (fun p d i h0 h1 => read0 V c t p d i h0 h1) (fun d e => read2 V c t d e) j (((cfg0.win 4).blk t).view.emb j) ?_ ?_
  · show win0_4.index t (0 : Fin 2) * 512 + 1 * (j 0).val = t.val * 512 + (j 0).val; omega
  · show win0_4.index t (1 : Fin 2) * 1024 + 1 * (j 1).val = (j 1).val; omega

theorem mem_blk4 (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v3_1).slice (win0_4.rect t)).set ↔ _
  rw [View.set_slice_whole, Rect.mem_set_unit]
  exact Iff.rfl

theorem cover4 (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨-, -, -, -, -, -, -, -, e8, e9, -⟩ := idx_facts t
  refine ⟨t, flush0_4 t, ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

theorem final4 (c : Dev nD) : (dat0 V c).arrAt 4 cfg0.N
    = rowsTimes (V c main_v0 : S8192x1024.Idx → EReal) (V c main_v2 : S1024x1024.Idx → EReal) :=
  (dat0 V c).arrAt_eq_of_cover 4 (rowsTimes (V c main_v0 : S8192x1024.Idx → EReal) (V c main_v2 : S1024x1024.Idx → EReal))
    (fun t _ => flushed4_eq V c t) cover4

theorem arr0_4 (c : Dev nD) (r : Fin 8192) (e : Fin 1024) :
    ((dat0 (F := Ideal) V c).arrAt 4 cfg0.N : S8192x1024.Idx → EReal) (ix2 r e)
      = ∑ d : Fin 1024, HMul.hMul (α := EReal) (β := EReal) (γ := EReal)
          ((V c main_v0 : S8192x1024.Idx → EReal) (ix2 r d)) ((V c main_v2 : S1024x1024.Idx → EReal) (ix2 d e)) :=
  (congrFun (final4 V c) (ix2 r e)).trans (rowsTimes_apply _ _ r e)

theorem arr0_4_of (c : Dev nD) (A : S8192x1024.Idx → EReal) (W : S1024x1024.Idx → EReal)
    (hA : (V c main_v0 : S8192x1024.Idx → EReal) = A) (hW : (V c main_v2 : S1024x1024.Idx → EReal) = W)
    (r : Fin 8192) (e : Fin 1024) :
    ((dat0 (F := Ideal) V c).arrAt 4 cfg0.N : S8192x1024.Idx → EReal) (ix2 r e) = ∑ d : Fin 1024, A (ix2 r d) * W (ix2 d e) := by
  subst hA hW
  exact arr0_4 V c r e

/-! ## Output window 5: the activations themselves -/

theorem flushed5_eq (c : Dev nD) (t : Fin cfg0.N) :
    (dat0 V c).flushed 5 t = ((cfg0.win 5).blk t).view.read (Elt Ideal) (V c main_v0 : S8192x1024.Idx → EReal) := by
  show (cfg0.win 5).cut (grid0.coords t) ((dat0 V c).after 5 t) = _
  rw [after0_5]
  unfold out0_5
  rw [View.canon_unit_zero hz]
  simp only [View.ld_unit_zero (S := S512x1024) hz]
  obtain ⟨-, -, -, -, -, -, -, -, -, -, e10, e11⟩ := idx_facts t
  funext j
  show (k0_pay1 (iblk0 V c 0 t) : S512x1024.Idx → EReal) j = (V c main_v0 : S8192x1024.Idx → EReal) (((cfg0.win 5).blk t).view.emb j)
  refine pay1_block (V c main_v0 : S8192x1024.Idx → EReal) (iblk0 V c 0 t) t.val
    (fun p d i h0 h1 => read0 V c t p d i h0 h1) j (((cfg0.win 5).blk t).view.emb j) ?_ ?_
  · show win0_5.index t (0 : Fin 2) * 512 + 1 * (j 0).val = t.val * 512 + (j 0).val; omega
  · show win0_5.index t (1 : Fin 2) * 1024 + 1 * (j 1).val = (j 1).val; omega

theorem mem_blk5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v3_2).slice (win0_5.rect t)).set ↔ _
  rw [View.set_slice_whole, Rect.mem_set_unit]
  exact Iff.rfl

theorem cover5 (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨-, -, -, -, -, -, -, -, -, -, e10, e11⟩ := idx_facts t
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

theorem final5 (c : Dev nD) : (dat0 V c).arrAt 5 cfg0.N = (V c main_v0 : S8192x1024.Idx → EReal) :=
  (dat0 V c).arrAt_eq_of_cover 5 (V c main_v0 : S8192x1024.Idx → EReal) (fun t _ => flushed5_eq V c t) cover5

theorem arr0_5 (c : Dev nD) (r : Fin 8192) (d : Fin 1024) :
    ((dat0 (F := Ideal) V c).arrAt 5 cfg0.N : S8192x1024.Idx → EReal) (ix2 r d)
      = (V c main_v0 : S8192x1024.Idx → EReal) (ix2 r d) :=
  congrFun (final5 V c) (ix2 r d)

theorem arr0_5_of (c : Dev nD) (A : S8192x1024.Idx → EReal) (hA : (V c main_v0 : S8192x1024.Idx → EReal) = A)
    (r : Fin 8192) (d : Fin 1024) :
    ((dat0 (F := Ideal) V c).arrAt 5 cfg0.N : S8192x1024.Idx → EReal) (ix2 r d) = A (ix2 r d) := by
  subst hA
  exact arr0_5 V c r d

end Arrays

end Cert.KernelIdeal.Hand

end
-- ==== Proof.LibFlatRows.lean ====
/-
  A rank-3 array [a, b, c] and the matrix [a·b, c] of its rows are one array in row-major order: entry (n, s, f) of
  the first is entry (n·b + s, f) of the second. Read in both directions at coordinates, generic in the extents.
-/
import Idealize.ShloMosaic.Lib.Pipeline.Value
import Idealize.ShloMosaic.Lib.ValueIdx

namespace LibFlatRows

open Idealize.ShloMosaic Idealize.ShloMosaic.ValueIdx

variable {α : Type} {a b c N : ℕ}

/-- `[a, b, c] → [N, c]` (N = a·b): row `n·b + s`, column `f` is the entry (n, s, f). -/
theorem shapeCast_abc_rows_apply (x : (⟨3, ![a, b, c]⟩ : Shape).Idx → α)
    (h : (⟨3, ![a, b, c]⟩ : Shape).ShapeCasts ⟨2, ![N, c]⟩) (n : Fin a) (s : Fin b) (f : Fin c) (p : Fin N)
    (hp : p.val = n.val * b + s.val) :
    shapeCast ⟨2, ![N, c]⟩ x h (ix2 p f) = x (ix3 n s f) :=
  shapeCast_apply x h _ _ (by
    rw [Shape.rowMajor_val_three, Shape.rowMajor_val_two]
    show (n.val * b + s.val) * c + f.val = p.val * c + f.val
    rw [hp])

/-- `[N, c] → [a, b, c]` (N = a·b): the entry (n, s, f) is row `n·b + s`, column `f`. -/
theorem shapeCast_rows_abc_apply (x : (⟨2, ![N, c]⟩ : Shape).Idx → α)
    (h : (⟨2, ![N, c]⟩ : Shape).ShapeCasts ⟨3, ![a, b, c]⟩) (n : Fin a) (s : Fin b) (f : Fin c) (p : Fin N)
    (hp : p.val = n.val * b + s.val) :
    shapeCast ⟨3, ![a, b, c]⟩ x h (ix3 n s f) = x (ix2 p f) :=
  shapeCast_apply x h _ _ (by
    rw [Shape.rowMajor_val_three, Shape.rowMajor_val_two]
    show p.val * c + f.val = (n.val * b + s.val) * c + f.val
    rw [hp])

end LibFlatRows
-- ==== Proof.KI.HostValue.lean ====
/-
  What the program's host operations leave in the buffers they write, read at an index, when every float is an
  extended real: the reshape [4, 2048, 1024] → [8192, 1024] puts entry (r / 2048, r % 2048, d) at (r, d), the reshape
  back puts entry (b · 2048 + s, e) at (b, s, e) — both arrays are one row-major sequence —, and a conversion to a
  narrower float format is the identity.
-/
import proofs.«180799_j16922171146838_2_alg».proof.Proof.Gen.KernelIdeal.Launch
import proofs.«180799_j16922171146838_2_alg».proof.Proof.LibFlatRows
import Idealize.ShloMosaic.Lib.StableHlo.Run
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.ValueIdx Idealize.ShloMosaic.StableHlo

/-- Row r of the [8192, 1024] array is row (r / 2048, r % 2048) of the [4, 2048, 1024] input. -/
theorem host0_v0 (W : Valuation τ sig (Elt Ideal)) (r : Fin 8192) (d : Fin 1024) :
    (StableHlo.after (hostOps0 (F := Ideal)) W (Proc.devRef .tc main_v0) : S8192x1024.Idx → EReal) (ix2 r d)
      = (W (Proc.devRef .tc main_arg0) : S4x2048x1024.Idx → EReal)
          (ix3 (⟨r.val / 2048, by omega⟩ : Fin 4) (⟨r.val % 2048, by omega⟩ : Fin 2048) d) := by
  have e : (StableHlo.after (hostOps0 (F := Ideal)) W (Proc.devRef .tc main_v0) : S8192x1024.Idx → EReal)
      = shapeCast S8192x1024 (W (Proc.devRef .tc main_arg0) : S4x2048x1024.Idx → EReal)
          shapeCasts_S4x2048x1024_S8192x1024 := by
    dsimp only [hostOps0]
    after_results
    rfl
  rw [e]
  exact LibFlatRows.shapeCast_abc_rows_apply _ _ _ _ d r (by show r.val = r.val / 2048 * 2048 + r.val % 2048; omega)

/-- The conversion of the first weight matrix to the narrower format leaves it as it is. -/
theorem host0_v1 (W : Valuation τ sig (Elt Ideal)) :
    (StableHlo.after (hostOps0 (F := Ideal)) W (Proc.devRef .tc main_v1) : S1024x1024.Idx → EReal)
      = (W (Proc.devRef .tc main_arg1) : S1024x1024.Idx → EReal) := by
  dsimp only [hostOps0]
  after_results
  rfl

/-- The conversion of the second weight matrix to the narrower format leaves it as it is. -/
theorem host0_v2 (W : Valuation τ sig (Elt Ideal)) :
    (StableHlo.after (hostOps0 (F := Ideal)) W (Proc.devRef .tc main_v2) : S1024x1024.Idx → EReal)
      = (W (Proc.devRef .tc main_arg2) : S1024x1024.Idx → EReal) := by
  dsimp only [hostOps0]
  after_results
  rfl

/-- Entry (b, s, e) of the first [4, 2048, 1024] result is entry (b · 2048 + s, e) of the first [8192, 1024] array. -/
theorem host1_v4 (W : Valuation τ sig (Elt Ideal)) (b : Fin 4) (s : Fin 2048) (e : Fin 1024) :
    (StableHlo.after (hostOps1 (F := Ideal)) W (Proc.devRef .tc main_v4) : S4x2048x1024.Idx → EReal) (ix3 b s e)
      = (W (Proc.devRef .tc main_v3_0) : S8192x1024.Idx → EReal)
          (ix2 (⟨b.val * 2048 + s.val, by omega⟩ : Fin 8192) e) := by
  have h : (StableHlo.after (hostOps1 (F := Ideal)) W (Proc.devRef .tc main_v4) : S4x2048x1024.Idx → EReal)
      = shapeCast S4x2048x1024 (W (Proc.devRef .tc main_v3_0) : S8192x1024.Idx → EReal)
          shapeCasts_S8192x1024_S4x2048x1024 := by
    dsimp only [hostOps1]
    after_results
    rfl
  rw [h]
  exact LibFlatRows.shapeCast_rows_abc_apply _ _ b s e _ rfl

/-- The same for the second result, -/
theorem host1_v5 (W : Valuation τ sig (Elt Ideal)) (b : Fin 4) (s : Fin 2048) (e : Fin 1024) :
    (StableHlo.after (hostOps1 (F := Ideal)) W (Proc.devRef .tc main_v5) : S4x2048x1024.Idx → EReal) (ix3 b s e)
      = (W (Proc.devRef .tc main_v3_1) : S8192x1024.Idx → EReal)
          (ix2 (⟨b.val * 2048 + s.val, by omega⟩ : Fin 8192) e) := by
  have h : (StableHlo.after (hostOps1 (F := Ideal)) W (Proc.devRef .tc main_v5) : S4x2048x1024.Idx → EReal)
      = shapeCast S4x2048x1024 (W (Proc.devRef .tc main_v3_1) : S8192x1024.Idx → EReal)
          shapeCasts_S8192x1024_S4x2048x1024 := by
    dsimp only [hostOps1]
    after_results
    rfl
  rw [h]
  exact LibFlatRows.shapeCast_rows_abc_apply _ _ b s e _ rfl

/-- and for the third. -/
theorem host1_v6 (W : Valuation τ sig (Elt Ideal)) (b : Fin 4) (s : Fin 2048) (e : Fin 1024) :
    (StableHlo.after (hostOps1 (F := Ideal)) W (Proc.devRef .tc main_v6) : S4x2048x1024.Idx → EReal) (ix3 b s e)
      = (W (Proc.devRef .tc main_v3_2) : S8192x1024.Idx → EReal)
          (ix2 (⟨b.val * 2048 + s.val, by omega⟩ : Fin 8192) e) := by
  have h : (StableHlo.after (hostOps1 (F := Ideal)) W (Proc.devRef .tc main_v6) : S4x2048x1024.Idx → EReal)
      = shapeCast S4x2048x1024 (W (Proc.devRef .tc main_v3_2) : S8192x1024.Idx → EReal)
          shapeCasts_S8192x1024_S4x2048x1024 := by
    dsimp only [hostOps1]
    after_results
    rfl
  rw [h]
  exact LibFlatRows.shapeCast_rows_abc_apply _ _ b s e _ rfl

end Cert.KernelIdeal.Hand

end
-- ==== Proof.Spec.lean ====
/-
  One attention head over a batch of 4 sequences of 2048 positions of 1024 features, with the values the raw
  inputs: queries q = x·Wq, keys k = x·Wk, logits q·kᵀ scaled by 1/8, a softmax along the keys, and the weighted
  sum of the input rows. This module only STATES the two ways of computing it that the certificate compares, index
  by index over the extended reals:

  * `G`: the whole row at once — the row's maximum M, the weights exp(logit − M), their sum L, and
    (Σ_t exp(logit_t − M)·x_t) / L;
  * `tiled`: the keys cut into two tiles of 1024; a running triple (maximum, sum, weighted sum) that starts at
    (−∞, 0, 0) and at each tile is rescaled by exp(old maximum − new maximum) before the tile's terms are added; the
    result is the last weighted sum over the last sum.

  That the two agree on real inputs is proved elsewhere; nothing here is a theorem about them.
-/
import Idealize.ShloMosaic.PureOps.Ideal
import Idealize.ShloMosaic.Lib.ValueIdx

noncomputable section

namespace Cert.Attn

open Idealize.ShloMosaic Idealize.ShloMosaic.ValueIdx

/-- The inputs' shape [4, 2048, 1024] and the weights' shape [1024, 1024]. -/
abbrev SX : Shape := ⟨3, ![4, 2048, 1024]⟩
abbrev SW : Shape := ⟨2, ![1024, 1024]⟩

section
variable (x : SX.Idx → EReal) (wq wk : SW.Idx → EReal)

/-- The query and key projections: row (b, s) of x against column e of the weight matrix. -/
def qv (b : Fin 4) (s : Fin 2048) (e : Fin 1024) : EReal := ∑ d : Fin 1024, x (ix3 b s d) * wq (ix2 d e)
def kv (b : Fin 4) (t : Fin 2048) (e : Fin 1024) : EReal := ∑ d : Fin 1024, x (ix3 b t d) * wk (ix2 d e)

/-- The unscaled logit of query s against key t. -/
def dotqk (b : Fin 4) (s t : Fin 2048) : EReal := ∑ e : Fin 1024, qv x wq b s e * kv x wk b t e

/-- The scaled logit: the product with 1/8. -/
def logit (b : Fin 4) (s t : Fin 2048) : EReal := dotqk x wq wk b s t * ((1 / 8 : ℝ) : EReal)

/-- The row's maximum, the softmax weights before normalisation, and their sum. -/
def rowMax (b : Fin 4) (s : Fin 2048) : EReal := Finset.univ.sup fun t : Fin 2048 => logit x wq wk b s t
def weight (b : Fin 4) (s t : Fin 2048) : EReal := Ideal.exp (logit x wq wk b s t - rowMax x wq wk b s)
def rowSum (b : Fin 4) (s : Fin 2048) : EReal := ∑ t : Fin 2048, weight x wq wk b s t

/-- THE RESULT, the whole row at once: (Σ_t weight_t · x(b, t, d)) / (Σ_t weight_t). -/
def G (j : SX.Idx) : EReal :=
  Ideal.div (∑ t : Fin 2048, weight x wq wk (j 0) (j 1) t * x (ix3 (j 0) t (j 2))) (rowSum x wq wk (j 0) (j 1))

/-! ## The same, two tiles of 1024 keys with a running maximum -/

/-- Key r of tile i. -/
def key (i : Fin 2) (r : Fin 1024) : Fin 2048 := ⟨i.val * 1024 + r.val, by have := i.isLt; have := r.isLt; omega⟩

/-- The logit as the tiled computation spells its scale: the product with the float word of 0.125. -/
def logitW (b : Fin 4) (s t : Fin 2048) : EReal := dotqk x wq wk b s t * Ideal.ofBits .f32 0x3E000000#32

/-- The running maximum after tile i, from the maximum m before it: max m (the tile's maximum, folded from −∞). -/
def nextMax (b : Fin 4) (s : Fin 2048) (i : Fin 2) (m : EReal) : EReal :=
  max m ((Finset.univ : Finset (Fin 1024)).fold max (Ideal.ofBits .f32 0xFF800000#32) fun r => logitW x wq wk b s (key i r))

/-- The running sum after tile i, from (m, l) before it. -/
def nextSum (b : Fin 4) (s : Fin 2048) (i : Fin 2) (m l : EReal) : EReal :=
  Ideal.exp (m - nextMax x wq wk b s i m) * l
    + ∑ r : Fin 1024, Ideal.exp (logitW x wq wk b s (key i r) - nextMax x wq wk b s i m)

/-- The running weighted sum of feature d after tile i, from (m, a) before it. -/
def nextAcc (b : Fin 4) (s : Fin 2048) (d : Fin 1024) (i : Fin 2) (m a : EReal) : EReal :=
  Ideal.exp (m - nextMax x wq wk b s i m) * a
    + ∑ r : Fin 1024, Ideal.exp (logitW x wq wk b s (key i r) - nextMax x wq wk b s i m) * x (ix3 b (key i r) d)

/-- The start of the running triple: −∞ and 0 as the float words the computation writes. -/
abbrev negInf : EReal := Ideal.ofBits .f32 0xFF800000#32
abbrev zeroW : EReal := Ideal.ofBits .f32 0x00000000#32

/-- The running triple after the first tile, -/
def max0 (b : Fin 4) (s : Fin 2048) : EReal := nextMax x wq wk b s 0 negInf
def sum0 (b : Fin 4) (s : Fin 2048) : EReal := nextSum x wq wk b s 0 negInf zeroW
def acc0 (b : Fin 4) (s : Fin 2048) (d : Fin 1024) : EReal := nextAcc x wq wk b s d 0 negInf zeroW
/-- and after the second. -/
def sum1 (b : Fin 4) (s : Fin 2048) : EReal := nextSum x wq wk b s 1 (max0 x wq wk b s) (sum0 x wq wk b s)
def acc1 (b : Fin 4) (s : Fin 2048) (d : Fin 1024) : EReal :=
  nextAcc x wq wk b s d 1 (max0 x wq wk b s) (acc0 x wq wk b s d)

/-- THE RESULT, tile by tile: the last weighted sum over the last sum. -/
def tiled (b : Fin 4) (s : Fin 2048) (d : Fin 1024) : EReal := Ideal.div (acc1 x wq wk b s d) (sum1 x wq wk b s)

end

end Cert.Attn

end
-- ==== Proof.KI.EntryValue.lean ====
/-
  What the second region finds in its three input arrays, as functions of the program's arguments, over the
  extended reals.

  The first host stretch views the [4, 2048, 1024] activations as [8192, 1024] rows (row b · 2048 + s is position s
  of sequence b) and converts the two weight matrices to a narrower format, which changes nothing here. The first
  region then leaves, in three [8192, 1024] arrays, the rows times the first weight matrix, the rows times the
  second, and the rows themselves. The second host stretch views each of the three as [4, 2048, 1024] again. So the
  second region's first input is the query projection, its second the key projection, and its third the
  activations: entry (b, s, e) of the first is Σ_d x(b, s, d) · Wq(d, e).
-/
import proofs.«180799_j16922171146838_2_alg».proof.Proof.KI.Frame
import proofs.«180799_j16922171146838_2_alg».proof.Proof.KI.Region0Value
import proofs.«180799_j16922171146838_2_alg».proof.Proof.KI.HostValue
import proofs.«180799_j16922171146838_2_alg».proof.Proof.Spec

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## Rows and (sequence, position) pairs -/

/-- The [4, 2048, 1024] array read as [8192, 1024] rows. -/
def asRows (X : S4x2048x1024.Idx → EReal) : S8192x1024.Idx → EReal :=
  fun i => X (ix3 (⟨(i 0).val / 2048, by have h : (i 0).val < 8192 := (i 0).isLt; omega⟩ : Fin 4)
    (⟨(i 0).val % 2048, by omega⟩ : Fin 2048) (i 1 : Fin 1024))

/-- Row b · 2048 + s is position s of sequence b. -/
theorem asRows_apply (X : S4x2048x1024.Idx → EReal) (b : Fin 4) (s : Fin 2048) (d : Fin 1024)
    (h : b.val * 2048 + s.val < 8192) :
    asRows X (ix2 (⟨b.val * 2048 + s.val, h⟩ : Fin 8192) d) = X (ix3 b s d) := by
  show X (ix3 (⟨(b.val * 2048 + s.val) / 2048, _⟩ : Fin 4) (⟨(b.val * 2048 + s.val) % 2048, _⟩ : Fin 2048) d) = _
  have hb : (⟨(b.val * 2048 + s.val) / 2048, by omega⟩ : Fin 4) = b := Fin.ext (by show (b.val * 2048 + s.val) / 2048 = b.val; omega)
  have hs : (⟨(b.val * 2048 + s.val) % 2048, by omega⟩ : Fin 2048) = s := Fin.ext (by show (b.val * 2048 + s.val) % 2048 = s.val; omega)
  rw [hb, hs]

/-! ## The chain, for any buffer contents at the boundaries -/

section Generic
variable (V1 : (c : Dev nD) → (b : Ref sig .tc) → Buf (Elt Ideal) ((c : Thread nD τ).loc b))
variable (W2 : Valuation τ sig (Elt Ideal)) (c : Dev nD)
variable (X : S4x2048x1024.Idx → EReal) (Wm : S1024x1024.Idx → EReal)

/-- If the first region is entered with the rows of X and the matrix Wm, and its first output array is what the
    second host stretch starts from, that stretch's first result is X times Wm, sequence by sequence. -/
theorem v4_of (hX : (V1 c main_v0 : S8192x1024.Idx → EReal) = asRows X) (hW : (V1 c main_v1 : S1024x1024.Idx → EReal) = Wm)
    (h3 : (W2 (Proc.devRef .tc main_v3_0) : S8192x1024.Idx → EReal) = (dat0 (F := Ideal) V1 c).arrAt 3 cfg0.N)
    (b : Fin 4) (s : Fin 2048) (e : Fin 1024) :
    (StableHlo.after (hostOps1 (F := Ideal)) W2 (Proc.devRef .tc main_v4) : S4x2048x1024.Idx → EReal) (ix3 b s e)
      = ∑ d : Fin 1024, X (ix3 b s d) * Wm (ix2 d e) := by
  have hr : b.val * 2048 + s.val < 8192 := by omega
  have e1 : (W2 (Proc.devRef .tc main_v3_0) : S8192x1024.Idx → EReal) (ix2 (⟨b.val * 2048 + s.val, hr⟩ : Fin 8192) e)
      = ((dat0 (F := Ideal) V1 c).arrAt 3 cfg0.N : S8192x1024.Idx → EReal) (ix2 (⟨b.val * 2048 + s.val, hr⟩ : Fin 8192) e) :=
    congrFun h3 _
  have e2 := arr0_3_of V1 c (asRows X) Wm hX hW ⟨b.val * 2048 + s.val, hr⟩ e
  have e3 : ∑ d : Fin 1024, asRows X (ix2 (⟨b.val * 2048 + s.val, hr⟩ : Fin 8192) d) * Wm (ix2 d e)
      = ∑ d : Fin 1024, X (ix3 b s d) * Wm (ix2 d e) :=
    Finset.sum_congr rfl fun d _ => by rw [asRows_apply X b s d hr]
  exact (host1_v4 W2 b s e).trans (e1.trans (e2.trans e3))

theorem v5_of (hX : (V1 c main_v0 : S8192x1024.Idx → EReal) = asRows X) (hW : (V1 c main_v2 : S1024x1024.Idx → EReal) = Wm)
    (h4 : (W2 (Proc.devRef .tc main_v3_1) : S8192x1024.Idx → EReal) = (dat0 (F := Ideal) V1 c).arrAt 4 cfg0.N)
    (b : Fin 4) (s : Fin 2048) (e : Fin 1024) :
    (StableHlo.after (hostOps1 (F := Ideal)) W2 (Proc.devRef .tc main_v5) : S4x2048x1024.Idx → EReal) (ix3 b s e)
      = ∑ d : Fin 1024, X (ix3 b s d) * Wm (ix2 d e) := by
  have hr : b.val * 2048 + s.val < 8192 := by omega
  have e1 : (W2 (Proc.devRef .tc main_v3_1) : S8192x1024.Idx → EReal) (ix2 (⟨b.val * 2048 + s.val, hr⟩ : Fin 8192) e)
      = ((dat0 (F := Ideal) V1 c).arrAt 4 cfg0.N : S8192x1024.Idx → EReal) (ix2 (⟨b.val * 2048 + s.val, hr⟩ : Fin 8192) e) :=
    congrFun h4 _
  have e2 := arr0_4_of V1 c (asRows X) Wm hX hW ⟨b.val * 2048 + s.val, hr⟩ e
  have e3 : ∑ d : Fin 1024, asRows X (ix2 (⟨b.val * 2048 + s.val, hr⟩ : Fin 8192) d) * Wm (ix2 d e)
      = ∑ d : Fin 1024, X (ix3 b s d) * Wm (ix2 d e) :=
    Finset.sum_congr rfl fun d _ => by rw [asRows_apply X b s d hr]
  exact (host1_v5 W2 b s e).trans (e1.trans (e2.trans e3))

theorem v6_of (hX : (V1 c main_v0 : S8192x1024.Idx → EReal) = asRows X)
    (h5 : (W2 (Proc.devRef .tc main_v3_2) : S8192x1024.Idx → EReal) = (dat0 (F := Ideal) V1 c).arrAt 5 cfg0.N)
    (b : Fin 4) (s : Fin 2048) (d : Fin 1024) :
    (StableHlo.after (hostOps1 (F := Ideal)) W2 (Proc.devRef .tc main_v6) : S4x2048x1024.Idx → EReal) (ix3 b s d)
      = X (ix3 b s d) := by
  have hr : b.val * 2048 + s.val < 8192 := by omega
  have e1 : (W2 (Proc.devRef .tc main_v3_2) : S8192x1024.Idx → EReal) (ix2 (⟨b.val * 2048 + s.val, hr⟩ : Fin 8192) d)
      = ((dat0 (F := Ideal) V1 c).arrAt 5 cfg0.N : S8192x1024.Idx → EReal) (ix2 (⟨b.val * 2048 + s.val, hr⟩ : Fin 8192) d) :=
    congrFun h5 _
  have e2 := arr0_5_of V1 c (asRows X) hX ⟨b.val * 2048 + s.val, hr⟩ d
  exact (host1_v6 W2 b s d).trans (e1.trans (e2.trans (asRows_apply X b s d hr)))

end Generic

/-! ## At the run's boundaries -/

section Run
variable (m : (ℓ : Loc nD τ sig) → Buf (Elt Ideal) ℓ) (ρ : Dev nD → PrngReg) (c : Dev nD)

/-- The first region is entered with the rows of the activations, -/
theorem vt1_v0 : (Vt1 m ρ c main_v0 : S8192x1024.Idx → EReal)
    = asRows (m ((c : Thread nD τ).loc main_arg0) : S4x2048x1024.Idx → EReal) := by
  funext i
  obtain ⟨r, d, rfl⟩ : ∃ (r : Fin 8192) (d : Fin 1024), i = ix2 r d := ⟨i 0, i 1, eq_ix2 i⟩
  exact host0_v0 (Wt0 m ρ c) r d

/-- and with the two weight matrices. -/
theorem vt1_v1 : (Vt1 m ρ c main_v1 : S1024x1024.Idx → EReal) = (m ((c : Thread nD τ).loc main_arg1) : S1024x1024.Idx → EReal) :=
  host0_v1 (Wt0 m ρ c)
theorem vt1_v2 : (Vt1 m ρ c main_v2 : S1024x1024.Idx → EReal) = (m ((c : Thread nD τ).loc main_arg2) : S1024x1024.Idx → EReal) :=
  host0_v2 (Wt0 m ρ c)

/-- The second region's first input is the query projection, -/
theorem v4_eq (b : Fin 4) (s : Fin 2048) (e : Fin 1024) :
    (Vt3 m ρ c main_v4 : S4x2048x1024.Idx → EReal) (ix3 b s e)
      = Cert.Attn.qv (m ((c : Thread nD τ).loc main_arg0) : S4x2048x1024.Idx → EReal)
          (m ((c : Thread nD τ).loc main_arg1) : S1024x1024.Idx → EReal) b s e :=
  v4_of (Vt1 m ρ) (Wt2 m ρ c) c _ _ (vt1_v0 m ρ c) (vt1_v1 m ρ c) (Wt2_arr m ρ c 3) b s e

/-- its second the key projection, -/
theorem v5_eq (b : Fin 4) (s : Fin 2048) (e : Fin 1024) :
    (Vt3 m ρ c main_v5 : S4x2048x1024.Idx → EReal) (ix3 b s e)
      = Cert.Attn.kv (m ((c : Thread nD τ).loc main_arg0) : S4x2048x1024.Idx → EReal)
          (m ((c : Thread nD τ).loc main_arg2) : S1024x1024.Idx → EReal) b s e :=
  v5_of (Vt1 m ρ) (Wt2 m ρ c) c _ _ (vt1_v0 m ρ c) (vt1_v2 m ρ c) (Wt2_arr m ρ c 4) b s e

/-- and its third the activations. -/
theorem v6_eq (b : Fin 4) (s : Fin 2048) (d : Fin 1024) :
    (Vt3 m ρ c main_v6 : S4x2048x1024.Idx → EReal) (ix3 b s d)
      = (m ((c : Thread nD τ).loc main_arg0) : S4x2048x1024.Idx → EReal) (ix3 b s d) :=
  v6_of (Vt1 m ρ) (Wt2 m ρ c) c _ (vt1_v0 m ρ c) (Wt2_arr m ρ c 5) b s d

end Run

end Cert.KernelIdeal.Hand

end
-- ==== Proof.KI.KernelValue.lean ====
/-
  The kernel's result, index by index over the extended reals: the output array the second region leaves holds, at
  (b, s, d), the two-tile running form `Cert.Attn.tiled` of the program's three arguments. The second region's query,
  key and value arrays are the first region's projections q = x·Wq, k = x·Wk and x itself, reshaped; a point's blocks
  are rows of them; the body's step on a block is the running triple's step on each row.
-/
import proofs.«180799_j16922171146838_2_alg».proof.Proof.Gen.KernelIdeal.Launch
import proofs.«180799_j16922171146838_2_alg».proof.Proof.Gen.KernelIdeal.Skeleton
import proofs.«180799_j16922171146838_2_alg».proof.Proof.Gen.KernelIdeal.Points
import proofs.«180799_j16922171146838_2_alg».proof.Proof.KI.Frame
import proofs.«180799_j16922171146838_2_alg».proof.Proof.KI.Region1Value
import proofs.«180799_j16922171146838_2_alg».proof.Proof.KI.StepValue
import proofs.«180799_j16922171146838_2_alg».proof.Proof.KI.EntryValue
import proofs.«180799_j16922171146838_2_alg».proof.Proof.Spec
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Attn

variable (m : (ℓ : Loc nD τ sig) → Buf (Elt Ideal) ℓ) (ρ : Dev nD → PrngReg) (c : Dev nD)

/-- The program's three arguments on core c. -/
abbrev argX : SX.Idx → EReal := m ((c : Thread nD τ).loc main_arg0)
abbrev argQ : SW.Idx → EReal := m ((c : Thread nD τ).loc main_arg1)
abbrev argK : SW.Idx → EReal := m ((c : Thread nD τ).loc main_arg2)

/-- Row i·512 + p of the sequence. -/
def rowOf (i : Fin 4) (p : Fin 512) : Fin 2048 := ⟨i.val * 512 + p.val, by have := i.isLt; have := p.isLt; omega⟩

/-! ## A point's blocks are rows of q, k and x -/

theorem blkQ (b i : Fin 4) (k : Fin 2) (p : Fin 512) (e : Fin 1024) :
    iblk1 (F := Ideal) (Vt3 m ρ) c 0 (pt b i k) (ix3 (0 : Fin 1) p e) = qv (argX m c) (argQ m c) b (rowOf i p) e :=
  (iblk1_0_apply (Vt3 m ρ) c b i k p e).trans (v4_eq m ρ c b (rowOf i p) e)
theorem blkK (b i : Fin 4) (k : Fin 2) (r : Fin 1024) (e : Fin 1024) :
    iblk1 (F := Ideal) (Vt3 m ρ) c 1 (pt b i k) (ix3 (0 : Fin 1) r e) = kv (argX m c) (argK m c) b (key k r) e :=
  (iblk1_1_apply (Vt3 m ρ) c b i k r e).trans (v5_eq m ρ c b (key k r) e)
theorem blkV (b i : Fin 4) (k : Fin 2) (r : Fin 1024) (d : Fin 1024) :
    iblk1 (F := Ideal) (Vt3 m ρ) c 2 (pt b i k) (ix3 (0 : Fin 1) r d) = argX m c (ix3 b (key k r) d) :=
  (iblk1_2_apply (Vt3 m ρ) c b i k r d).trans (v6_eq m ρ c b (key k r) d)

/-- The scaled logit the body computes for row p of the query block against row r of the key block. -/
theorem sc_eq (b i : Fin 4) (k : Fin 2) (p : Fin 512) (r : Fin 1024) :
    sc (iblk1 (F := Ideal) (Vt3 m ρ) c 0 (pt b i k)) (iblk1 (F := Ideal) (Vt3 m ρ) c 1 (pt b i k)) p r
      = logitW (argX m c) (argQ m c) (argK m c) b (rowOf i p) (key k r) := by
  unfold sc logitW dotqk
  refine congrArg (· * _) (Finset.sum_congr rfl fun e _ => ?_)
  rw [blkQ, blkK]

/-! ## The kept buffers after each point are the running triple -/

theorem mE_eq (b i : Fin 4) (p : Fin 512) :
    mE (F := Ideal) (Vt3 m ρ) c (pt b i 0) (ix3 (0 : Fin 1) p (0 : Fin 1)) = max0 (argX m c) (argQ m c) (argK m c) b (rowOf i p) := by
  unfold mE max0 nextMax
  rw [stepM_apply, m0_apply]
  refine congrArg (max _) (congrArg (Finset.fold max _ · Finset.univ) (funext fun r => ?_))
  exact sc_eq m ρ c b i 0 p r

theorem lE_eq (b i : Fin 4) (p : Fin 512) :
    lE (F := Ideal) (Vt3 m ρ) c (pt b i 0) (ix3 (0 : Fin 1) p (0 : Fin 1)) = sum0 (argX m c) (argQ m c) (argK m c) b (rowOf i p) := by
  have hm := mE_eq m ρ c b i p
  unfold mE at hm
  unfold lE sum0 nextSum
  rw [stepL_apply, hm, m0_apply, l0_apply]
  refine congrArg (_ + ·) (Finset.sum_congr rfl fun r _ => ?_)
  rw [sc_eq]; rfl

theorem aE_eq (b i : Fin 4) (p : Fin 512) (d : Fin 1024) :
    aE (F := Ideal) (Vt3 m ρ) c (pt b i 0) (ix3 (0 : Fin 1) p d) = acc0 (argX m c) (argQ m c) (argK m c) b (rowOf i p) d := by
  have hm := mE_eq m ρ c b i p
  unfold mE at hm
  unfold aE acc0 nextAcc
  rw [stepA_apply, hm, m0_apply, a0_apply]
  refine congrArg (_ + ·) (Finset.sum_congr rfl fun r _ => ?_)
  rw [sc_eq, blkV]; rfl

theorem mO_eq (b i : Fin 4) (p : Fin 512) :
    mO (F := Ideal) (Vt3 m ρ) c (pt b i 1) (ix3 (0 : Fin 1) p (0 : Fin 1))
      = nextMax (argX m c) (argQ m c) (argK m c) b (rowOf i p) 1 (max0 (argX m c) (argQ m c) (argK m c) b (rowOf i p)) := by
  unfold mO nextMax
  rw [stepM_apply, prevPt_pt, mE_eq]
  refine congrArg (max _) (congrArg (Finset.fold max _ · Finset.univ) (funext fun r => ?_))
  exact sc_eq m ρ c b i 1 p r

theorem lO_eq (b i : Fin 4) (p : Fin 512) :
    lO (F := Ideal) (Vt3 m ρ) c (pt b i 1) (ix3 (0 : Fin 1) p (0 : Fin 1)) = sum1 (argX m c) (argQ m c) (argK m c) b (rowOf i p) := by
  have hm := mO_eq m ρ c b i p
  unfold mO at hm
  unfold lO sum1 nextSum
  rw [stepL_apply, hm, prevPt_pt, mE_eq, lE_eq]
  refine congrArg (_ + ·) (Finset.sum_congr rfl fun r _ => ?_)
  rw [sc_eq]

theorem aO_eq (b i : Fin 4) (p : Fin 512) (d : Fin 1024) :
    aO (F := Ideal) (Vt3 m ρ) c (pt b i 1) (ix3 (0 : Fin 1) p d) = acc1 (argX m c) (argQ m c) (argK m c) b (rowOf i p) d := by
  have hm := mO_eq m ρ c b i p
  unfold mO at hm
  unfold aO acc1 nextAcc
  rw [stepA_apply, hm, prevPt_pt, mE_eq, aE_eq]
  refine congrArg (_ + ·) (Finset.sum_congr rfl fun r _ => ?_)
  rw [sc_eq, blkV]

/-- The block a last key tile's point stores, at row p and feature d. -/
theorem oAt_eq (b i : Fin 4) (p : Fin 512) (d : Fin 1024) :
    oAt (F := Ideal) (Vt3 m ρ) c (pt b i 1) (ix3 (0 : Fin 1) p d) = tiled (argX m c) (argQ m c) (argK m c) b (rowOf i p) d := by
  have hodd : ¬ (pt b i 1).val % 2 = 0 := by rw [pt_val]; show ¬ (b.val * 8 + i.val * 2 + 1) % 2 = 0; omega
  unfold oAt tiled
  rw [outO_apply]
  have ea : aAt (F := Ideal) (Vt3 m ρ) c (pt b i 1) = aO (F := Ideal) (Vt3 m ρ) c (pt b i 1) := by unfold aAt; rw [if_neg hodd]
  have el : lAt (F := Ideal) (Vt3 m ρ) c (pt b i 1) = lO (F := Ideal) (Vt3 m ρ) c (pt b i 1) := by unfold lAt; rw [if_neg hodd]
  rw [ea, el, aO_eq, lO_eq]

/-! ## The result array -/

/-- THE KERNEL'S RESULT on core c: the last boundary's contents of the result buffer. -/
theorem result_eq : (Wt4 m ρ c (Proc.devRef .tc main_v7) : S4x2048x1024.Idx → EReal)
    = fun j => tiled (argX m c) (argQ m c) (argK m c) (j 0) (j 1) (j 2) := by
  refine ((Wt4_arr m ρ c 3).trans (arr1_3 (Vt3 m ρ) c)).trans ?_
  funext j
  obtain ⟨b, s, d, rfl⟩ : ∃ (b : Fin 4) (s : Fin 2048) (d : Fin 1024), j = ix3 b s d := ⟨j 0, j 1, j 2, eq_ix3 j⟩
  rw [Gout_ix3]
  unfold GoutAt
  rw [oAt_eq]
  have hs : rowOf (⟨s.val / 512, by have := s.isLt; omega⟩ : Fin 4) (⟨s.val % 512, Nat.mod_lt _ (by norm_num)⟩ : Fin 512) = s :=
    Fin.ext (by show s.val / 512 * 512 + s.val % 512 = s.val; omega)
  rw [hs]
  rfl

/-- THE RUN, READ: every weakly fair execution terminates with the result buffer at the tiled form of the arguments and
    the arguments unchanged. -/
theorem run_value : θ_run defs (onTc (τ := τ) (main (F := Ideal))) ⟨m, fun _ => 0, ρ⟩ (fun r => ∀ c : Dev nD,
      r.2.mem ((c.tc : Thread nD τ).loc main_v7) = (fun j => tiled (argX m c) (argQ m c) (argK m c) (j 0) (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v7 (by decide))).trans (result_eq m ρ c),
     (h c _ (mem_uc main_arg0 (by decide))).trans (Wt4_main_arg0 m ρ c),
     (h c _ (mem_uc main_arg1 (by decide))).trans (Wt4_main_arg1 m ρ c),
     (h c _ (mem_uc main_arg2 (by decide))).trans (Wt4_main_arg2 m ρ c)⟩) (run_all m ρ)

end Cert.KernelIdeal.Hand

end
-- ==== Proof.LibOnlineSoftmax.lean ====
/-
  The one-pass ("online") softmax statistics of a column cut into tiles.

  A column of T·R extended reals ℓ t r (tile t, place r in the tile) is walked tile by tile with a
  pair (m, s): the maximum met so far and the sum, over the places met so far, of exp (ℓ − m).
  It starts at (⊥, 0); a tile with values v moves (m, s) to

      m' = max m (sup v),      s' = s · exp (m − m') + ∑ r, exp (v r − m').

  When every ℓ t r is a real number the pair after all T tiles is the column's maximum and the
  column's sum of exp (ℓ − maximum): after k tiles m is the maximum of the first k tiles and s the
  sum of exp (ℓ − m) over them. At k = 0 the sum is empty, so the first step multiplies 0; from then
  on m and m' are reals and exp (a − m) · exp (m − m') = exp (a − m') carries every term.
-/
import Idealize.ShloMosaic.PureOps.Ideal
import Mathlib.Data.EReal.Basic
import Mathlib.Order.CompleteLattice.Finset

noncomputable section

namespace Cert.OnlineSoftmax

open Idealize.ShloMosaic

/-! ### Finite sums of reals inside the extended reals -/

/-- The inclusion of the reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem exists_real_sum {ι : Type*} (s : Finset ι) (f : ι → EReal)
    (hf : ∀ i ∈ s, ∃ y : ℝ, f i = (y : EReal)) : ∃ y : ℝ, ∑ i ∈ s, f i = (y : EReal) := by
  classical
  induction s using Finset.induction_on with
  | empty => exact ⟨0, by simp⟩
  | insert a s ha ih =>
    obtain ⟨y, hy⟩ := hf a (Finset.mem_insert_self a s)
    obtain ⟨z, hz⟩ := ih fun i hi => hf i (Finset.mem_insert_of_mem hi)
    exact ⟨y + z, by rw [Finset.sum_insert ha, hy, hz, EReal.coe_add]⟩

/-- A finite sum of products of reals, plus a real, is a real. -/
theorem exists_real_sum_mul_add {ι : Type*} [Fintype ι] (a b : ι → EReal) (c : EReal)
    (ha : ∀ i, ∃ y : ℝ, a i = (y : EReal)) (hb : ∀ i, ∃ y : ℝ, b i = (y : EReal))
    (hc : ∃ y : ℝ, c = (y : EReal)) : ∃ y : ℝ, (∑ i, a i * b i) + c = (y : EReal) := by
  obtain ⟨z, hz⟩ := hc
  obtain ⟨w, hw⟩ := exists_real_sum Finset.univ (fun i => a i * b i) fun i _ => by
    obtain ⟨p, hp⟩ := ha i
    obtain ⟨q, hq⟩ := hb i
    exact ⟨p * q, by rw [hp, hq, EReal.coe_mul]⟩
  exact ⟨w + z, by rw [hw, hz, EReal.coe_add]⟩

/-! ### Changing the shift of a sum of exponentials -/

/-- For reals, (∑ exp (a i − μ)) · exp (μ − μ') = ∑ exp (a i − μ'). -/
theorem sum_exp_rescale {ι : Type*} (A : Finset ι) (a : ι → ℝ) (μ μ' : ℝ) :
    (∑ i ∈ A, Ideal.exp ((a i : EReal) - (μ : EReal))) * Ideal.exp ((μ : EReal) - (μ' : EReal))
      = ∑ i ∈ A, Ideal.exp ((a i : EReal) - (μ' : EReal)) := by
  simp only [← EReal.coe_sub, Ideal.exp_coe, ← coe_sum, ← EReal.coe_mul]
  congr 1
  rw [Finset.sum_mul]
  refine Finset.sum_congr rfl fun i _ => ?_
  rw [← Real.exp_add]
  congr 1
  ring

/-- One step of the running pair over two disjoint index sets of reals: the sum over A shifted by
    the maximum over A, rescaled to the joint maximum, plus the sum over B shifted by the joint
    maximum, is the sum over A ∪ B shifted by the joint maximum. -/
theorem carry {ι : Type*} [DecidableEq ι] (A B : Finset ι) (hAB : Disjoint A B) (a : ι → ℝ) :
    (∑ i ∈ A, Ideal.exp ((a i : EReal) - A.sup fun i => (a i : EReal)))
        * Ideal.exp ((A.sup fun i => (a i : EReal))
            - max (A.sup fun i => (a i : EReal)) (B.sup fun i => (a i : EReal)))
      + ∑ i ∈ B, Ideal.exp ((a i : EReal)
            - max (A.sup fun i => (a i : EReal)) (B.sup fun i => (a i : EReal)))
      = ∑ i ∈ A ∪ B, Ideal.exp ((a i : EReal) - (A ∪ B).sup fun i => (a i : EReal)) := by
  have hmax : max (A.sup fun i => (a i : EReal)) (B.sup fun i => (a i : EReal))
      = (A ∪ B).sup fun i => (a i : EReal) := (Finset.sup_union).symm
  rw [hmax, Finset.sum_union hAB]
  congr 1
  rcases A.eq_empty_or_nonempty with rfl | hA
  · simp
  · obtain ⟨i0, -, hm⟩ := Finset.exists_mem_eq_sup A hA fun i => (a i : EReal)
    obtain ⟨j0, -, hm'⟩ := Finset.exists_mem_eq_sup (A ∪ B)
      (hA.mono Finset.subset_union_left) fun i => (a i : EReal)
    rw [hm', hm]
    exact sum_exp_rescale A a (a i0) (a j0)

/-! ### The recurrence -/

section Recurrence
variable {T R : ℕ}

/-- One tile: the values v of the tile move the pair (m, s) to
    (max m (sup v), s · exp (m − m') + ∑ r, exp (v r − m')) with m' the new maximum. -/
def step (v : Fin R → EReal) (ms : EReal × EReal) : EReal × EReal :=
  (max ms.1 (Finset.univ.sup v),
   ms.2 * Ideal.exp (ms.1 - max ms.1 (Finset.univ.sup v))
     + ∑ r : Fin R, Ideal.exp (v r - max ms.1 (Finset.univ.sup v)))

/-- The pair after the first k tiles, from (⊥, 0); past the last tile it stays. -/
def run (ℓ : Fin T → Fin R → EReal) : ℕ → EReal × EReal
  | 0 => (⊥, 0)
  | k + 1 => if h : k < T then step (ℓ ⟨k, h⟩) (run ℓ k) else run ℓ k

theorem run_zero (ℓ : Fin T → Fin R → EReal) : run ℓ 0 = (⊥, 0) := rfl

theorem run_succ (ℓ : Fin T → Fin R → EReal) (k : ℕ) (h : k < T) :
    run ℓ (k + 1) = step (ℓ ⟨k, h⟩) (run ℓ k) := by
  rw [run, dif_pos h]

/-- The places of the first k tiles. -/
def firstTiles (T R k : ℕ) : Finset (Fin T × Fin R) := Finset.univ.filter fun p => p.1.val < k

theorem firstTiles_zero : firstTiles T R 0 = ∅ := by
  simp [firstTiles]

theorem firstTiles_all : firstTiles T R T = Finset.univ :=
  Finset.filter_true_of_mem fun p _ => p.1.isLt

theorem firstTiles_succ (k : ℕ) (h : k < T) :
    firstTiles T R (k + 1) = firstTiles T R k ∪ ({(⟨k, h⟩ : Fin T)} ×ˢ (Finset.univ : Finset (Fin R))) := by
  ext ⟨t, r⟩
  simp only [firstTiles, Finset.mem_filter, Finset.mem_univ, true_and, Finset.mem_union,
    Finset.mem_product, Finset.mem_singleton, and_true, Fin.ext_iff]
  omega

theorem firstTiles_disjoint (k : ℕ) (h : k < T) :
    Disjoint (firstTiles T R k) ({(⟨k, h⟩ : Fin T)} ×ˢ (Finset.univ : Finset (Fin R))) := by
  rw [Finset.disjoint_left]
  rintro ⟨t, r⟩ h1 h2
  simp only [firstTiles, Finset.mem_filter, Finset.mem_univ, true_and] at h1
  simp only [Finset.mem_product, Finset.mem_singleton, Finset.mem_univ, and_true, Fin.ext_iff] at h2
  omega

/-- The invariant for real values: after k tiles the pair is the maximum of the first k tiles and
    the sum over them of exp (value − that maximum). -/
theorem run_coe (y : Fin T → Fin R → ℝ) (k : ℕ) (hk : k ≤ T) :
    run (fun t r => (y t r : EReal)) k
      = ((firstTiles T R k).sup (fun p => (y p.1 p.2 : EReal)),
         ∑ p ∈ firstTiles T R k,
           Ideal.exp ((y p.1 p.2 : EReal) - (firstTiles T R k).sup fun p => (y p.1 p.2 : EReal))) := by
  induction k with
  | zero => simp [run_zero, firstTiles_zero]
  | succ k ih =>
    have h : k < T := hk
    rw [run_succ _ k h, ih (Nat.le_of_lt h), firstTiles_succ k h]
    have hsup : (({(⟨k, h⟩ : Fin T)} ×ˢ (Finset.univ : Finset (Fin R))).sup
          fun p => (y p.1 p.2 : EReal)) = Finset.univ.sup fun r => (y ⟨k, h⟩ r : EReal) := by
      rw [Finset.sup_product_left, Finset.sup_singleton]
    have hsum : ∀ c : EReal, (∑ p ∈ ({(⟨k, h⟩ : Fin T)} ×ˢ (Finset.univ : Finset (Fin R))),
          Ideal.exp ((y p.1 p.2 : EReal) - c)) = ∑ r : Fin R, Ideal.exp ((y ⟨k, h⟩ r : EReal) - c) := by
      intro c
      rw [Finset.sum_product, Finset.sum_singleton]
    have key := carry (firstTiles T R k) ({(⟨k, h⟩ : Fin T)} ×ˢ (Finset.univ : Finset (Fin R)))
      (firstTiles_disjoint k h) (fun p => y p.1 p.2)
    rw [hsup, hsum] at key
    refine Prod.ext ?_ ?_
    · show max _ _ = _
      rw [Finset.sup_union, hsup]
    · exact key

/-- After all T tiles, for real values: the maximum over all places. -/
theorem run_all_fst (ℓ : Fin T → Fin R → EReal) (hℓ : ∀ t r, ∃ y : ℝ, ℓ t r = (y : EReal)) :
    (run ℓ T).1 = Finset.univ.sup fun p : Fin T × Fin R => ℓ p.1 p.2 := by
  obtain ⟨y, rfl⟩ : ∃ y : Fin T → Fin R → ℝ, ℓ = fun t r => (y t r : EReal) :=
    ⟨fun t r => (hℓ t r).choose, funext fun t => funext fun r => (hℓ t r).choose_spec⟩
  rw [run_coe y T le_rfl, firstTiles_all]

/-- After all T tiles, for real values: the sum over all places of exp (value − maximum). -/
theorem run_all_snd (ℓ : Fin T → Fin R → EReal) (hℓ : ∀ t r, ∃ y : ℝ, ℓ t r = (y : EReal)) :
    (run ℓ T).2 = ∑ p : Fin T × Fin R,
      Ideal.exp (ℓ p.1 p.2 - Finset.univ.sup fun p : Fin T × Fin R => ℓ p.1 p.2) := by
  obtain ⟨y, rfl⟩ : ∃ y : Fin T → Fin R → ℝ, ℓ = fun t r => (y t r : EReal) :=
    ⟨fun t r => (hℓ t r).choose, funext fun t => funext fun r => (hℓ t r).choose_spec⟩
  rw [run_coe y T le_rfl, firstTiles_all]

end Recurrence

/-! ### A column of 8192 places as 32 tiles of 256 -/

/-- Place n = t · 256 + r of the column is place r of tile t. -/
def tileEquiv : Fin 32 × Fin 256 ≃ Fin 8192 where
  toFun p := ⟨p.1.val * 256 + p.2.val, by omega⟩
  invFun n := (⟨n.val / 256, by omega⟩, ⟨n.val % 256, by omega⟩)
  left_inv p := by
    apply Prod.ext <;> apply Fin.ext <;> simp only <;> omega
  right_inv n := by
    apply Fin.ext; simp only; omega

/-- The column cut into tiles. -/
def tiles (c : Fin 8192 → EReal) : Fin 32 → Fin 256 → EReal :=
  fun t r => c ⟨t.val * 256 + r.val, by omega⟩

theorem tiles_apply (c : Fin 8192 → EReal) (p : Fin 32 × Fin 256) :
    tiles c p.1 p.2 = c (tileEquiv p) := rfl

/-- A maximum over all places does not depend on how the places are indexed. -/
theorem sup_comp_equiv {α β : Type*} [Fintype α] [Fintype β] (e : α ≃ β) (g : β → EReal) :
    (Finset.univ.sup fun a => g (e a)) = Finset.univ.sup g := by
  refine le_antisymm (Finset.sup_le fun a _ => Finset.le_sup (f := g) (Finset.mem_univ (e a))) ?_
  refine Finset.sup_le fun b _ => ?_
  have := Finset.le_sup (f := fun a => g (e a)) (Finset.mem_univ (e.symm b))
  simpa using this

/-- The running maximum after the 32 tiles of a column of reals is the column's maximum. -/
theorem run_tiles_fst (c : Fin 8192 → EReal) (hc : ∀ n, ∃ y : ℝ, c n = (y : EReal)) :
    (run (tiles c) 32).1 = Finset.univ.sup c := by
  rw [run_all_fst (tiles c) fun t r => hc _]
  exact sup_comp_equiv tileEquiv c

/-- The running sum after the 32 tiles of a column of reals is the column's sum of
    exp (value − the column's maximum). -/
theorem run_tiles_snd (c : Fin 8192 → EReal) (hc : ∀ n, ∃ y : ℝ, c n = (y : EReal)) :
    (run (tiles c) 32).2 = ∑ n : Fin 8192, Ideal.exp (c n - Finset.univ.sup c) := by
  rw [run_all_snd (tiles c) fun t r => hc _]
  have hs : (Finset.univ.sup fun p : Fin 32 × Fin 256 => tiles c p.1 p.2) = Finset.univ.sup c :=
    sup_comp_equiv tileEquiv c
  rw [hs]
  exact Equiv.sum_comp tileEquiv fun n => Ideal.exp (c n - Finset.univ.sup c)

/-! ### The column statistics of a column of reals are reals -/

/-- The maximum of finitely many reals, at least one, is a real. -/
theorem exists_real_sup {α : Type*} [Fintype α] [Nonempty α] (c : α → EReal)
    (hc : ∀ n, ∃ y : ℝ, c n = (y : EReal)) : ∃ μ : ℝ, Finset.univ.sup c = (μ : EReal) := by
  obtain ⟨n, -, hn⟩ := Finset.exists_mem_eq_sup Finset.univ Finset.univ_nonempty c
  obtain ⟨y, hy⟩ := hc n
  exact ⟨y, hn.trans hy⟩

/-- The sum of exp (value − maximum) over finitely many reals, at least one, is a positive real. -/
theorem exists_pos_real_sum_exp {α : Type*} [Fintype α] [Nonempty α] (c : α → EReal)
    (hc : ∀ n, ∃ y : ℝ, c n = (y : EReal)) :
    ∃ σ : ℝ, 0 < σ ∧ ∑ n, Ideal.exp (c n - Finset.univ.sup c) = (σ : EReal) := by
  obtain ⟨μ, hμ⟩ := exists_real_sup c hc
  obtain ⟨y, rfl⟩ : ∃ y : α → ℝ, c = fun n => (y n : EReal) :=
    ⟨fun n => (hc n).choose, funext fun n => (hc n).choose_spec⟩
  refine ⟨∑ n, Real.exp (y n - μ), Finset.sum_pos (fun n _ => Real.exp_pos _) Finset.univ_nonempty, ?_⟩
  rw [hμ, coe_sum]
  refine Finset.sum_congr rfl fun n _ => ?_
  rw [← EReal.coe_sub, Ideal.exp_coe]

end Cert.OnlineSoftmax

end
-- ==== Proof.LibFinite.lean ====
/-
  "Every entry is a real number" is kept by the operations of a dense network, on the extended reals.

  An array over the extended reals is ALL REAL when none of its entries is an infinity.  The property passes
  through: every operation that only re-reads its operand at some index (a broadcast, a reshape, a slice, a
  row gather), the pointwise sum, difference, product and maximum, a matrix product (host or vector unit, zero
  accumulator: a finite sum of products), a host sum along axes, the accumulating scatter (each entry plus a
  finite sum of updates), and a quotient by an all-real array with no zero entry.  Nothing here depends on the
  shapes or on which index an operation reads.
-/
import Idealize.ShloMosaic.PureOps.Ideal.Laws

noncomputable section

namespace Cert.LibFinite

open Idealize.ShloMosaic

/-- Every entry of the array is a real number. -/
def AllReal {ι : Type*} (x : ι → EReal) : Prop := ∀ i, ∃ r : ℝ, x i = (r : EReal)

/-! ## Scalars -/

theorem real_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

theorem real_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

theorem real_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

theorem coe_max (r s : ℝ) : max (r : EReal) (s : EReal) = ((max r s : ℝ) : EReal) := by
  rcases le_total r s with h | h
  · rw [max_eq_right h, max_eq_right (EReal.coe_le_coe_iff.2 h)]
  · rw [max_eq_left h, max_eq_left (EReal.coe_le_coe_iff.2 h)]

theorem real_max {a b : EReal} (ha : ∃ r : ℝ, a = (r : EReal)) (hb : ∃ r : ℝ, b = (r : EReal)) :
    ∃ r : ℝ, max a b = (r : EReal) := by
  obtain ⟨r, rfl⟩ := ha; obtain ⟨s, rfl⟩ := hb; exact ⟨max r s, coe_max r s⟩

/-- The maximum of a real and a positive real is a nonzero real. -/
theorem real_max_pos {a : EReal} (ha : ∃ r : ℝ, a = (r : EReal)) {s : ℝ} (hs : 0 < s) :
    ∃ r : ℝ, max a (s : EReal) = (r : EReal) ∧ r ≠ 0 := by
  obtain ⟨r, rfl⟩ := ha
  exact ⟨max r s, coe_max r s, ne_of_gt (lt_of_lt_of_le hs (le_max_right r s))⟩

theorem real_sum {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

theorem real_div {a b : EReal} (ha : ∃ r : ℝ, a = (r : EReal)) (hb : ∃ r : ℝ, b = (r : EReal) ∧ r ≠ 0) :
    ∃ r : ℝ, Ideal.div a b = (r : EReal) := by
  obtain ⟨r, rfl⟩ := ha; obtain ⟨s, rfl, hs⟩ := hb
  exact ⟨r * (1 / s), by rw [Ideal.div_coe hs, ← EReal.coe_mul]⟩

/-! ## Arrays -/

variable {ι κ : Type*}

/-- Reading an all-real array at any indices gives an all-real array: broadcasts, reshapes, slices and gathers. -/
theorem AllReal.read {x : ι → EReal} (hx : AllReal x) (f : κ → ι) : AllReal fun j => x (f j) := fun j => hx (f j)

theorem AllReal.const {c : EReal} (hc : ∃ r : ℝ, c = (r : EReal)) : AllReal fun _ : ι => c := fun _ => hc

theorem AllReal.broadcastInDim {s t : Shape} {dims : Fin s.rank → Fin t.rank} (h : s.BroadcastsInDim t dims)
    {x : s.Idx → EReal} (hx : AllReal x) : AllReal (broadcastInDim t dims h x) := fun _ => hx _

theorem AllReal.gather {s si t : Shape} {w : Nat} (d : GatherDims s si t) {x : s.Idx → EReal} (hx : AllReal x)
    (idx : IVec si w) : AllReal (Host.gather d x idx) := fun _ => hx _

theorem AllReal.addf {s : Shape} {φ : FTy} {x y : FVec Ideal s φ} (hx : AllReal x) (hy : AllReal y) :
    AllReal (addf x y) := fun i => real_add (hx i) (hy i)

theorem AllReal.subf {s : Shape} {φ : FTy} {x y : FVec Ideal s φ} (hx : AllReal x) (hy : AllReal y) :
    AllReal (subf x y) := fun i => real_sub (hx i) (hy i)

theorem AllReal.mulf {s : Shape} {φ : FTy} {x y : FVec Ideal s φ} (hx : AllReal x) (hy : AllReal y) :
    AllReal (mulf x y) := fun i => real_mul (hx i) (hy i)

theorem AllReal.maximumf {s : Shape} {φ : FTy} {x y : FVec Ideal s φ} (hx : AllReal x) (hy : AllReal y) :
    AllReal (maximumf x y) := fun i => real_max (hx i) (hy i)

/-- A quotient by an all-real array without zero entries. -/
theorem AllReal.hostDivf {s : Shape} {φ : FTy} {x y : FVec Ideal s φ} (hx : AllReal x)
    (hy : ∀ i, ∃ r : ℝ, y i = (r : EReal) ∧ r ≠ 0) : AllReal (Host.divf x y) := fun i => real_div (hx i) (hy i)

/-- A host matrix product of all-real arrays, whatever its dimension numbers. -/
theorem AllReal.dotGeneral {sl sr so : Shape} {φ₁ φ₂ : FTy} (d : DotDims sl sr so) (prec : Option ContractPrecision)
    (sched : HostSchedule) {l : FVec Ideal sl φ₁} {r : FVec Ideal sr φ₂} (hl : AllReal l) (hr : AllReal r) :
    AllReal (FloatOps.dotGeneral d prec sched l r) := fun j => by
  rw [Ideal.dotGeneral_apply]
  exact real_sum _ _ fun k _ => real_mul (hl _) (hr _)

/-- The vector unit's matrix product into the zero accumulator. -/
theorem AllReal.matmul_zero {sl sr so : Shape} {φ₁ φ₂ : FTy} (d : DotDims sl sr so) (prec : Option ContractPrecision)
    {l : FVec Ideal sl φ₁} {r : FVec Ideal sr φ₂} (hl : AllReal l) (hr : AllReal r) :
    AllReal (FloatOps.matmul d prec l r (constant so .f32 0x00000000#32)) := fun j => by
  rw [Ideal.matmul_constant_zero_apply]
  exact real_sum _ _ fun k _ => real_mul (hl _) (hr _)

/-- The accumulating scatter: each entry plus a finite sum of updates. -/
theorem AllReal.scatterAdd {s si su : Shape} {φ : FTy} {w : Nat} (d : ScatterDims s si su) {x : FVec Ideal s φ}
    (hx : AllReal x) (idx : IVec si w) {upd : FVec Ideal su φ} (hu : AllReal upd) :
    AllReal (Host.scatterAdd (F := Ideal) d x idx upd) := fun i =>
  real_add (hx i) (real_sum _ _ fun j _ => hu j)

end Cert.LibFinite

end
-- ==== Proof.RefValue.lean ====
/-
  The reference attention head, read at an index, is the whole-row softmax form G.

  The reference computes q = x·Wq and k = x·Wk, the logits q·kᵀ / √64, the row maximum, the weights
  exp(logit − maximum), their row sum L, the normalised weights weight / L, and the product of those with the rows of x.
  Stage by stage each array, read at coordinates, is the matching quantity of the specification: √64 = 8 and a quotient
  by the real 8 is the product with 1/8; a fold of max from −∞ over a row is the row's supremum, and max(−∞, ·) changes
  nothing; 0 + Σ is Σ.  The last stage is Σ_t (weight_t / L)·x(b, t, d), while G is (Σ_t weight_t·x(b, t, d)) / L.  On real
  inputs every logit is real, so every weight is a real and L is a positive real, and there the two agree: for a
  nonzero real L, dividing each term of a finite sum of reals by L is dividing the sum by L.
-/
import proofs.«180799_j16922171146838_2_alg».proof.Defs
import proofs.«180799_j16922171146838_2_alg».proof.Proof.Spec
import proofs.«180799_j16922171146838_2_alg».proof.Proof.Gen.ReferenceIdeal.Run
import proofs.«180799_j16922171146838_2_alg».proof.Proof.Gen.ReferenceIdeal.Read
import proofs.«180799_j16922171146838_2_alg».proof.Proof.Gen.Pre_finite_inputs
import proofs.«180799_j16922171146838_2_alg».proof.Proof.LibDepthAxis
import proofs.«180799_j16922171146838_2_alg».proof.Proof.LibOnlineSoftmax
import proofs.«180799_j16922171146838_2_alg».proof.Proof.LibFinite

noncomputable section

namespace Cert.Attn.Ref

open Idealize.ShloMosaic Idealize.ShloMosaic.ValueIdx Idealize.SL.Sem
open Cert.ReferenceIdeal Cert.ReferenceIdeal.Gen Cert.ReferenceIdeal.Read

/-! ## The constants -/

/-- The f32 word of −∞ denotes the bottom of the extended reals. -/
theorem ofBits_negInf : Ideal.ofBits .f32 0xFF800000#32 = (⊥ : EReal) := by
  simp [Ideal.ofBits, Ideal.ieee]

/-- The f32 word of 64.0 denotes the real 64. -/
theorem ofBits_64 : Ideal.ofBits .f32 0x42800000#32 = ((64 : ℝ) : EReal) := by
  simp [Ideal.ofBits, Ideal.ieee, -EReal.coe_mul]; norm_num

/-- √64 = 8. -/
theorem sqrt_64 : Ideal.sqrt ((64 : ℝ) : EReal) = ((8 : ℝ) : EReal) := by
  rw [Ideal.sqrt_coe, if_neg (by norm_num)]
  congr 1
  rw [show (64 : ℝ) = 8 * 8 by norm_num]
  exact Real.sqrt_mul_self (by norm_num)

/-! ## Folds and finite sums -/

/-- The fold of max from −∞ over a finite family is its supremum. -/
theorem fold_max_bot {ι : Type*} (s : Finset ι) (f : ι → EReal) : s.fold max ⊥ f = s.sup f := by
  classical
  induction s using Finset.induction_on with
  | empty => simp
  | insert a s ha ih => rw [Finset.fold_insert ha, Finset.sup_insert, ih]

/-- For a nonzero real L and reals w_t, v_t: Σ_t (w_t / L)·v_t = (Σ_t w_t·v_t) / L. -/
theorem sum_div_mul {ι : Type*} [Fintype ι] (w v : ι → EReal) (L : EReal)
    (hw : ∀ t, ∃ r : ℝ, w t = (r : EReal)) (hv : ∀ t, ∃ r : ℝ, v t = (r : EReal))
    (hL : ∃ r : ℝ, r ≠ 0 ∧ L = (r : EReal)) :
    ∑ t, Ideal.div (w t) L * v t = Ideal.div (∑ t, w t * v t) L := by
  obtain ⟨w', rfl⟩ : ∃ w' : ι → ℝ, w = fun t => (w' t : EReal) :=
    ⟨fun t => (hw t).choose, funext fun t => (hw t).choose_spec⟩
  obtain ⟨v', rfl⟩ : ∃ v' : ι → ℝ, v = fun t => (v' t : EReal) :=
    ⟨fun t => (hv t).choose, funext fun t => (hv t).choose_spec⟩
  obtain ⟨L', hL', rfl⟩ := hL
  simp only [Ideal.div_coe hL', ← EReal.coe_mul, ← Cert.OnlineSoftmax.coe_sum]
  congr 1
  rw [Finset.sum_mul]
  exact Finset.sum_congr rfl fun t _ => by ring

/-! ## The reference, stage by stage, at coordinates -/

section Stages
variable (x : SX.Idx → EReal) (wq wk : SW.Idx → EReal)

/-- The query projection. -/
theorem v0_at (b : Fin 4) (s : Fin 2048) (e : Fin 1024) :
    val_main_v0 (F := Ideal) x wq (ix3 b s e) = qv x wq b s e := by
  rw [val_main_v0_apply]
  unfold qv
  refine Finset.sum_congr rfl fun k _ => ?_
  have el : lidx_main_v0 (ix3 b s e) k = ix3 b s k :=
    funext fun a => by match a with | ⟨0, _⟩ => rfl | ⟨1, _⟩ => rfl | ⟨2, _⟩ => rfl
  have er : ridx_main_v0 (ix3 b s e) k = ix2 k e :=
    funext fun a => by match a with | ⟨0, _⟩ => rfl | ⟨1, _⟩ => rfl
  rw [el, er]

/-- The key projection. -/
theorem v1_at (b : Fin 4) (t : Fin 2048) (e : Fin 1024) :
    val_main_v1 (F := Ideal) x wk (ix3 b t e) = kv x wk b t e := by
  rw [val_main_v1_apply]
  unfold kv
  refine Finset.sum_congr rfl fun k _ => ?_
  have el : lidx_main_v1 (ix3 b t e) k = ix3 b t k :=
    funext fun a => by match a with | ⟨0, _⟩ => rfl | ⟨1, _⟩ => rfl | ⟨2, _⟩ => rfl
  have er : ridx_main_v1 (ix3 b t e) k = ix2 k e :=
    funext fun a => by match a with | ⟨0, _⟩ => rfl | ⟨1, _⟩ => rfl
  rw [el, er]

/-- The unscaled logits. -/
theorem v2_at (b : Fin 4) (s t : Fin 2048) :
    val_main_v2 (F := Ideal) x wq wk (ix3 b s t) = dotqk x wq wk b s t := by
  rw [val_main_v2_apply]
  unfold dotqk
  refine Finset.sum_congr rfl fun k _ => ?_
  have el : lidx_main_v2 (ix3 b s t) k = ix3 b s k :=
    funext fun a => by match a with | ⟨0, _⟩ => rfl | ⟨1, _⟩ => rfl | ⟨2, _⟩ => rfl
  have er : ridx_main_v2 (ix3 b s t) k = ix3 b t k :=
    funext fun a => by match a with | ⟨0, _⟩ => rfl | ⟨1, _⟩ => rfl | ⟨2, _⟩ => rfl
  rw [el, er, v0_at, v1_at]

/-- The divisor √64, copied everywhere, is the real 8. -/
theorem v4_at (i : S4x2048x2048.Idx) : val_main_v4 (F := Ideal) i = ((8 : ℝ) : EReal) := by
  rw [val_main_v4_apply, val_main_v3_apply, val_main_cst_apply, Ideal.hostUnary_sqrt_def, Ideal.ofBits_def,
    ofBits_64, sqrt_64]

/-- The scaled logits: the quotient by 8 is the product with 1/8. -/
theorem v5_at (b : Fin 4) (s t : Fin 2048) :
    val_main_v5 (F := Ideal) x wq wk (ix3 b s t) = logit x wq wk b s t := by
  rw [val_main_v5_apply, Ideal.hostDivf_def, v2_at, v4_at, Ideal.div_coe (by norm_num : (8 : ℝ) ≠ 0)]
  rfl

/-- The fold of max from −∞ along a row is the row's supremum. -/
theorem v6_at (b : Fin 4) (s : Fin 2048) :
    val_main_v6 (F := Ideal) x wq wk (ix2 b s) = rowMax x wq wk b s := by
  unfold val_main_v6
  refine (Cert.LibDepthAxis.hostReduce_max_last (φ := .f32) (val_main_v5 (F := Ideal) x wq wk)
    (val_main_cst_0 (F := Ideal)) reducesTo_S4x2048x2048_S4x2048_d2 (by decide) h_S_ b s).trans ?_
  rw [val_main_cst_0_apply, Ideal.ofBits_def, ofBits_negInf, fold_max_bot]
  unfold rowMax
  exact congrArg (Finset.sup Finset.univ) (funext fun t => v5_at x wq wk b s t)

/-- The maximum with −∞ changes nothing. -/
theorem v8_at (b : Fin 4) (s : Fin 2048) :
    val_main_v8 (F := Ideal) x wq wk (ix2 b s) = rowMax x wq wk b s := by
  rw [val_main_v8_apply, val_main_v7_apply, val_main_cst_1_apply, Ideal.maximumf_def, Ideal.ofBits_def,
    ofBits_negInf, v6_at, max_bot_left]

/-- The row maximum copied along the row. -/
theorem v10_at (b : Fin 4) (s t : Fin 2048) :
    val_main_v10 (F := Ideal) x wq wk (ix3 b s t) = rowMax x wq wk b s := by
  rw [val_main_v10_apply, val_main_v9_apply]
  have e : idx_main_v9 (idx_main_v10 (ix3 b s t)) = ix2 b s :=
    funext fun a => by match a with | ⟨0, _⟩ => rfl | ⟨1, _⟩ => rfl
  rw [e, v8_at]

/-- The weights exp(logit − maximum). -/
theorem v12_at (b : Fin 4) (s t : Fin 2048) :
    val_main_v12 (F := Ideal) x wq wk (ix3 b s t) = weight x wq wk b s t := by
  rw [val_main_v12_apply, Ideal.hostUnary_exp_def, val_main_v11_apply, Ideal.subf_def, v5_at, v10_at]
  rfl

/-- The row sum of the weights: 0 + Σ. -/
theorem v13_at (b : Fin 4) (s : Fin 2048) :
    val_main_v13 (F := Ideal) x wq wk (ix2 b s) = rowSum x wq wk b s := by
  rw [val_main_v13_apply, val_main_cst_2_apply, Ideal.ofBits_def, Ideal.ofBits_zero_f32, zero_add]
  unfold rowSum
  refine Finset.sum_congr rfl fun k _ => ?_
  have e : idx_main_v13 (ix2 b s) k = ix3 b s k :=
    funext fun a => by match a with | ⟨0, _⟩ => rfl | ⟨1, _⟩ => rfl | ⟨2, _⟩ => rfl
  rw [e, v12_at]

/-- The row sum copied along the row. -/
theorem v15_at (b : Fin 4) (s t : Fin 2048) :
    val_main_v15 (F := Ideal) x wq wk (ix3 b s t) = rowSum x wq wk b s := by
  rw [val_main_v15_apply, val_main_v14_apply]
  have e : idx_main_v14 (idx_main_v15 (ix3 b s t)) = ix2 b s :=
    funext fun a => by match a with | ⟨0, _⟩ => rfl | ⟨1, _⟩ => rfl
  rw [e, v13_at]

/-- The normalised weights. -/
theorem v16_at (b : Fin 4) (s t : Fin 2048) :
    val_main_v16 (F := Ideal) x wq wk (ix3 b s t)
      = Ideal.div (weight x wq wk b s t) (rowSum x wq wk b s) := by
  rw [val_main_v16_apply, Ideal.hostDivf_def, v12_at, v15_at]

/-- The result: the normalised weights against the rows of x. -/
theorem v17_at (b : Fin 4) (s : Fin 2048) (d : Fin 1024) :
    val_main_v17 (F := Ideal) x wq wk (ix3 b s d)
      = ∑ t : Fin 2048, Ideal.div (weight x wq wk b s t) (rowSum x wq wk b s) * x (ix3 b t d) := by
  rw [val_main_v17_apply]
  refine Finset.sum_congr rfl fun k _ => ?_
  have el : lidx_main_v17 (ix3 b s d) k = ix3 b s k :=
    funext fun a => by match a with | ⟨0, _⟩ => rfl | ⟨1, _⟩ => rfl | ⟨2, _⟩ => rfl
  have er : ridx_main_v17 (ix3 b s d) k = ix3 b k d :=
    funext fun a => by match a with | ⟨0, _⟩ => rfl | ⟨1, _⟩ => rfl | ⟨2, _⟩ => rfl
  rw [el, er, v16_at]

end Stages

/-! ## On real inputs -/

section Real
variable (x : SX.Idx → EReal) (wq wk : SW.Idx → EReal)
variable (hx : ∀ i, ∃ r : ℝ, x i = (r : EReal)) (hq : ∀ i, ∃ r : ℝ, wq i = (r : EReal))
  (hk : ∀ i, ∃ r : ℝ, wk i = (r : EReal))
include hx hq hk

/-- Every scaled logit of real inputs is a real: finite sums of products of reals, times 1/8. -/
theorem logit_real (b : Fin 4) (s t : Fin 2048) : ∃ r : ℝ, logit x wq wk b s t = (r : EReal) := by
  unfold logit dotqk qv kv
  refine Cert.LibFinite.real_mul (Cert.LibFinite.real_sum _ _ fun e _ => Cert.LibFinite.real_mul ?_ ?_) ⟨1 / 8, rfl⟩
  · exact Cert.LibFinite.real_sum _ _ fun d _ => Cert.LibFinite.real_mul (hx _) (hq _)
  · exact Cert.LibFinite.real_sum _ _ fun d _ => Cert.LibFinite.real_mul (hx _) (hk _)

/-- Every weight is a real: the exponential of a difference of reals. -/
theorem weight_real (b : Fin 4) (s t : Fin 2048) : ∃ r : ℝ, weight x wq wk b s t = (r : EReal) := by
  haveI : Nonempty (Fin 2048) := ⟨⟨0, by norm_num⟩⟩
  obtain ⟨μ, hμ⟩ := Cert.OnlineSoftmax.exists_real_sup (fun t => logit x wq wk b s t)
    (fun t => logit_real x wq wk hx hq hk b s t)
  obtain ⟨y, hy⟩ := logit_real x wq wk hx hq hk b s t
  refine ⟨Real.exp (y - μ), ?_⟩
  unfold weight rowMax
  rw [hμ, hy, ← EReal.coe_sub, Ideal.exp_coe]

/-- The row sum of the weights is a nonzero real. -/
theorem rowSum_real (b : Fin 4) (s : Fin 2048) : ∃ r : ℝ, r ≠ 0 ∧ rowSum x wq wk b s = (r : EReal) := by
  haveI : Nonempty (Fin 2048) := ⟨⟨0, by norm_num⟩⟩
  obtain ⟨σ, hσ, h⟩ := Cert.OnlineSoftmax.exists_pos_real_sum_exp (fun t => logit x wq wk b s t)
    (fun t => logit_real x wq wk hx hq hk b s t)
  exact ⟨σ, ne_of_gt hσ, h⟩

/-- On real inputs the reference's last stage is G. -/
theorem val_eq_G : val_main_v17 (F := Ideal) x wq wk = G x wq wk := by
  funext j
  obtain ⟨b, s, d, rfl⟩ : ∃ (b : Fin 4) (s : Fin 2048) (d : Fin 1024), j = ix3 b s d := ⟨j 0, j 1, j 2, eq_ix3 j⟩
  rw [v17_at]
  show _ = Ideal.div (∑ t : Fin 2048, weight x wq wk b s t * x (ix3 b t d)) (rowSum x wq wk b s)
  exact sum_div_mul (fun t => weight x wq wk b s t) (fun t => x (ix3 b t d)) _
    (fun t => weight_real x wq wk hx hq hk b s t) (fun t => hx _) (rowSum_real x wq wk hx hq hk b s)

end Real

/-! ## The run -/

/-- On real inputs the reference's result array is G of its three arguments. -/
theorem run (m' : (ℓ : Loc Cert.ReferenceIdeal.nD Cert.ReferenceIdeal.τ Cert.ReferenceIdeal.sig) → Buf (Elt Ideal) ℓ) (ρ' : Dev Cert.ReferenceIdeal.nD → PrngReg)
    (hreal : ∀ c : Dev Cert.ReferenceIdeal.nD,
      (∀ i, ∃ r : ℝ, m' ((c.tc : Thread Cert.ReferenceIdeal.nD Cert.ReferenceIdeal.τ).loc Cert.ReferenceIdeal.main_arg0) i = (r : EReal))
      ∧ (∀ i, ∃ r : ℝ, m' ((c.tc : Thread _ _).loc Cert.ReferenceIdeal.main_arg1) i = (r : EReal))
      ∧ (∀ i, ∃ r : ℝ, m' ((c.tc : Thread _ _).loc Cert.ReferenceIdeal.main_arg2) i = (r : EReal))) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v17)
            = Cert.Attn.G (m' ((c.tc : Thread _ _).loc Cert.ReferenceIdeal.main_arg0)) (m' ((c.tc : Thread _ _).loc Cert.ReferenceIdeal.main_arg1)) (m' ((c.tc : Thread _ _).loc Cert.ReferenceIdeal.main_arg2))
        ∧ r.2.mem ((c.tc : Thread _ _).loc Cert.ReferenceIdeal.main_arg0) = m' ((c.tc : Thread _ _).loc Cert.ReferenceIdeal.main_arg0)
        ∧ r.2.mem ((c.tc : Thread _ _).loc Cert.ReferenceIdeal.main_arg1) = m' ((c.tc : Thread _ _).loc Cert.ReferenceIdeal.main_arg1)
        ∧ r.2.mem ((c.tc : Thread _ _).loc Cert.ReferenceIdeal.main_arg2) = m' ((c.tc : Thread _ _).loc Cert.ReferenceIdeal.main_arg2)) :=
  (θ_run (Cert.ReferenceIdeal.defs (F := Ideal)) _ _).mono
    (fun _ h c => ⟨by
        rw [(h c).1, Cert.ReferenceIdeal.Read.val_main_v17_eq]
        exact val_eq_G _ _ _ (hreal c).1 (hreal c).2.1 (hreal c).2.2,
      (h c).2⟩)
    (Cert.ReferenceIdeal.Value.run (F := Ideal) m' ρ')

/-- The reference runs and leaves its arguments unchanged: its run with the result dropped. -/
theorem frame_ri : Cert.frame_ReferenceIdeal :=
  fun m ρ _ => (θ_run Cert.ReferenceIdeal.defs _ _).mono (fun _ h c => (h c).2)
    (Cert.ReferenceIdeal.Value.run (F := Ideal) m ρ)

end Cert.Attn.Ref

end
-- ==== Proof.LibFiniteInput.lean ====
/-
  A float array that passes the "all finite" test is all real.

  The finiteness test of an input, as a precondition states it, is the conjunction over all entries of
  |x| < +∞ (the and-reduction of the comparisons into one bit, from the initial bit 1).  On the extended reals
  |x| = max x (-x) is +∞ at both infinities, so the comparison holds exactly at the real entries: if the reduced
  bit is 1, no entry of the array is an infinity.
-/
import Idealize.ShloMosaic.Lib.ReduceAll
import proofs.«180799_j16922171146838_2_alg».proof.Proof.LibFinite

noncomputable section

namespace Cert.LibFiniteInput

open Idealize.ShloMosaic Cert.LibFinite

/-- The f32 word of +∞ denotes the top of the extended reals. -/
theorem ofBits_inf : Ideal.ofBits .f32 0x7F800000#32 = (⊤ : EReal) := by
  simp [Ideal.ofBits, Ideal.ieee]

/-- An extended real whose absolute value compares below +∞ is real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : Ideal.cmp .olt (max x (-x)) (⊤ : EReal) = 1#1 := by
    have := h
    rwa [Ideal.cmpf_def, Ideal.ofBits_def, ofBits_inf] at this
  induction x using EReal.rec with
  | bot => exact absurd h' (by simp [Ideal.cmp])
  | coe r => exact ⟨r, rfl⟩
  | top => exact absurd h' (by simp [Ideal.cmp])

instance : Subsingleton (⟨0, ![]⟩ : Shape).Idx := ⟨fun a b => funext fun d => d.elim0⟩

/-- If the and-reduction of the tests |x i| < +∞ over the whole array is the bit 1, every entry of x is real. -/
theorem allReal_of_test {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (j : (⟨0, ![]⟩ : Shape).Idx)
    (h : Host.reduce IntOp.andi
        (cmpf .olt (Host.absf x) (broadcastInDim s ![] hb (constant ⟨0, ![]⟩ .f32 0x7F800000#32)))
        (constantI ⟨0, ![]⟩ 1 1#1) hr hu j = 1#1) : AllReal x := fun i =>
  real_of_abs_lt_inf (x i) (Host.reduce_andi_all _ _ hr hu j h i)

end Cert.LibFiniteInput

end
-- ==== Proof.PreReal.lean ====
/-
  From the precondition to "every entry of each argument is a real number".

  The precondition says that the test all(|x| < +∞) of each of the three arguments, and-ed together, is the
  bit 1.  A conjunction of bits is 1 only when each is, and an and-reduction that came out 1 met a 1 at every
  entry; on the extended reals |x| < +∞ holds exactly at the real entries.
-/
import proofs.«180799_j16922171146838_2_alg».proof.Defs
import proofs.«180799_j16922171146838_2_alg».proof.Proof.LibFinite
import proofs.«180799_j16922171146838_2_alg».proof.Proof.LibFiniteInput
import Idealize.ShloMosaic.Lib.ValueIdx

noncomputable section

namespace Cert.Attn

open Idealize.ShloMosaic Idealize.SL.Sem Cert.LibFinite Cert.LibFiniteInput

/-- If the finiteness test of three arrays is the bit 1, each of the three is all real. -/
theorem allReal_of_finite_inputs [hP : Cert.Pre_finite_inputs.Facts]
    (a0 : FVec Ideal Cert.Pre_finite_inputs.S4x2048x1024 .f32)
    (a1 a2 : FVec Ideal Cert.Pre_finite_inputs.S1024x1024 .f32)
    (h : Cert.Pre_finite_inputs.fn (F := Ideal) a0 a1 a2 = fun _ => 1#1) :
    AllReal a0 ∧ AllReal a1 ∧ AllReal a2 := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨allReal_of_test a0 _ _ _ _ h0', allReal_of_test a1 _ _ _ _ h1, allReal_of_test a2 _ _ _ _ h2⟩

/-- Under the kernel's precondition every entry of each argument is a real number. -/
theorem real_of_pre [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread _ _).loc Cert.KernelIdeal.main_arg1) i = (r : EReal))
    ∧ (∀ i, ∃ r : ℝ, m ((c.tc : Thread _ _).loc Cert.KernelIdeal.main_arg2) i = (r : EReal)) :=
  allReal_of_finite_inputs _ _ _ (h c)

/-- Under the reference's precondition every entry of each argument is a real number. -/
theorem real_of_pre_ref [hP : Cert.Pre_finite_inputs.Facts] (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    (∀ i, ∃ r : ℝ, m ((c.tc : Thread Cert.ReferenceIdeal.nD Cert.ReferenceIdeal.τ).loc Cert.ReferenceIdeal.main_arg0) i = (r : EReal))
    ∧ (∀ i, ∃ r : ℝ, m ((c.tc : Thread _ _).loc Cert.ReferenceIdeal.main_arg1) i = (r : EReal))
    ∧ (∀ i, ∃ r : ℝ, m ((c.tc : Thread _ _).loc Cert.ReferenceIdeal.main_arg2) i = (r : EReal)) :=
  allReal_of_finite_inputs _ _ _ (h c)

end Cert.Attn

end
-- ==== Proof.TiledWords.lean ====
/-
  The three float words the tiled computation spells, as the extended reals they denote when every
  float is an extended real: 0x3E000000 is 2⁻³ = 1/8, 0xFF800000 is −∞ (sign bit set, exponent all ones,
  mantissa zero), and 0x00000000 is 0.
-/
import Idealize.ShloMosaic.PureOps.Ideal
import Idealize.ShloMosaic.PureOps.Ideal.Laws

noncomputable section

namespace Cert.Attn

open Idealize.ShloMosaic

/-- The word of 0.125 denotes the real 1/8. -/
theorem word_eighth : Ideal.ofBits .f32 0x3E000000#32 = ((1 / 8 : ℝ) : EReal) := by
  simp [Ideal.ofBits, Ideal.ieee, -EReal.coe_mul]; norm_num

/-- The word of −∞ denotes the bottom of the extended reals. -/
theorem word_neg_inf : Ideal.ofBits .f32 0xFF800000#32 = (⊥ : EReal) := by
  simp [Ideal.ofBits, Ideal.ieee]

/-- The word of +0.0 denotes 0. -/
theorem word_zero : Ideal.ofBits .f32 0x00000000#32 = (0 : EReal) := Ideal.ofBits_zero_f32

end Cert.Attn

end
-- ==== Proof.TiledRow.lean ====
/-
  The online softmax of one row of 2048 reals cut into two tiles of 1024, with a weighted sum carried along.

  For a row c of logits and a row u of values, the running triple (maximum, sum, weighted sum) starts at
  (−∞, 0, 0); a tile i moves (m, l, a) to

      m' = max m (the tile's maximum),
      l' = exp (m − m') · l + ∑ r, exp (c (key i r) − m'),
      a' = exp (m − m') · a + ∑ r, exp (c (key i r) − m') · u (key i r).

  When every c t and u t is real: after the first tile the factor exp (−∞ − μ₀) = 0 multiplies 0, so the triple
  is (μ₀, ∑ exp (c − μ₀), ∑ exp (c − μ₀) · u) over tile 0; after the second, with μ = max μ₀ μ₁ the row's maximum,
  exp (μ₀ − μ) · exp (c − μ₀) = exp (c − μ) turns the carried sums into sums shifted by μ, and the two tiles
  together are the whole row.
-/
import proofs.«180799_j16922171146838_2_alg».proof.Proof.Spec
import proofs.«180799_j16922171146838_2_alg».proof.Proof.LibOnlineSoftmax

noncomputable section

namespace Cert.Attn

open Idealize.ShloMosaic Cert.OnlineSoftmax

/-! ### The two tiles are the whole row -/

/-- Place r of tile i is key i · 1024 + r: a bijection from the 2 × 1024 places onto the 2048 keys. -/
def keyEquiv : Fin 2 × Fin 1024 ≃ Fin 2048 where
  toFun p := key p.1 p.2
  invFun n := (⟨n.val / 1024, by omega⟩, ⟨n.val % 1024, by omega⟩)
  left_inv p := by
    apply Prod.ext <;> apply Fin.ext <;> simp only [key] <;> omega
  right_inv n := by
    apply Fin.ext; simp only [key]; omega

/-- A sum over the row is the sum over tile 0 plus the sum over tile 1. -/
theorem sum_keys {M : Type*} [AddCommMonoid M] (f : Fin 2048 → M) :
    ∑ t, f t = (∑ r : Fin 1024, f (key 0 r)) + ∑ r : Fin 1024, f (key 1 r) := by
  rw [← Equiv.sum_comp keyEquiv f, Fintype.sum_prod_type, Fin.sum_univ_two]
  rfl

/-- The maximum over the row is the larger of the two tiles' maxima. -/
theorem sup_keys (c : Fin 2048 → EReal) :
    Finset.univ.sup c
      = max (Finset.univ.sup fun r : Fin 1024 => c (key 0 r)) (Finset.univ.sup fun r : Fin 1024 => c (key 1 r)) := by
  apply le_antisymm
  · refine Finset.sup_le fun t _ => ?_
    by_cases h : t.val < 1024
    · have e : t = key 0 ⟨t.val, h⟩ := Fin.ext (by simp only [key, Fin.val_zero, zero_mul, zero_add])
      have e' : c t = (fun r : Fin 1024 => c (key 0 r)) ⟨t.val, h⟩ := congrArg c e
      rw [e']
      exact le_max_of_le_left (Finset.le_sup (f := fun r : Fin 1024 => c (key 0 r)) (Finset.mem_univ _))
    · have h2 : t.val - 1024 < 1024 := by have := t.isLt; omega
      have e : t = key 1 ⟨t.val - 1024, h2⟩ :=
        Fin.ext (by simp only [key, Fin.val_one, one_mul]; omega)
      have e' : c t = (fun r : Fin 1024 => c (key 1 r)) ⟨t.val - 1024, h2⟩ := congrArg c e
      rw [e']
      exact le_max_of_le_right (Finset.le_sup (f := fun r : Fin 1024 => c (key 1 r)) (Finset.mem_univ _))
  · exact max_le (Finset.sup_le fun r _ => Finset.le_sup (f := c) (Finset.mem_univ _))
      (Finset.sup_le fun r _ => Finset.le_sup (f := c) (Finset.mem_univ _))

/-- Folding max from −∞ over a finite set is the set's supremum. -/
theorem fold_max_eq_sup {ι : Type*} (s : Finset ι) (f : ι → EReal) : s.fold max ⊥ f = s.sup f := by
  classical
  induction s using Finset.induction_on with
  | empty => simp
  | insert a s ha ih => rw [Finset.fold_insert ha, Finset.sup_insert, ih]

/-! ### The running triple over an abstract row -/

section Row
variable (c u : Fin 2048 → EReal)

/-- The running maximum after tile i, from m. -/
def tMax (i : Fin 2) (m : EReal) : EReal :=
  max m ((Finset.univ : Finset (Fin 1024)).fold max ⊥ fun r => c (key i r))

/-- The running sum after tile i, from (m, l). -/
def tSum (i : Fin 2) (m l : EReal) : EReal :=
  Ideal.exp (m - tMax c i m) * l + ∑ r : Fin 1024, Ideal.exp (c (key i r) - tMax c i m)

/-- The running weighted sum after tile i, from (m, a). -/
def tAcc (i : Fin 2) (m a : EReal) : EReal :=
  Ideal.exp (m - tMax c i m) * a + ∑ r : Fin 1024, Ideal.exp (c (key i r) - tMax c i m) * u (key i r)

theorem tMax_eq (i : Fin 2) (m : EReal) :
    tMax c i m = max m (Finset.univ.sup fun r : Fin 1024 => c (key i r)) := by
  rw [tMax, fold_max_eq_sup]

end Row

section Real
variable (c u : Fin 2048 → EReal) (L V : Fin 2048 → ℝ)
  (hL : ∀ t, c t = (L t : EReal)) (hV : ∀ t, u t = (V t : EReal))

include hL in
/-- A tile's maximum is a real. -/
theorem exists_tile_max (i : Fin 2) :
    ∃ μ : ℝ, (Finset.univ.sup fun r : Fin 1024 => c (key i r)) = (μ : EReal) :=
  exists_real_sup _ fun r => ⟨_, hL _⟩

/-- The algebra of the second tile, in the reals: rescaling the first tile's terms from μ₀ to μ and adding the
    second tile's terms shifted by μ gives the whole row's terms shifted by μ. -/
theorem real_carry (w : Fin 2048 → ℝ) (μ0 μ : ℝ) :
    Real.exp (μ0 - μ) * (∑ r : Fin 1024, Real.exp (L (key 0 r) - μ0) * w (key 0 r))
        + ∑ r : Fin 1024, Real.exp (L (key 1 r) - μ) * w (key 1 r)
      = ∑ t, Real.exp (L t - μ) * w t := by
  rw [sum_keys fun t => Real.exp (L t - μ) * w t, Finset.mul_sum]
  congr 1
  refine Finset.sum_congr rfl fun r _ => ?_
  rw [← mul_assoc, ← Real.exp_add]
  congr 2
  ring

include hL hV in
/-- The weighted sum after both tiles, from (−∞, 0): the whole row's ∑ exp (c − max) · u. -/
theorem acc_two_tiles :
    tAcc c u 1 (tMax c 0 ⊥) (tAcc c u 0 ⊥ 0) = ∑ t, Ideal.exp (c t - Finset.univ.sup c) * u t := by
  obtain ⟨μ0, h0⟩ := exists_tile_max c L hL 0
  obtain ⟨μ1, h1⟩ := exists_tile_max c L hL 1
  have hmax : max (μ0 : EReal) (μ1 : EReal) = ((max μ0 μ1 : ℝ) : EReal) :=
    (EReal.coe_strictMono.monotone.map_max).symm
  have hm0 : tMax c 0 ⊥ = (μ0 : EReal) := by rw [tMax_eq, h0, max_eq_right bot_le]
  have hm1 : tMax c 1 (μ0 : EReal) = ((max μ0 μ1 : ℝ) : EReal) := by rw [tMax_eq, h1, hmax]
  have hsup : Finset.univ.sup c = ((max μ0 μ1 : ℝ) : EReal) := by rw [sup_keys, h0, h1, hmax]
  have ha0 : tAcc c u 0 ⊥ 0
      = ((∑ r : Fin 1024, Real.exp (L (key 0 r) - μ0) * V (key 0 r) : ℝ) : EReal) := by
    rw [tAcc, hm0, mul_zero, zero_add]
    simp only [hL, hV, ← EReal.coe_sub, Ideal.exp_coe, ← EReal.coe_mul, ← coe_sum]
  rw [hm0, ha0, tAcc, hm1, hsup]
  simp only [hL, hV, ← EReal.coe_sub, Ideal.exp_coe, ← EReal.coe_mul, ← coe_sum, ← EReal.coe_add]
  rw [real_carry L V μ0 (max μ0 μ1)]

/-- The running sum is the running weighted sum with every value 1. -/
theorem tSum_eq_tAcc (i : Fin 2) (m l : EReal) : tSum c i m l = tAcc c (fun _ => 1) i m l := by
  simp only [tSum, tAcc, mul_one]

include hL in
/-- The sum after both tiles, from (−∞, 0): the whole row's ∑ exp (c − max). -/
theorem sum_two_tiles :
    tSum c 1 (tMax c 0 ⊥) (tSum c 0 ⊥ 0) = ∑ t, Ideal.exp (c t - Finset.univ.sup c) := by
  simp only [tSum_eq_tAcc]
  rw [acc_two_tiles c (fun _ => 1) L (fun _ => 1) hL fun _ => EReal.coe_one.symm]
  simp only [mul_one]

end Real

end Cert.Attn

end
-- ==== Proof.TiledLaw.lean ====
/-
  The two-tile running computation of the attention head equals the whole-row softmax, on real inputs.

  With every input real the projections, their dot products and the scaled logits are reals (finite sums of
  products of reals). The float word of 0.125 is the real 1/8, so the tiled computation's logit is the row's
  logit; the words of −∞ and 0 are ⊥ and 0, so its running triple is the abstract one over the row
  c t = logit t, u t = x (b, t, d). The abstract law then gives the last sum and the last weighted sum as the
  whole row's ∑ exp (c − max c) and ∑ exp (c − max c) · u, which are the denominator and the numerator of the
  whole-row result.
-/
import proofs.«180799_j16922171146838_2_alg».proof.Proof.Spec
import proofs.«180799_j16922171146838_2_alg».proof.Proof.LibOnlineSoftmax
import proofs.«180799_j16922171146838_2_alg».proof.Proof.TiledWords
import proofs.«180799_j16922171146838_2_alg».proof.Proof.TiledRow

noncomputable section

namespace Cert.Attn

open Idealize.ShloMosaic Idealize.ShloMosaic.ValueIdx Cert.OnlineSoftmax

/-- A finite sum of products of reals is a real. -/
theorem exists_real_dot {ι : Type*} [Fintype ι] (a b : ι → EReal)
    (ha : ∀ i, ∃ y : ℝ, a i = (y : EReal)) (hb : ∀ i, ∃ y : ℝ, b i = (y : EReal)) :
    ∃ y : ℝ, ∑ i, a i * b i = (y : EReal) := by
  obtain ⟨y, hy⟩ := exists_real_sum_mul_add a b 0 ha hb ⟨0, EReal.coe_zero.symm⟩
  exact ⟨y, by rw [← hy, add_zero]⟩

section
variable (x : SX.Idx → EReal) (wq wk : SW.Idx → EReal)

/-! ### The tiled computation's pieces are the abstract row's -/

/-- The scale word is 1/8: the two spellings of the logit agree. -/
theorem logitW_eq (b : Fin 4) (s t : Fin 2048) : logitW x wq wk b s t = logit x wq wk b s t := by
  rw [logitW, logit, word_eighth]

theorem nextMax_eq (b : Fin 4) (s : Fin 2048) (i : Fin 2) (m : EReal) :
    nextMax x wq wk b s i m = tMax (logit x wq wk b s) i m := by
  simp only [nextMax, tMax, logitW_eq, word_neg_inf]

theorem nextSum_eq (b : Fin 4) (s : Fin 2048) (i : Fin 2) (m l : EReal) :
    nextSum x wq wk b s i m l = tSum (logit x wq wk b s) i m l := by
  simp only [nextSum, tSum, logitW_eq, nextMax_eq]

theorem nextAcc_eq (b : Fin 4) (s : Fin 2048) (d : Fin 1024) (i : Fin 2) (m a : EReal) :
    nextAcc x wq wk b s d i m a = tAcc (logit x wq wk b s) (fun t => x (ix3 b t d)) i m a := by
  simp only [nextAcc, tAcc, logitW_eq, nextMax_eq]

/-! ### On real inputs the logits are reals -/

variable (hx : ∀ i, ∃ r : ℝ, x i = (r : EReal)) (hq : ∀ i, ∃ r : ℝ, wq i = (r : EReal))
  (hk : ∀ i, ∃ r : ℝ, wk i = (r : EReal))

include hx hq hk in
theorem exists_real_logit (b : Fin 4) (s t : Fin 2048) : ∃ y : ℝ, logit x wq wk b s t = (y : EReal) := by
  have hq' : ∀ e, ∃ y : ℝ, qv x wq b s e = (y : EReal) := fun e =>
    exists_real_dot (fun d => x (ix3 b s d)) (fun d => wq (ix2 d e)) (fun _ => hx _) (fun _ => hq _)
  have hk' : ∀ e, ∃ y : ℝ, kv x wk b t e = (y : EReal) := fun e =>
    exists_real_dot (fun d => x (ix3 b t d)) (fun d => wk (ix2 d e)) (fun _ => hx _) (fun _ => hk _)
  obtain ⟨y, hy⟩ : ∃ y : ℝ, dotqk x wq wk b s t = (y : EReal) :=
    exists_real_dot (fun e => qv x wq b s e) (fun e => kv x wk b t e) hq' hk'
  exact ⟨y * (1 / 8), by rw [logit, hy, EReal.coe_mul]⟩

/-! ### The theorem -/

include hx hq hk in
theorem tiled_eq_G_aux (b : Fin 4) (s : Fin 2048) (d : Fin 1024) :
    sum1 x wq wk b s = rowSum x wq wk b s
      ∧ acc1 x wq wk b s d = ∑ t : Fin 2048, weight x wq wk b s t * x (ix3 b t d) := by
  obtain ⟨L, hL⟩ : ∃ L : Fin 2048 → ℝ, ∀ t, logit x wq wk b s t = (L t : EReal) :=
    ⟨fun t => (exists_real_logit x wq wk hx hq hk b s t).choose,
      fun t => (exists_real_logit x wq wk hx hq hk b s t).choose_spec⟩
  obtain ⟨V, hV⟩ : ∃ V : Fin 2048 → ℝ, ∀ t, x (ix3 b t d) = (V t : EReal) :=
    ⟨fun t => (hx (ix3 b t d)).choose, fun t => (hx (ix3 b t d)).choose_spec⟩
  constructor
  · simp only [sum1, sum0, max0, negInf, zeroW, word_neg_inf, word_zero, nextSum_eq, nextMax_eq]
    rw [sum_two_tiles (logit x wq wk b s) L hL]
    rfl
  · simp only [acc1, acc0, max0, negInf, zeroW, word_neg_inf, word_zero, nextAcc_eq, nextMax_eq]
    rw [acc_two_tiles (logit x wq wk b s) (fun t => x (ix3 b t d)) L V hL hV]
    rfl

end

/-- On real inputs the two-tile running computation and the whole-row softmax give the same result. -/
theorem tiled_eq_G (x : SX.Idx → EReal) (wq wk : SW.Idx → EReal)
    (hx : ∀ i, ∃ r : ℝ, x i = (r : EReal)) (hq : ∀ i, ∃ r : ℝ, wq i = (r : EReal))
    (hk : ∀ i, ∃ r : ℝ, wk i = (r : EReal))
    (b : Fin 4) (s : Fin 2048) (d : Fin 1024) :
    tiled x wq wk b s d = G x wq wk (ix3 b s d) := by
  obtain ⟨hs, ha⟩ := tiled_eq_G_aux x wq wk hx hq hk b s d
  show Ideal.div (acc1 x wq wk b s d) (sum1 x wq wk b s)
    = Ideal.div (∑ t : Fin 2048, weight x wq wk b s t * x (ix3 b t d)) (rowSum x wq wk b s)
  rw [hs, ha]

end Cert.Attn

end
-- ==== Proof.lean ====
/-
  The certificate of a single-head attention layer computed by two kernels — a projection kernel (q = x·Wq, k = x·Wk and a
  copy of x, all rounded to bf16, which is the identity on the extended reals) and a flash-attention kernel that walks the
  keys in two tiles of 1024 with a running row maximum, row sum and weighted sum — against the plain formulation
  softmax(q·kᵀ / √64)·x.

  Over the extended reals the kernel's result array holds, entry by entry, the two-tile running form `Cert.Attn.tiled` of
  the three arguments (no finiteness needed: it is read off the program), and the reference's holds the whole-row form
  `Cert.Attn.G`. On finite inputs every logit is a real number, so rescaling the first tile's partial sums by
  exp(old maximum − new maximum) turns exp(ℓ − old maximum) into exp(ℓ − new maximum), the two tiles' sums add up to the
  whole row's, the row sum is a positive real, and dividing the weighted sum by it is the same as weighting by the
  normalised weights: `tiled = G`. The scale 1/8 the kernel multiplies by is the float 0.125 exactly, and the reference's
  divisor √64 is the real 8. The three frame claims: each kernel program runs its two regions between its host
  operations and touches no argument; the reference is a straight line of host operations.
-/
import proofs.«180799_j16922171146838_2_alg».proof.Defs
import proofs.«180799_j16922171146838_2_alg».proof.Proof.Gen.Kernel
import proofs.«180799_j16922171146838_2_alg».proof.Proof.Gen.KernelIdeal
import proofs.«180799_j16922171146838_2_alg».proof.Proof.Gen.ReferenceIdeal
import proofs.«180799_j16922171146838_2_alg».proof.Proof.Gen.Pre_finite_inputs
import proofs.«180799_j16922171146838_2_alg».proof.Proof.K.Frame
import proofs.«180799_j16922171146838_2_alg».proof.Proof.KI.KernelValue
import proofs.«180799_j16922171146838_2_alg».proof.Proof.RefValue
import proofs.«180799_j16922171146838_2_alg».proof.Proof.PreReal
import proofs.«180799_j16922171146838_2_alg».proof.Proof.TiledLaw

noncomputable section

namespace Cert.Proof

open Idealize.ShloMosaic Idealize.SL.Sem Idealize.ShloMosaic.ValueIdx

/-- The word-level kernel program runs and leaves its arguments as launched. -/
theorem frame_p : Cert.frame_Kernel := fun m ρ _ => Cert.Kernel.Hand.frame m ρ

/-- So does the kernel program read over the extended reals. -/
theorem frame_pi : Cert.frame_KernelIdeal := fun m ρ _ => Cert.KernelIdeal.Hand.frame m ρ

/-- The ideal pass rewrote nothing: the idealized kernel is the kernel's own text. -/
theorem preserves : Cert.preserves_Kernel_KernelIdeal := trivial

/-- On finite inputs the kernel's two-tile running form and the reference's whole-row form are one function of the
    arguments. -/
theorem algebraic : Cert.algebraic_KernelIdeal_ReferenceIdeal := by
  intro m ρ m' ρ' hpre hagree
  have hreal := fun c => Cert.Attn.real_of_pre m hpre c
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.KernelIdeal.Hand.run_value m ρ)
    obtain ⟨hx, hq, hk⟩ := hreal c
    funext j
    obtain ⟨b, s, d, rfl⟩ : ∃ (b : Fin 4) (s : Fin 2048) (d : Fin 1024), j = ix3 b s d := ⟨j 0, j 1, j 2, eq_ix3 j⟩
    exact Cert.Attn.tiled_eq_G _ _ _ hx hq hk b s d
  · have hreal' : ∀ c : Dev Cert.ReferenceIdeal.nD,
        (∀ i, ∃ r : ℝ, m' ((c.tc : Thread Cert.ReferenceIdeal.nD Cert.ReferenceIdeal.τ).loc Cert.ReferenceIdeal.main_arg0) i = (r : EReal))
        ∧ (∀ i, ∃ r : ℝ, m' ((c.tc : Thread Cert.ReferenceIdeal.nD Cert.ReferenceIdeal.τ).loc Cert.ReferenceIdeal.main_arg1) i = (r : EReal))
        ∧ (∀ i, ∃ r : ℝ, m' ((c.tc : Thread Cert.ReferenceIdeal.nD Cert.ReferenceIdeal.τ).loc Cert.ReferenceIdeal.main_arg2) i = (r : EReal)) := by
      intro c
      obtain ⟨a0, a1, a2⟩ := hagree c
      rw [a0, a1, a2]
      exact hreal c
    refine (θ_run Cert.ReferenceIdeal.defs _ _).mono (fun r h c => ⟨(h c).1.trans ?_, (h c).2⟩)
      (Cert.Attn.Ref.run m' ρ' hreal')
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_p, frame_pi, Cert.Attn.Ref.frame_ri, preserves, algebraic⟩

end Cert.Proof

end
